-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v92)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v92) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v129) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131072x13 : Shape := ⟨2, ![131072, 13]⟩
abbrev S131072x26 : Shape := ⟨2, ![131072, 26]⟩
abbrev S131072x39 : Shape := ⟨2, ![131072, 39]⟩
abbrev S131072 : Shape := ⟨1, ![131072]⟩
abbrev S13x16 : Shape := ⟨2, ![13, 16]⟩
abbrev S26x100000x16 : Shape := ⟨3, ![26, 100000, 16]⟩
abbrev S624x32 : Shape := ⟨2, ![624, 32]⟩
abbrev S32 : Shape := ⟨1, ![32]⟩
abbrev S32x32 : Shape := ⟨2, ![32, 32]⟩
abbrev S_ : Shape := ⟨0, ![]⟩

class Facts : Prop where
  bcast_S_S131072x13 : S_.BroadcastsInDim S131072x13 (![] : Fin 0 → Fin S131072x13.rank)
  reducesTo_S131072x13_S_d0_1 : S131072x13.ReducesTo [0, 1] S_
  h_S_ : 0 < S_.numel
  bcast_S_S131072x39 : S_.BroadcastsInDim S131072x39 (![] : Fin 0 → Fin S131072x39.rank)
  reducesTo_S131072x39_S_d0_1 : S131072x39.ReducesTo [0, 1] S_
  bcast_S_S131072 : S_.BroadcastsInDim S131072 (![] : Fin 0 → Fin S131072.rank)
  reducesTo_S131072_S_d0 : S131072.ReducesTo [0] S_
  bcast_S_S13x16 : S_.BroadcastsInDim S13x16 (![] : Fin 0 → Fin S13x16.rank)
  reducesTo_S13x16_S_d0_1 : S13x16.ReducesTo [0, 1] S_
  bcast_S_S26x100000x16 : S_.BroadcastsInDim S26x100000x16 (![] : Fin 0 → Fin S26x100000x16.rank)
  reducesTo_S26x100000x16_S_d0_1_2 : S26x100000x16.ReducesTo [0, 1, 2] S_
  bcast_S_S624x32 : S_.BroadcastsInDim S624x32 (![] : Fin 0 → Fin S624x32.rank)
  reducesTo_S624x32_S_d0_1 : S624x32.ReducesTo [0, 1] S_
  bcast_S_S32 : S_.BroadcastsInDim S32 (![] : Fin 0 → Fin S32.rank)
  reducesTo_S32_S_d0 : S32.ReducesTo [0] S_
  bcast_S_S32x32 : S_.BroadcastsInDim S32x32 (![] : Fin 0 → Fin S32x32.rank)
  reducesTo_S32x32_S_d0_1 : S32x32.ReducesTo [0, 1] S_

variable [Facts]

def fn_part4 {F : FTy → Type} [FloatOps F] (main_arg15 : FVec F S32 .f32) (main_arg16 : FVec F S32 .f32) (main_arg17 : FVec F S32 .f32) (main_v63 : IVec S_ 1) (main_v67 : IVec S_ 1) : IVec S_ 1 :=
  let main_v68 : IVec S_ 1 := andi main_v63 main_v67
  let main_v69 : FVec F S32 .f32 := Host.absf main_arg15
  let main_cst_26 : FVec F S_ .f32 := constant S_ .f32 0x7F800000#32
  let main_v70 : FVec F S32 .f32 := broadcastInDim S32 ![] bcast_S_S32 main_cst_26
  let main_v71 : IVec S32 1 := cmpf .olt main_v69 main_v70
  let main_c_27 : IVec S_ 1 := constantI S_ 1 1#1
  let main_v72 : IVec S_ 1 := (fun x v => Host.reduce IntOp.andi x v reducesTo_S32_S_d0 h_S_) main_v71 main_c_27
  let main_v73 : IVec S_ 1 := andi main_v68 main_v72
  let main_v74 : FVec F S32 .f32 := Host.absf main_arg16
  let main_cst_28 : FVec F S_ .f32 := constant S_ .f32 0x7F800000#32
  let main_v75 : FVec F S32 .f32 := broadcastInDim S32 ![] bcast_S_S32 main_cst_28
  let main_v76 : IVec S32 1 := cmpf .olt main_v74 main_v75
  let main_c_29 : IVec S_ 1 := constantI S_ 1 1#1
  let main_v77 : IVec S_ 1 := (fun x v => Host.reduce IntOp.andi x v reducesTo_S32_S_d0 h_S_) main_v76 main_c_29
  let main_v78 : IVec S_ 1 := andi main_v73 main_v77
  let main_v79 : FVec F S32 .f32 := Host.absf main_arg17
  let main_cst_30 : FVec F S_ .f32 := constant S_ .f32 0x7F800000#32
  let main_v80 : FVec F S32 .f32 := broadcastInDim S32 ![] bcast_S_S32 main_cst_30
  let main_v81 : IVec S32 1 := cmpf .olt main_v79 main_v80
  let main_c_31 : IVec S_ 1 := constantI S_ 1 1#1
  let main_v82 : IVec S_ 1 := (fun x v => Host.reduce IntOp.andi x v reducesTo_S32_S_d0 h_S_) main_v81 main_c_31
  let main_v83 : IVec S_ 1 := andi main_v78 main_v82
  main_v83

def fn_part3 {F : FTy → Type} [FloatOps F] (main_arg12 : FVec F S32 .f32) (main_arg13 : FVec F S32 .f32) (main_arg14 : FVec F S32x32 .f32) (main_arg15 : FVec F S32 .f32) (main_arg16 : FVec F S32 .f32) (main_arg17 : FVec F S32 .f32) (main_v48 : IVec S_ 1) (main_v49 : FVec F S32 .f32) (main_v50 : FVec F S32 .f32) : IVec S_ 1 :=
  let main_v51 : IVec S32 1 := cmpf .olt main_v49 main_v50
  let main_c_19 : IVec S_ 1 := constantI S_ 1 1#1
  let main_v52 : IVec S_ 1 := (fun x v => Host.reduce IntOp.andi x v reducesTo_S32_S_d0 h_S_) main_v51 main_c_19
  let main_v53 : IVec S_ 1 := andi main_v48 main_v52
  let main_v54 : FVec F S32 .f32 := Host.absf main_arg12
  let main_cst_20 : FVec F S_ .f32 := constant S_ .f32 0x7F800000#32
  let main_v55 : FVec F S32 .f32 := broadcastInDim S32 ![] bcast_S_S32 main_cst_20
  let main_v56 : IVec S32 1 := cmpf .olt main_v54 main_v55
  let main_c_21 : IVec S_ 1 := constantI S_ 1 1#1
  let main_v57 : IVec S_ 1 := (fun x v => Host.reduce IntOp.andi x v reducesTo_S32_S_d0 h_S_) main_v56 main_c_21
  let main_v58 : IVec S_ 1 := andi main_v53 main_v57
  let main_v59 : FVec F S32 .f32 := Host.absf main_arg13
  let main_cst_22 : FVec F S_ .f32 := constant S_ .f32 0x7F800000#32
  let main_v60 : FVec F S32 .f32 := broadcastInDim S32 ![] bcast_S_S32 main_cst_22
  let main_v61 : IVec S32 1 := cmpf .olt main_v59 main_v60
  let main_c_23 : IVec S_ 1 := constantI S_ 1 1#1
  let main_v62 : IVec S_ 1 := (fun x v => Host.reduce IntOp.andi x v reducesTo_S32_S_d0 h_S_) main_v61 main_c_23
  let main_v63 : IVec S_ 1 := andi main_v58 main_v62
  let main_v64 : FVec F S32x32 .f32 := Host.absf main_arg14
  let main_cst_24 : FVec F S_ .f32 := constant S_ .f32 0x7F800000#32
  let main_v65 : FVec F S32x32 .f32 := broadcastInDim S32x32 ![] bcast_S_S32x32 main_cst_24
  let main_v66 : IVec S32x32 1 := cmpf .olt main_v64 main_v65
  let main_c_25 : IVec S_ 1 := constantI S_ 1 1#1
  let main_v67 : IVec S_ 1 := (fun x v => Host.reduce IntOp.andi x v reducesTo_S32x32_S_d0_1 h_S_) main_v66 main_c_25
  fn_part4 (F := F) main_arg15 main_arg16 main_arg17 main_v63 main_v67

def fn_part2 {F : FTy → Type} [FloatOps F] (main_arg8 : FVec F S13x16 .f32) (main_arg9 : FVec F S26x100000x16 .f32) (main_arg10 : FVec F S624x32 .f32) (main_arg11 : FVec F S32 .f32) (main_arg12 : FVec F S32 .f32) (main_arg13 : FVec F S32 .f32) (main_arg14 : FVec F S32x32 .f32) (main_arg15 : FVec F S32 .f32) (main_arg16 : FVec F S32 .f32) (main_arg17 : FVec F S32 .f32) (main_v33 : IVec S_ 1) : IVec S_ 1 :=
  let main_v34 : FVec F S13x16 .f32 := Host.absf main_arg8
  let main_cst_12 : FVec F S_ .f32 := constant S_ .f32 0x7F800000#32
  let main_v35 : FVec F S13x16 .f32 := broadcastInDim S13x16 ![] bcast_S_S13x16 main_cst_12
  let main_v36 : IVec S13x16 1 := cmpf .olt main_v34 main_v35
  let main_c_13 : IVec S_ 1 := constantI S_ 1 1#1
  let main_v37 : IVec S_ 1 := (fun x v => Host.reduce IntOp.andi x v reducesTo_S13x16_S_d0_1 h_S_) main_v36 main_c_13
  let main_v38 : IVec S_ 1 := andi main_v33 main_v37
  let main_v39 : FVec F S26x100000x16 .f32 := Host.absf main_arg9
  let main_cst_14 : FVec F S_ .f32 := constant S_ .f32 0x7F800000#32
  let main_v40 : FVec F S26x100000x16 .f32 := broadcastInDim S26x100000x16 ![] bcast_S_S26x100000x16 main_cst_14
  let main_v41 : IVec S26x100000x16 1 := cmpf .olt main_v39 main_v40
  let main_c_15 : IVec S_ 1 := constantI S_ 1 1#1
  let main_v42 : IVec S_ 1 := (fun x v => Host.reduce IntOp.andi x v reducesTo_S26x100000x16_S_d0_1_2 h_S_) main_v41 main_c_15
  let main_v43 : IVec S_ 1 := andi main_v38 main_v42
  let main_v44 : FVec F S624x32 .f32 := Host.absf main_arg10
  let main_cst_16 : FVec F S_ .f32 := constant S_ .f32 0x7F800000#32
  let main_v45 : FVec F S624x32 .f32 := broadcastInDim S624x32 ![] bcast_S_S624x32 main_cst_16
  let main_v46 : IVec S624x32 1 := cmpf .olt main_v44 main_v45
  let main_c_17 : IVec S_ 1 := constantI S_ 1 1#1
  let main_v47 : IVec S_ 1 := (fun x v => Host.reduce IntOp.andi x v reducesTo_S624x32_S_d0_1 h_S_) main_v46 main_c_17
  let main_v48 : IVec S_ 1 := andi main_v43 main_v47
  let main_v49 : FVec F S32 .f32 := Host.absf main_arg11
  let main_cst_18 : FVec F S_ .f32 := constant S_ .f32 0x7F800000#32
  let main_v50 : FVec F S32 .f32 := broadcastInDim S32 ![] bcast_S_S32 main_cst_18
  fn_part3 (F := F) main_arg12 main_arg13 main_arg14 main_arg15 main_arg16 main_arg17 main_v48 main_v49 main_v50

def fn_part1 {F : FTy → Type} [FloatOps F] (main_arg5 : FVec F S13x16 .f32) (main_arg6 : FVec F S26x100000x16 .f32) (main_arg7 : FVec F S13x16 .f32) (main_arg8 : FVec F S13x16 .f32) (main_arg9 : FVec F S26x100000x16 .f32) (main_arg10 : FVec F S624x32 .f32) (main_arg11 : FVec F S32 .f32) (main_arg12 : FVec F S32 .f32) (main_arg13 : FVec F S32 .f32) (main_arg14 : FVec F S32x32 .f32) (main_arg15 : FVec F S32 .f32) (main_arg16 : FVec F S32 .f32) (main_arg17 : FVec F S32 .f32) (main_v13 : IVec S_ 1) (main_v16 : IVec S13x16 1) : IVec S_ 1 :=
  let main_c_5 : IVec S_ 1 := constantI S_ 1 1#1
  let main_v17 : IVec S_ 1 := (fun x v => Host.reduce IntOp.andi x v reducesTo_S13x16_S_d0_1 h_S_) main_v16 main_c_5
  let main_v18 : IVec S_ 1 := andi main_v13 main_v17
  let main_v19 : FVec F S13x16 .f32 := Host.absf main_arg5
  let main_cst_6 : FVec F S_ .f32 := constant S_ .f32 0x7F800000#32
  let main_v20 : FVec F S13x16 .f32 := broadcastInDim S13x16 ![] bcast_S_S13x16 main_cst_6
  let main_v21 : IVec S13x16 1 := cmpf .olt main_v19 main_v20
  let main_c_7 : IVec S_ 1 := constantI S_ 1 1#1
  let main_v22 : IVec S_ 1 := (fun x v => Host.reduce IntOp.andi x v reducesTo_S13x16_S_d0_1 h_S_) main_v21 main_c_7
  let main_v23 : IVec S_ 1 := andi main_v18 main_v22
  let main_v24 : FVec F S26x100000x16 .f32 := Host.absf main_arg6
  let main_cst_8 : FVec F S_ .f32 := constant S_ .f32 0x7F800000#32
  let main_v25 : FVec F S26x100000x16 .f32 := broadcastInDim S26x100000x16 ![] bcast_S_S26x100000x16 main_cst_8
  let main_v26 : IVec S26x100000x16 1 := cmpf .olt main_v24 main_v25
  let main_c_9 : IVec S_ 1 := constantI S_ 1 1#1
  let main_v27 : IVec S_ 1 := (fun x v => Host.reduce IntOp.andi x v reducesTo_S26x100000x16_S_d0_1_2 h_S_) main_v26 main_c_9
  let main_v28 : IVec S_ 1 := andi main_v23 main_v27
  let main_v29 : FVec F S13x16 .f32 := Host.absf main_arg7
  let main_cst_10 : FVec F S_ .f32 := constant S_ .f32 0x7F800000#32
  let main_v30 : FVec F S13x16 .f32 := broadcastInDim S13x16 ![] bcast_S_S13x16 main_cst_10
  let main_v31 : IVec S13x16 1 := cmpf .olt main_v29 main_v30
  let main_c_11 : IVec S_ 1 := constantI S_ 1 1#1
  let main_v32 : IVec S_ 1 := (fun x v => Host.reduce IntOp.andi x v reducesTo_S13x16_S_d0_1 h_S_) main_v31 main_c_11
  let main_v33 : IVec S_ 1 := andi main_v28 main_v32
  fn_part2 (F := F) main_arg8 main_arg9 main_arg10 main_arg11 main_arg12 main_arg13 main_arg14 main_arg15 main_arg16 main_arg17 main_v33

def fn {F : FTy → Type} [FloatOps F] (main_arg0 : FVec F S131072x13 .f32) (main_arg1 : IVec S131072x26 32) (main_arg2 : FVec F S131072x39 .f32) (main_arg3 : FVec F S131072 .f32) (main_arg4 : FVec F S13x16 .f32) (main_arg5 : FVec F S13x16 .f32) (main_arg6 : FVec F S26x100000x16 .f32) (main_arg7 : FVec F S13x16 .f32) (main_arg8 : FVec F S13x16 .f32) (main_arg9 : FVec F S26x100000x16 .f32) (main_arg10 : FVec F S624x32 .f32) (main_arg11 : FVec F S32 .f32) (main_arg12 : FVec F S32 .f32) (main_arg13 : FVec F S32 .f32) (main_arg14 : FVec F S32x32 .f32) (main_arg15 : FVec F S32 .f32) (main_arg16 : FVec F S32 .f32) (main_arg17 : FVec F S32 .f32) : IVec S_ 1 :=
  let main_v0 : FVec F S131072x13 .f32 := Host.absf main_arg0
  let main_cst : FVec F S_ .f32 := constant S_ .f32 0x7F800000#32
  let main_v1 : FVec F S131072x13 .f32 := broadcastInDim S131072x13 ![] bcast_S_S131072x13 main_cst
  let main_v2 : IVec S131072x13 1 := cmpf .olt main_v0 main_v1
  let main_c : IVec S_ 1 := constantI S_ 1 1#1
  let main_v3 : IVec S_ 1 := (fun x v => Host.reduce IntOp.andi x v reducesTo_S131072x13_S_d0_1 h_S_) main_v2 main_c
  let main_v4 : FVec F S131072x39 .f32 := Host.absf main_arg2
  let main_cst_0 : FVec F S_ .f32 := constant S_ .f32 0x7F800000#32
  let main_v5 : FVec F S131072x39 .f32 := broadcastInDim S131072x39 ![] bcast_S_S131072x39 main_cst_0
  let main_v6 : IVec S131072x39 1 := cmpf .olt main_v4 main_v5
  let main_c_1 : IVec S_ 1 := constantI S_ 1 1#1
  let main_v7 : IVec S_ 1 := (fun x v => Host.reduce IntOp.andi x v reducesTo_S131072x39_S_d0_1 h_S_) main_v6 main_c_1
  let main_v8 : IVec S_ 1 := andi main_v3 main_v7
  let main_v9 : FVec F S131072 .f32 := Host.absf main_arg3
  let main_cst_2 : FVec F S_ .f32 := constant S_ .f32 0x7F800000#32
  let main_v10 : FVec F S131072 .f32 := broadcastInDim S131072 ![] bcast_S_S131072 main_cst_2
  let main_v11 : IVec S131072 1 := cmpf .olt main_v9 main_v10
  let main_c_3 : IVec S_ 1 := constantI S_ 1 1#1
  let main_v12 : IVec S_ 1 := (fun x v => Host.reduce IntOp.andi x v reducesTo_S131072_S_d0 h_S_) main_v11 main_c_3
  let main_v13 : IVec S_ 1 := andi main_v8 main_v12
  let main_v14 : FVec F S13x16 .f32 := Host.absf main_arg4
  let main_cst_4 : FVec F S_ .f32 := constant S_ .f32 0x7F800000#32
  let main_v15 : FVec F S13x16 .f32 := broadcastInDim S13x16 ![] bcast_S_S13x16 main_cst_4
  let main_v16 : IVec S13x16 1 := cmpf .olt main_v14 main_v15
  fn_part1 (F := F) main_arg5 main_arg6 main_arg7 main_arg8 main_arg9 main_arg10 main_arg11 main_arg12 main_arg13 main_arg14 main_arg15 main_arg16 main_arg17 main_v13 main_v16
-- ==== Kernel.lean ====
abbrev S131072x13 : Shape := ⟨2, ![131072, 13]⟩
abbrev S131072x26 : Shape := ⟨2, ![131072, 26]⟩
abbrev S131072x39 : Shape := ⟨2, ![131072, 39]⟩
abbrev S131072 : Shape := ⟨1, ![131072]⟩
abbrev S13x16 : Shape := ⟨2, ![13, 16]⟩
abbrev S26x100000x16 : Shape := ⟨3, ![26, 100000, 16]⟩
abbrev S624x32 : Shape := ⟨2, ![624, 32]⟩
abbrev S32 : Shape := ⟨1, ![32]⟩
abbrev S32x32 : Shape := ⟨2, ![32, 32]⟩
abbrev S26 : Shape := ⟨1, ![26]⟩
abbrev S1x26 : Shape := ⟨2, ![1, 26]⟩
abbrev S_ : Shape := ⟨0, ![]⟩
abbrev S131072x26x1 : Shape := ⟨3, ![131072, 26, 1]⟩
abbrev S131072x26x2 : Shape := ⟨3, ![131072, 26, 2]⟩
abbrev S131072x26x16 : Shape := ⟨3, ![131072, 26, 16]⟩
abbrev S208x32 : Shape := ⟨2, ![208, 32]⟩
abbrev S416x32 : Shape := ⟨2, ![416, 32]⟩
abbrev S131072x32 : Shape := ⟨2, ![131072, 32]⟩
abbrev S128x13 : Shape := ⟨2, ![128, 13]⟩
abbrev S128x26x16 : Shape := ⟨3, ![128, 26, 16]⟩
abbrev S128x26 : Shape := ⟨2, ![128, 26]⟩
abbrev S128 : Shape := ⟨1, ![128]⟩
abbrev S128x32 : Shape := ⟨2, ![128, 32]⟩
abbrev S128x13x1 : Shape := ⟨3, ![128, 13, 1]⟩
abbrev S1x13x16 : Shape := ⟨3, ![1, 13, 16]⟩
abbrev S128x13x16 : Shape := ⟨3, ![128, 13, 16]⟩
abbrev S128x26x1 : Shape := ⟨3, ![128, 26, 1]⟩
abbrev S128x16 : Shape := ⟨2, ![128, 16]⟩
abbrev S128x208 : Shape := ⟨2, ![128, 208]⟩
abbrev S128x416 : Shape := ⟨2, ![128, 416]⟩
abbrev S1x32 : Shape := ⟨2, ![1, 32]⟩

abbrev nBuf : Space → Nat
  | .hbm => 131
  | .vmem => 23
  | .smem => 0
  | _ => 0

abbrev hbmTy0_0 (i : Nat) : BufTy := match i % 128 with
  | 0 => ⟨S131072x13, .f32⟩
  | 1 => ⟨S131072x26, .i32⟩
  | 2 => ⟨S131072x39, .f32⟩
  | 3 => ⟨S131072, .f32⟩
  | 4 => ⟨S13x16, .f32⟩
  | 5 => ⟨S13x16, .f32⟩
  | 6 => ⟨S26x100000x16, .f32⟩
  | 7 => ⟨S13x16, .f32⟩
  | 8 => ⟨S13x16, .f32⟩
  | 9 => ⟨S26x100000x16, .f32⟩
  | 10 => ⟨S624x32, .f32⟩
  | 11 => ⟨S32, .f32⟩
  | 12 => ⟨S32, .f32⟩
  | 13 => ⟨S32, .f32⟩
  | 14 => ⟨S32x32, .f32⟩
  | 15 => ⟨S32, .f32⟩
  | 16 => ⟨S32, .f32⟩
  | 17 => ⟨S32, .f32⟩
  | 18 => ⟨S26, .i32⟩
  | 19 => ⟨S1x26, .i32⟩
  | 20 => ⟨S_, .i32⟩
  | 21 => ⟨S1x26, .i32⟩
  | 22 => ⟨S1x26, .i1⟩
  | 23 => ⟨S_, .i32⟩
  | 24 => ⟨S1x26, .i32⟩
  | 25 => ⟨S1x26, .i32⟩
  | 26 => ⟨S1x26, .i32⟩
  | 27 => ⟨S_, .i32⟩
  | 28 => ⟨S131072x26, .i32⟩
  | 29 => ⟨S131072x26, .i1⟩
  | 30 => ⟨S_, .i32⟩
  | 31 => ⟨S131072x26, .i32⟩
  | 32 => ⟨S131072x26, .i32⟩
  | 33 => ⟨S131072x26, .i32⟩
  | 34 => ⟨S131072x26, .i32⟩
  | 35 => ⟨S131072x26x1, .i32⟩
  | 36 => ⟨S131072x26x1, .i32⟩
  | 37 => ⟨S131072x26x2, .i32⟩
  | 38 => ⟨S131072x26x16, .f32⟩
  | 39 => ⟨S_, .i32⟩
  | 40 => ⟨S1x26, .i32⟩
  | 41 => ⟨S1x26, .i1⟩
  | 42 => ⟨S_, .i32⟩
  | 43 => ⟨S1x26, .i32⟩
  | 44 => ⟨S1x26, .i32⟩
  | 45 => ⟨S1x26, .i32⟩
  | 46 => ⟨S_, .i32⟩
  | 47 => ⟨S131072x26, .i32⟩
  | 48 => ⟨S131072x26, .i1⟩
  | 49 => ⟨S_, .i32⟩
  | 50 => ⟨S131072x26, .i32⟩
  | 51 => ⟨S131072x26, .i32⟩
  | 52 => ⟨S131072x26, .i32⟩
  | 53 => ⟨S131072x26, .i32⟩
  | 54 => ⟨S131072x26x1, .i32⟩
  | 55 => ⟨S131072x26x1, .i32⟩
  | 56 => ⟨S131072x26x2, .i32⟩
  | 57 => ⟨S131072x26x16, .f32⟩
  | 58 => ⟨S131072x13, .f32⟩
  | 59 => ⟨S131072x26, .f32⟩
  | 60 => ⟨S208x32, .f32⟩
  | 61 => ⟨S416x32, .f32⟩
  | 62 => ⟨S131072, .f32⟩
  | 63 => ⟨S131072x32, .f32⟩
  | 64 => ⟨S_, .f32⟩
  | 65 => ⟨S32, .f32⟩
  | 66 => ⟨S_, .f32⟩
  | 67 => ⟨S32, .f32⟩
  | 68 => ⟨S32, .f32⟩
  | 69 => ⟨S1x32, .f32⟩
  | 70 => ⟨S131072x32, .f32⟩
  | 71 => ⟨S131072x32, .f32⟩
  | 72 => ⟨S131072x32, .f32⟩
  | 73 => ⟨S_, .f32⟩
  | 74 => ⟨S32, .f32⟩
  | 75 => ⟨S_, .f32⟩
  | 76 => ⟨S32, .f32⟩
  | 77 => ⟨S32, .f32⟩
  | 78 => ⟨S1x32, .f32⟩
  | 79 => ⟨S131072x32, .f32⟩
  | 80 => ⟨S131072x32, .f32⟩
  | 81 => ⟨S1x32, .f32⟩
  | 82 => ⟨S131072x32, .f32⟩
  | 83 => ⟨S131072x32, .f32⟩
  | 84 => ⟨S_, .f32⟩
  | 85 => ⟨S32, .f32⟩
  | 86 => ⟨S32, .f32⟩
  | 87 => ⟨S32, .f32⟩
  | 88 => ⟨S1x32, .f32⟩
  | 89 => ⟨S131072x32, .f32⟩
  | 90 => ⟨S131072x32, .f32⟩
  | 91 => ⟨S1x32, .f32⟩
  | 92 => ⟨S131072x32, .f32⟩
  | 93 => ⟨S131072x32, .f32⟩
  | 94 => ⟨S131072x32, .f32⟩
  | 95 => ⟨S1x32, .f32⟩
  | 96 => ⟨S131072x32, .f32⟩
  | 97 => ⟨S131072x32, .f32⟩
  | 98 => ⟨S_, .f32⟩
  | 99 => ⟨S32, .f32⟩
  | 100 => ⟨S_, .f32⟩
  | 101 => ⟨S32, .f32⟩
  | 102 => ⟨S32, .f32⟩
  | 103 => ⟨S1x32, .f32⟩
  | 104 => ⟨S131072x32, .f32⟩
  | 105 => ⟨S131072x32, .f32⟩
  | 106 => ⟨S131072x32, .f32⟩
  | 107 => ⟨S_, .f32⟩
  | 108 => ⟨S32, .f32⟩
  | 109 => ⟨S_, .f32⟩
  | 110 => ⟨S32, .f32⟩
  | 111 => ⟨S32, .f32⟩
  | 112 => ⟨S1x32, .f32⟩
  | 113 => ⟨S131072x32, .f32⟩
  | 114 => ⟨S131072x32, .f32⟩
  | 115 => ⟨S1x32, .f32⟩
  | 116 => ⟨S131072x32, .f32⟩
  | 117 => ⟨S131072x32, .f32⟩
  | 118 => ⟨S_, .f32⟩
  | 119 => ⟨S32, .f32⟩
  | 120 => ⟨S32, .f32⟩
  | 121 => ⟨S32, .f32⟩
  | 122 => ⟨S1x32, .f32⟩
  | 123 => ⟨S131072x32, .f32⟩
  | 124 => ⟨S131072x32, .f32⟩
  | 125 => ⟨S1x32, .f32⟩
  | 126 => ⟨S131072x32, .f32⟩
  | 127 => ⟨S131072x32, .f32⟩
  | _ => ⟨S131072x13, .f32⟩

abbrev hbmTy0_1 (i : Nat) : BufTy := match i % 128 with
  | 0 => ⟨S_, .f32⟩
  | 1 => ⟨S131072, .f32⟩
  | 2 => ⟨S131072, .f32⟩
  | _ => ⟨S131072x13, .f32⟩

abbrev hbmTy (i : Nat) : BufTy := match i / 128 with
  | 0 => hbmTy0_0 i
  | 1 => hbmTy0_1 i
  | _ => ⟨S131072x13, .f32⟩

abbrev bufTy : (tb : Table) → Fin (tcTables nBuf tb) → BufTy
  | .hbm, ⟨i, _⟩ => hbmTy i
  | .local _ .vmem, ⟨0, _⟩ => ⟨S128x13, .f32⟩
  | .local _ .vmem, ⟨1, _⟩ => ⟨S128x13, .f32⟩
  | .local _ .vmem, ⟨2, _⟩ => ⟨S128x26x16, .f32⟩
  | .local _ .vmem, ⟨3, _⟩ => ⟨S128x26x16, .f32⟩
  | .local _ .vmem, ⟨4, _⟩ => ⟨S128x26x16, .f32⟩
  | .local _ .vmem, ⟨5, _⟩ => ⟨S128x26x16, .f32⟩
  | .local _ .vmem, ⟨6, _⟩ => ⟨S128x13, .f32⟩
  | .local _ .vmem, ⟨7, _⟩ => ⟨S128x13, .f32⟩
  | .local _ .vmem, ⟨8, _⟩ => ⟨S128x26, .f32⟩
  | .local _ .vmem, ⟨9, _⟩ => ⟨S128x26, .f32⟩
  | .local _ .vmem, ⟨10, _⟩ => ⟨S128, .f32⟩
  | .local _ .vmem, ⟨11, _⟩ => ⟨S128, .f32⟩
  | .local _ .vmem, ⟨12, _⟩ => ⟨S13x16, .f32⟩
  | .local _ .vmem, ⟨13, _⟩ => ⟨S13x16, .f32⟩
  | .local _ .vmem, ⟨14, _⟩ => ⟨S13x16, .f32⟩
  | .local _ .vmem, ⟨15, _⟩ => ⟨S13x16, .f32⟩
  | .local _ .vmem, ⟨16, _⟩ => ⟨S208x32, .f32⟩
  | .local _ .vmem, ⟨17, _⟩ => ⟨S416x32, .f32⟩
  | .local _ .vmem, ⟨18, _⟩ => ⟨S32, .f32⟩
  | .local _ .vmem, ⟨19, _⟩ => ⟨S128, .f32⟩
  | .local _ .vmem, ⟨20, _⟩ => ⟨S128, .f32⟩
  | .local _ .vmem, ⟨21, _⟩ => ⟨S128x32, .f32⟩
  | .local _ .vmem, ⟨22, _⟩ => ⟨S128x32, .f32⟩
  | _, _ => ⟨S131072x13, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_c : Ref sig .tc := ⟨.hbm, 20, rfl⟩
abbrev main_v2 : Ref sig .tc := ⟨.hbm, 21, rfl⟩
abbrev main_v3 : Ref sig .tc := ⟨.hbm, 22, rfl⟩
abbrev main_c_0 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_c_1 : Ref sig .tc := ⟨.hbm, 27, rfl⟩
abbrev main_v7 : Ref sig .tc := ⟨.hbm, 28, rfl⟩
abbrev main_v8 : Ref sig .tc := ⟨.hbm, 29, rfl⟩
abbrev main_c_2 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_c_3 : Ref sig .tc := ⟨.hbm, 39, rfl⟩
abbrev main_v17 : Ref sig .tc := ⟨.hbm, 40, rfl⟩
abbrev main_v18 : Ref sig .tc := ⟨.hbm, 41, rfl⟩
abbrev main_c_4 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_c_5 : Ref sig .tc := ⟨.hbm, 46, rfl⟩
abbrev main_v22 : Ref sig .tc := ⟨.hbm, 47, rfl⟩
abbrev main_v23 : Ref sig .tc := ⟨.hbm, 48, rfl⟩
abbrev main_c_6 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36_0 : Ref sig .tc := ⟨.hbm, 62, rfl⟩
abbrev main_v36_1 : Ref sig .tc := ⟨.hbm, 63, rfl⟩
abbrev main_cst : Ref sig .tc := ⟨.hbm, 64, rfl⟩
abbrev main_v37 : Ref sig .tc := ⟨.hbm, 65, rfl⟩
abbrev main_cst_7 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_cst_8 : Ref sig .tc := ⟨.hbm, 73, rfl⟩
abbrev main_v44 : Ref sig .tc := ⟨.hbm, 74, rfl⟩
abbrev main_cst_9 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_cst_10 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_cst_11 : Ref sig .tc := ⟨.hbm, 98, rfl⟩
abbrev main_v66 : Ref sig .tc := ⟨.hbm, 99, rfl⟩
abbrev main_cst_12 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_cst_13 : Ref sig .tc := ⟨.hbm, 107, rfl⟩
abbrev main_v73 : Ref sig .tc := ⟨.hbm, 108, rfl⟩
abbrev main_cst_14 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_cst_15 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_cst_16 : Ref sig .tc := ⟨.hbm, 128, rfl⟩
abbrev main_v91 : Ref sig .tc := ⟨.hbm, 129, rfl⟩
abbrev main_v92 : Ref sig .tc := ⟨.hbm, 130, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg13_0 : Ref sig .tc := ⟨.vmem, 19, rfl⟩
abbrev cc0_stg13_1 : Ref sig .tc := ⟨.vmem, 20, rfl⟩
abbrev cc0_stg14_0 : Ref sig .tc := ⟨.vmem, 21, rfl⟩
abbrev cc0_stg14_1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem13_0 : DmaSem sig := 19
abbrev cc0_sem13_1 : DmaSem sig := 20
abbrev cc0_sem14_0 : DmaSem sig := 21
abbrev cc0_sem14_1 : DmaSem sig := 22

abbrev nD : Nat := 1
abbrev τ : Topo := Topo.v7x

variable {F : FTy → Type} [FloatOps F]

abbrev grid0 : Pipeline.Grid := ⟨1, ![1024], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 1 → Nat :=
  let arg0 : BitVec 32 := BitVec.ofNat 32 (i 0).val
  let c0_i32 : BitVec 32 := 0#32
  ![arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_13 (i : grid0.Coords) : Fin 1 → Nat :=
  let arg0 : BitVec 32 := BitVec.ofNat 32 (i 0).val
  let c0_i32 : BitVec 32 := 0#32
  ![arg0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x13 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x26x16 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x26x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x13 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x26 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S13x16 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S13x16 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S13x16 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S13x16 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S208x32 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S416x32 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S32 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S128x32 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

class Facts₀ : Prop where
  bcast_S26_S1x26_1 : S26.BroadcastsInDim S1x26 (![1] : Fin 1 → Fin S1x26.rank)
  bcast_S_S1x26 : S_.BroadcastsInDim S1x26 (![] : Fin 0 → Fin S1x26.rank)
  bcast_S_S131072x26 : S_.BroadcastsInDim S131072x26 (![] : Fin 0 → Fin S131072x26.rank)
  bcast_S1x26_S131072x26_0_1 : S1x26.BroadcastsInDim S131072x26 (![0, 1] : Fin 2 → Fin S131072x26.rank)
  bcast_S131072x26_S131072x26x1_0_1 : S131072x26.BroadcastsInDim S131072x26x1 (![0, 1] : Fin 2 → Fin S131072x26x1.rank)
  concatenates_S131072x26x1_S131072x26x1_S131072x26x2_d2 : Shape.Concatenates [S131072x26x1, S131072x26x1] S131072x26x2 2
  slices_S131072x39_S131072x13_0_0 : S131072x39.Slices ![0, 0] S131072x13
  slices_S131072x39_S131072x26_0_13 : S131072x39.Slices ![0, 13] S131072x26
  slices_S624x32_S208x32_0_0 : S624x32.Slices ![0, 0] S208x32
  slices_S624x32_S416x32_208_0 : S624x32.Slices ![208, 0] S416x32
  inb_S128x13_S128x13_0_0 : ∀ a, (![0, 0] : Fin 2 → Nat) a + S128x13.size a ≤ S128x13.size a
  h_S128x13 : 0 < S128x13.numel
  shapeCasts_S128x13_S128x13 : S128x13.ShapeCasts S128x13
  inb_S128x26_S128x26_0_0 : ∀ a, (![0, 0] : Fin 2 → Nat) a + S128x26.size a ≤ S128x26.size a
  h_S128x26 : 0 < S128x26.numel
  shapeCasts_S128x26_S128x26 : S128x26.ShapeCasts S128x26
  inb_S128x26x16_S128x26x16_0_0_0 : ∀ a, (![0, 0, 0] : Fin 3 → Nat) a + S128x26x16.size a ≤ S128x26x16.size a
  h_S128x26x16 : 0 < S128x26x16.numel
  shapeCasts_S128x26x16_S128x26x16 : S128x26x16.ShapeCasts S128x26x16
  inb_S13x16_S13x16_0_0 : ∀ a, (![0, 0] : Fin 2 → Nat) a + S13x16.size a ≤ S13x16.size a
  h_S13x16 : 0 < S13x16.numel
  shapeCasts_S128x13_S128x13x1 : S128x13.ShapeCasts S128x13x1
  shapeCasts_S13x16_S1x13x16 : S13x16.ShapeCasts S1x13x16
  broadcasts_S128x13x1_S128x13x16 : S128x13x1.Broadcasts S128x13x16
  broadcasts_S1x13x16_S128x13x16 : S1x13x16.Broadcasts S128x13x16
  shapeCasts_S128x26_S128x26x1 : S128x26.ShapeCasts S128x26x1
  broadcasts_S128x26x1_S128x26x16 : S128x26x1.Broadcasts S128x26x16
  reduces_S128x13x16_S128x16 : S128x13x16.Reduces [1] S128x16
  reduces_S128x16_S128 : S128x16.Reduces [1] S128
  reduces_S128x26x16_S128x16 : S128x26x16.Reduces [1] S128x16
  inb_S128_S128_0 : ∀ a, (![0] : Fin 1 → Nat) a + S128.size a ≤ S128.size a
  h_S128 : 0 < S128.numel
  inb_S208x32_S208x32_0_0 : ∀ a, (![0, 0] : Fin 2 → Nat) a + S208x32.size a ≤ S208x32.size a
  h_S208x32 : 0 < S208x32.numel
  shapeCasts_S208x32_S208x32 : S208x32.ShapeCasts S208x32
  bitsLt_bf16_f32 : FTy.bits .bf16 < FTy.bits .f32
  inb_S416x32_S416x32_0_0 : ∀ a, (![0, 0] : Fin 2 → Nat) a + S416x32.size a ≤ S416x32.size a
  h_S416x32 : 0 < S416x32.numel
  shapeCasts_S416x32_S416x32 : S416x32.ShapeCasts S416x32
  shapeCasts_S128x13x16_S128x208 : S128x13x16.ShapeCasts S128x208
  shapeCasts_S128x26x16_S128x416 : S128x26x16.ShapeCasts S128x416
  inb_S32_S32_0 : ∀ a, (![0] : Fin 1 → Nat) a + S32.size a ≤ S32.size a
  h_S32 : 0 < S32.numel
  shapeCasts_S32_S1x32 : S32.ShapeCasts S1x32
  broadcasts_S1x32_S128x32 : S1x32.Broadcasts S128x32
  inb_S128x32_S128x32_0_0 : ∀ a, (![0, 0] : Fin 2 → Nat) a + S128x32.size a ≤ S128x32.size a
  h_S128x32 : 0 < S128x32.numel
  reducesTo_S131072x32_S32_d0 : S131072x32.ReducesTo [0] S32
  h_S_ : 0 < S_.numel
  bcast_S_S32 : S_.BroadcastsInDim S32 (![] : Fin 0 → Fin S32.rank)
  bcast_S32_S1x32_1 : S32.BroadcastsInDim S1x32 (![1] : Fin 1 → Fin S1x32.rank)
  bcast_S1x32_S131072x32_0_1 : S1x32.BroadcastsInDim S131072x32 (![0, 1] : Fin 2 → Fin S131072x32.rank)
  reducesTo_S131072x32_S131072_d1 : S131072x32.ReducesTo [1] S131072
  gather_S26x100000x16_S131072x26x2_S131072x26x16_2_01_n_n_01_2_1116_wf : GatherDims.WF S26x100000x16 S131072x26x2 S131072x26x16 [2] [0, 1] [] [0, 1] [] 2 ![1, 1, 16]
  dot_S128x208_S208x32_S128x32_1_0_0_1_n_n_wf : DotDims.WF S128x208 S208x32 S128x32 [1] [0] [0] [1] [] []
  dot_S128x416_S416x32_S128x32_1_0_0_1_n_n_wf : DotDims.WF S128x416 S416x32 S128x32 [1] [0] [0] [1] [] []
  dot_S131072x32_S32x32_S131072x32_1_0_0_1_n_n_wf : DotDims.WF S131072x32 S32x32 S131072x32 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x13.size a ≤ S131072x13.size a
  hwx0_0 : ∀ i : grid0.Coords, EltTy.bits .f32 = 32 ∨ (Rect.block (s := S131072x13) S128x13.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x26x16.size a ≤ S131072x26x16.size a
  hwx0_1 : ∀ i : grid0.Coords, EltTy.bits .f32 = 32 ∨ (Rect.block (s := S131072x26x16) S128x26x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x26x16.size a ≤ S131072x26x16.size a
  hwx0_2 : ∀ i : grid0.Coords, EltTy.bits .f32 = 32 ∨ (Rect.block (s := S131072x26x16) S128x26x16.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S128x13.size a ≤ S131072x13.size a
  hwx0_3 : ∀ i : grid0.Coords, EltTy.bits .f32 = 32 ∨ (Rect.block (s := S131072x13) S128x13.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S128x26.size a ≤ S131072x26.size a
  hwx0_4 : ∀ i : grid0.Coords, EltTy.bits .f32 = 32 ∨ (Rect.block (s := S131072x26) S128x26.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S128.size a ≤ S131072.size a
  hwx0_5 : ∀ i : grid0.Coords, EltTy.bits .f32 = 32 ∨ (Rect.block (s := S131072) S128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S13x16.size a ≤ S13x16.size a
  hwx0_6 : ∀ i : grid0.Coords, EltTy.bits .f32 = 32 ∨ (Rect.block (s := S13x16) S13x16.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S13x16.size a ≤ S13x16.size a
  hwx0_7 : ∀ i : grid0.Coords, EltTy.bits .f32 = 32 ∨ (Rect.block (s := S13x16) S13x16.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S13x16.size a ≤ S13x16.size a
  hwx0_8 : ∀ i : grid0.Coords, EltTy.bits .f32 = 32 ∨ (Rect.block (s := S13x16) S13x16.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S13x16.size a ≤ S13x16.size a
  hwx0_9 : ∀ i : grid0.Coords, EltTy.bits .f32 = 32 ∨ (Rect.block (s := S13x16) S13x16.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S208x32.size a ≤ S208x32.size a
  hwx0_10 : ∀ i : grid0.Coords, EltTy.bits .f32 = 32 ∨ (Rect.block (s := S208x32) S208x32.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S416x32.size a ≤ S416x32.size a
  hwx0_11 : ∀ i : grid0.Coords, EltTy.bits .f32 = 32 ∨ (Rect.block (s := S416x32) S416x32.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S32.size a ≤ S32.size a
  hwx0_12 : ∀ i : grid0.Coords, EltTy.bits .f32 = 32 ∨ (Rect.block (s := S32) S32.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S128.size a ≤ S131072.size a
  hwx0_13 : ∀ i : grid0.Coords, EltTy.bits .f32 = 32 ∨ (Rect.block (s := S131072) S128.size (cc0_transform_13 i) (hinb0_13 i)).WholeWords (EltTy.packing .f32)
  hstage0_14 : ∀ j, (stage0_14 j).IsWhole
  nbuf0_14 : grid0.bufCount reads0_14 false = 2
  hreads0_14 : ∀ i i' : grid0.Coords, (∀ a, reads0_14 a = true → i a = i' a) → cc0_transform_14 i = cc0_transform_14 i'
  hinb0_14 : ∀ (i : grid0.Coords) a, (cc0_transform_14 i a + 1) * S128x32.size a ≤ S131072x32.size a
  hwx0_14 : ∀ i : grid0.Coords, EltTy.bits .f32 = 32 ∨ (Rect.block (s := S131072x32) S128x32.size (cc0_transform_14 i) (hinb0_14 i)).WholeWords (EltTy.packing .f32)

variable [Facts₀]

def gather_S26x100000x16_S131072x26x2_S131072x26x16_2_01_n_n_01_2_1116 : GatherDims S26x100000x16 S131072x26x2 S131072x26x16 where
  offsetDims := [2]
  collapsedSliceDims := [0, 1]
  operandBatchingDims := []
  startIndicesBatchingDims := []
  startIndexMap := [0, 1]
  indexVectorDim := 2
  sliceSizes := ![1, 1, 16]
  wf := gather_S26x100000x16_S131072x26x2_S131072x26x16_2_01_n_n_01_2_1116_wf
def dot_S128x208_S208x32_S128x32_1_0_0_1_n_n : DotDims S128x208 S208x32 S128x32 where
  lhsContracting := [1]
  rhsContracting := [0]
  lhsNonContracting := [0]
  rhsNonContracting := [1]
  lhsBatch := []
  rhsBatch := []
  wf := dot_S128x208_S208x32_S128x32_1_0_0_1_n_n_wf
def dot_S128x416_S416x32_S128x32_1_0_0_1_n_n : DotDims S128x416 S416x32 S128x32 where
  lhsContracting := [1]
  rhsContracting := [0]
  lhsNonContracting := [0]
  rhsNonContracting := [1]
  lhsBatch := []
  rhsBatch := []
  wf := dot_S128x416_S416x32_S128x32_1_0_0_1_n_n_wf
def dot_S131072x32_S32x32_S131072x32_1_0_0_1_n_n : DotDims S131072x32 S32x32 S131072x32 where
  lhsContracting := [1]
  rhsContracting := [0]
  lhsNonContracting := [0]
  rhsNonContracting := [1]
  lhsBatch := []
  rhsBatch := []
  wf := dot_S131072x32_S32x32_S131072x32_1_0_0_1_n_n_wf

abbrev win0_0 : Pipeline.Window sig grid0 :=
  Pipeline.Window.ofSpec (Memref.whole main_arg0) S128x13.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v16) S128x26x16.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v31) S128x26x16.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v32) S128x13.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v33) S128x26.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg3) S128.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_arg4) S13x16.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg5) S13x16.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg7) S13x16.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg8) S13x16.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v34) S208x32.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v35) S416x32.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_arg11) S32.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v36_0) S128.size cc0_transform_13 reads0_13 true false 2 stage0_13 sem0_13
    hrank0 hreads0_13 hinb0_13 nbuf0_13 (Memref.isWhole_whole _) hwx0_13 hstage0_13

abbrev win0_14 : Pipeline.Window sig grid0 :=
  Pipeline.Window.ofSpec (Memref.whole main_v36_1) S128x32.size cc0_transform_14 reads0_14 true false 2 stage0_14 sem0_14
    hrank0 hreads0_14 hinb0_14 nbuf0_14 (Memref.isWhole_whole _) hwx0_14 hstage0_14

abbrev win0 : Fin 15 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | ⟨_ + 15, h⟩ => absurd h (Nat.not_lt.2 (Nat.le_add_left _ _))
abbrev spec0 : Fin 15 → Pipeline.WinSpec sig grid0.rank := fun w => (win0 w).toWinSpec

class Facts : Prop extends Facts₀ where

variable [Facts]
-- ==== ReferenceIdeal.lean ====
abbrev S131072x13 : Shape := ⟨2, ![131072, 13]⟩
abbrev S131072x26 : Shape := ⟨2, ![131072, 26]⟩
abbrev S131072x39 : Shape := ⟨2, ![131072, 39]⟩
abbrev S131072 : Shape := ⟨1, ![131072]⟩
abbrev S13x16 : Shape := ⟨2, ![13, 16]⟩
abbrev S26x100000x16 : Shape := ⟨3, ![26, 100000, 16]⟩
abbrev S624x32 : Shape := ⟨2, ![624, 32]⟩
abbrev S32 : Shape := ⟨1, ![32]⟩
abbrev S32x32 : Shape := ⟨2, ![32, 32]⟩
abbrev S131072x13x1 : Shape := ⟨3, ![131072, 13, 1]⟩
abbrev S1x13x16 : Shape := ⟨3, ![1, 13, 16]⟩
abbrev S131072x13x16 : Shape := ⟨3, ![131072, 13, 16]⟩
abbrev S26 : Shape := ⟨1, ![26]⟩
abbrev S1x26 : Shape := ⟨2, ![1, 26]⟩
abbrev S_ : Shape := ⟨0, ![]⟩
abbrev S131072x26x1 : Shape := ⟨3, ![131072, 26, 1]⟩
abbrev S131072x26x2 : Shape := ⟨3, ![131072, 26, 2]⟩
abbrev S131072x26x16 : Shape := ⟨3, ![131072, 26, 16]⟩
abbrev S131072x39x16 : Shape := ⟨3, ![131072, 39, 16]⟩
abbrev S131072x39x1 : Shape := ⟨3, ![131072, 39, 1]⟩
abbrev S131072x16 : Shape := ⟨2, ![131072, 16]⟩
abbrev S131072x624 : Shape := ⟨2, ![131072, 624]⟩
abbrev S131072x32 : Shape := ⟨2, ![131072, 32]⟩
abbrev S1x32 : Shape := ⟨2, ![1, 32]⟩

abbrev nBuf : Space → Nat
  | .hbm => 172
  | .vmem => 0
  | .smem => 0
  | _ => 0

abbrev hbmTy0_0 (i : Nat) : BufTy := match i % 128 with
  | 0 => ⟨S131072x13, .f32⟩
  | 1 => ⟨S131072x26, .i32⟩
  | 2 => ⟨S131072x39, .f32⟩
  | 3 => ⟨S131072, .f32⟩
  | 4 => ⟨S13x16, .f32⟩
  | 5 => ⟨S13x16, .f32⟩
  | 6 => ⟨S26x100000x16, .f32⟩
  | 7 => ⟨S13x16, .f32⟩
  | 8 => ⟨S13x16, .f32⟩
  | 9 => ⟨S26x100000x16, .f32⟩
  | 10 => ⟨S624x32, .f32⟩
  | 11 => ⟨S32, .f32⟩
  | 12 => ⟨S32, .f32⟩
  | 13 => ⟨S32, .f32⟩
  | 14 => ⟨S32x32, .f32⟩
  | 15 => ⟨S32, .f32⟩
  | 16 => ⟨S32, .f32⟩
  | 17 => ⟨S32, .f32⟩
  | 18 => ⟨S131072x13x1, .f32⟩
  | 19 => ⟨S1x13x16, .f32⟩
  | 20 => ⟨S131072x13x16, .f32⟩
  | 21 => ⟨S131072x13x16, .f32⟩
  | 22 => ⟨S131072x13x16, .f32⟩
  | 23 => ⟨S1x13x16, .f32⟩
  | 24 => ⟨S131072x13x16, .f32⟩
  | 25 => ⟨S131072x13x16, .f32⟩
  | 26 => ⟨S26, .i32⟩
  | 27 => ⟨S1x26, .i32⟩
  | 28 => ⟨S_, .i32⟩
  | 29 => ⟨S1x26, .i32⟩
  | 30 => ⟨S1x26, .i1⟩
  | 31 => ⟨S_, .i32⟩
  | 32 => ⟨S1x26, .i32⟩
  | 33 => ⟨S1x26, .i32⟩
  | 34 => ⟨S1x26, .i32⟩
  | 35 => ⟨S_, .i32⟩
  | 36 => ⟨S131072x26, .i32⟩
  | 37 => ⟨S131072x26, .i1⟩
  | 38 => ⟨S_, .i32⟩
  | 39 => ⟨S131072x26, .i32⟩
  | 40 => ⟨S131072x26, .i32⟩
  | 41 => ⟨S131072x26, .i32⟩
  | 42 => ⟨S131072x26, .i32⟩
  | 43 => ⟨S131072x26x1, .i32⟩
  | 44 => ⟨S131072x26x1, .i32⟩
  | 45 => ⟨S131072x26x2, .i32⟩
  | 46 => ⟨S131072x26x16, .f32⟩
  | 47 => ⟨S131072x39x16, .f32⟩
  | 48 => ⟨S131072x39x1, .f32⟩
  | 49 => ⟨S131072x39x16, .f32⟩
  | 50 => ⟨S131072x39x16, .f32⟩
  | 51 => ⟨S131072x13x1, .f32⟩
  | 52 => ⟨S1x13x16, .f32⟩
  | 53 => ⟨S131072x13x16, .f32⟩
  | 54 => ⟨S131072x13x16, .f32⟩
  | 55 => ⟨S131072x13x16, .f32⟩
  | 56 => ⟨S1x13x16, .f32⟩
  | 57 => ⟨S131072x13x16, .f32⟩
  | 58 => ⟨S131072x13x16, .f32⟩
  | 59 => ⟨S26, .i32⟩
  | 60 => ⟨S1x26, .i32⟩
  | 61 => ⟨S_, .i32⟩
  | 62 => ⟨S1x26, .i32⟩
  | 63 => ⟨S1x26, .i1⟩
  | 64 => ⟨S_, .i32⟩
  | 65 => ⟨S1x26, .i32⟩
  | 66 => ⟨S1x26, .i32⟩
  | 67 => ⟨S1x26, .i32⟩
  | 68 => ⟨S_, .i32⟩
  | 69 => ⟨S131072x26, .i32⟩
  | 70 => ⟨S131072x26, .i1⟩
  | 71 => ⟨S_, .i32⟩
  | 72 => ⟨S131072x26, .i32⟩
  | 73 => ⟨S131072x26, .i32⟩
  | 74 => ⟨S131072x26, .i32⟩
  | 75 => ⟨S131072x26, .i32⟩
  | 76 => ⟨S131072x26x1, .i32⟩
  | 77 => ⟨S131072x26x1, .i32⟩
  | 78 => ⟨S131072x26x2, .i32⟩
  | 79 => ⟨S131072x26x16, .f32⟩
  | 80 => ⟨S131072x39x16, .f32⟩
  | 81 => ⟨S131072x39x1, .f32⟩
  | 82 => ⟨S131072x39x16, .f32⟩
  | 83 => ⟨S131072x39x16, .f32⟩
  | 84 => ⟨S_, .f32⟩
  | 85 => ⟨S131072x16, .f32⟩
  | 86 => ⟨S131072x16, .f32⟩
  | 87 => ⟨S131072x39x16, .f32⟩
  | 88 => ⟨S_, .f32⟩
  | 89 => ⟨S131072x16, .f32⟩
  | 90 => ⟨S131072x16, .f32⟩
  | 91 => ⟨S_, .f32⟩
  | 92 => ⟨S131072x16, .f32⟩
  | 93 => ⟨S131072x16, .f32⟩
  | 94 => ⟨S131072x624, .f32⟩
  | 95 => ⟨S131072x32, .f32⟩
  | 96 => ⟨S1x32, .f32⟩
  | 97 => ⟨S131072x32, .f32⟩
  | 98 => ⟨S131072x32, .f32⟩
  | 99 => ⟨S_, .f32⟩
  | 100 => ⟨S32, .f32⟩
  | 101 => ⟨S_, .f32⟩
  | 102 => ⟨S32, .f32⟩
  | 103 => ⟨S32, .f32⟩
  | 104 => ⟨S1x32, .f32⟩
  | 105 => ⟨S131072x32, .f32⟩
  | 106 => ⟨S131072x32, .f32⟩
  | 107 => ⟨S131072x32, .f32⟩
  | 108 => ⟨S_, .f32⟩
  | 109 => ⟨S32, .f32⟩
  | 110 => ⟨S_, .f32⟩
  | 111 => ⟨S32, .f32⟩
  | 112 => ⟨S32, .f32⟩
  | 113 => ⟨S1x32, .f32⟩
  | 114 => ⟨S131072x32, .f32⟩
  | 115 => ⟨S131072x32, .f32⟩
  | 116 => ⟨S1x32, .f32⟩
  | 117 => ⟨S131072x32, .f32⟩
  | 118 => ⟨S131072x32, .f32⟩
  | 119 => ⟨S_, .f32⟩
  | 120 => ⟨S32, .f32⟩
  | 121 => ⟨S32, .f32⟩
  | 122 => ⟨S32, .f32⟩
  | 123 => ⟨S1x32, .f32⟩
  | 124 => ⟨S131072x32, .f32⟩
  | 125 => ⟨S131072x32, .f32⟩
  | 126 => ⟨S1x32, .f32⟩
  | 127 => ⟨S131072x32, .f32⟩
  | _ => ⟨S131072x13, .f32⟩

abbrev hbmTy0_1 (i : Nat) : BufTy := match i % 128 with
  | 0 => ⟨S131072x32, .f32⟩
  | 1 => ⟨S131072x32, .f32⟩
  | 2 => ⟨S1x32, .f32⟩
  | 3 => ⟨S131072x32, .f32⟩
  | 4 => ⟨S131072x32, .f32⟩
  | 5 => ⟨S_, .f32⟩
  | 6 => ⟨S32, .f32⟩
  | 7 => ⟨S_, .f32⟩
  | 8 => ⟨S32, .f32⟩
  | 9 => ⟨S32, .f32⟩
  | 10 => ⟨S1x32, .f32⟩
  | 11 => ⟨S131072x32, .f32⟩
  | 12 => ⟨S131072x32, .f32⟩
  | 13 => ⟨S131072x32, .f32⟩
  | 14 => ⟨S_, .f32⟩
  | 15 => ⟨S32, .f32⟩
  | 16 => ⟨S_, .f32⟩
  | 17 => ⟨S32, .f32⟩
  | 18 => ⟨S32, .f32⟩
  | 19 => ⟨S1x32, .f32⟩
  | 20 => ⟨S131072x32, .f32⟩
  | 21 => ⟨S131072x32, .f32⟩
  | 22 => ⟨S1x32, .f32⟩
  | 23 => ⟨S131072x32, .f32⟩
  | 24 => ⟨S131072x32, .f32⟩
  | 25 => ⟨S_, .f32⟩
  | 26 => ⟨S32, .f32⟩
  | 27 => ⟨S32, .f32⟩
  | 28 => ⟨S32, .f32⟩
  | 29 => ⟨S1x32, .f32⟩
  | 30 => ⟨S131072x32, .f32⟩
  | 31 => ⟨S131072x32, .f32⟩
  | 32 => ⟨S1x32, .f32⟩
  | 33 => ⟨S131072x32, .f32⟩
  | 34 => ⟨S131072x32, .f32⟩
  | 35 => ⟨S_, .f32⟩
  | 36 => ⟨S131072, .f32⟩
  | 37 => ⟨S_, .f32⟩
  | 38 => ⟨S131072, .f32⟩
  | 39 => ⟨S131072, .f32⟩
  | 40 => ⟨S_, .f32⟩
  | 41 => ⟨S131072, .f32⟩
  | 42 => ⟨S131072, .f32⟩
  | 43 => ⟨S131072, .f32⟩
  | _ => ⟨S131072x13, .f32⟩

abbrev hbmTy (i : Nat) : BufTy := match i / 128 with
  | 0 => hbmTy0_0 i
  | 1 => hbmTy0_1 i
  | _ => ⟨S131072x13, .f32⟩

abbrev bufTy : (tb : Table) → Fin (tcTables nBuf tb) → BufTy
  | .hbm, ⟨i, _⟩ => hbmTy i
  | _, _ => ⟨S131072x13, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_c : Ref sig .tc := ⟨.hbm, 28, rfl⟩
abbrev main_v10 : Ref sig .tc := ⟨.hbm, 29, rfl⟩
abbrev main_v11 : Ref sig .tc := ⟨.hbm, 30, rfl⟩
abbrev main_c_0 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_c_1 : Ref sig .tc := ⟨.hbm, 35, rfl⟩
abbrev main_v15 : Ref sig .tc := ⟨.hbm, 36, rfl⟩
abbrev main_v16 : Ref sig .tc := ⟨.hbm, 37, rfl⟩
abbrev main_c_2 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_c_3 : Ref sig .tc := ⟨.hbm, 61, rfl⟩
abbrev main_v39 : Ref sig .tc := ⟨.hbm, 62, rfl⟩
abbrev main_v40 : Ref sig .tc := ⟨.hbm, 63, rfl⟩
abbrev main_c_4 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_c_5 : Ref sig .tc := ⟨.hbm, 68, rfl⟩
abbrev main_v44 : Ref sig .tc := ⟨.hbm, 69, rfl⟩
abbrev main_v45 : Ref sig .tc := ⟨.hbm, 70, rfl⟩
abbrev main_c_6 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_cst : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_cst_7 : Ref sig .tc := ⟨.hbm, 88, rfl⟩
abbrev main_v61 : Ref sig .tc := ⟨.hbm, 89, rfl⟩
abbrev main_v62 : Ref sig .tc := ⟨.hbm, 90, rfl⟩
abbrev main_cst_8 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_cst_9 : Ref sig .tc := ⟨.hbm, 99, rfl⟩
abbrev main_v70 : Ref sig .tc := ⟨.hbm, 100, rfl⟩
abbrev main_cst_10 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_cst_11 : Ref sig .tc := ⟨.hbm, 108, rfl⟩
abbrev main_v77 : Ref sig .tc := ⟨.hbm, 109, rfl⟩
abbrev main_cst_12 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_cst_13 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev main_v97 : Ref sig .tc := ⟨.hbm, 131, rfl⟩
abbrev main_v98 : Ref sig .tc := ⟨.hbm, 132, rfl⟩
abbrev main_cst_14 : Ref sig .tc := ⟨.hbm, 133, rfl⟩
abbrev main_v99 : Ref sig .tc := ⟨.hbm, 134, rfl⟩
abbrev main_cst_15 : Ref sig .tc := ⟨.hbm, 135, rfl⟩
abbrev main_v100 : Ref sig .tc := ⟨.hbm, 136, rfl⟩
abbrev main_v101 : Ref sig .tc := ⟨.hbm, 137, rfl⟩
abbrev main_v102 : Ref sig .tc := ⟨.hbm, 138, rfl⟩
abbrev main_v103 : Ref sig .tc := ⟨.hbm, 139, rfl⟩
abbrev main_v104 : Ref sig .tc := ⟨.hbm, 140, rfl⟩
abbrev main_v105 : Ref sig .tc := ⟨.hbm, 141, rfl⟩
abbrev main_cst_16 : Ref sig .tc := ⟨.hbm, 142, rfl⟩
abbrev main_v106 : Ref sig .tc := ⟨.hbm, 143, rfl⟩
abbrev main_cst_17 : Ref sig .tc := ⟨.hbm, 144, rfl⟩
abbrev main_v107 : Ref sig .tc := ⟨.hbm, 145, rfl⟩
abbrev main_v108 : Ref sig .tc := ⟨.hbm, 146, rfl⟩
abbrev main_v109 : Ref sig .tc := ⟨.hbm, 147, rfl⟩
abbrev main_v110 : Ref sig .tc := ⟨.hbm, 148, rfl⟩
abbrev main_v111 : Ref sig .tc := ⟨.hbm, 149, rfl⟩
abbrev main_v112 : Ref sig .tc := ⟨.hbm, 150, rfl⟩
abbrev main_v113 : Ref sig .tc := ⟨.hbm, 151, rfl⟩
abbrev main_v114 : Ref sig .tc := ⟨.hbm, 152, rfl⟩
abbrev main_cst_18 : Ref sig .tc := ⟨.hbm, 153, rfl⟩
abbrev main_v115 : Ref sig .tc := ⟨.hbm, 154, rfl⟩
abbrev main_v116 : Ref sig .tc := ⟨.hbm, 155, rfl⟩
abbrev main_v117 : Ref sig .tc := ⟨.hbm, 156, rfl⟩
abbrev main_v118 : Ref sig .tc := ⟨.hbm, 157, rfl⟩
abbrev main_v119 : Ref sig .tc := ⟨.hbm, 158, rfl⟩
abbrev main_v120 : Ref sig .tc := ⟨.hbm, 159, rfl⟩
abbrev main_v121 : Ref sig .tc := ⟨.hbm, 160, rfl⟩
abbrev main_v122 : Ref sig .tc := ⟨.hbm, 161, rfl⟩
abbrev main_v123 : Ref sig .tc := ⟨.hbm, 162, rfl⟩
abbrev main_cst_19 : Ref sig .tc := ⟨.hbm, 163, rfl⟩
abbrev main_v124 : Ref sig .tc := ⟨.hbm, 164, rfl⟩
abbrev main_cst_20 : Ref sig .tc := ⟨.hbm, 165, rfl⟩
abbrev main_v125 : Ref sig .tc := ⟨.hbm, 166, rfl⟩
abbrev main_v126 : Ref sig .tc := ⟨.hbm, 167, rfl⟩
abbrev main_cst_21 : Ref sig .tc := ⟨.hbm, 168, rfl⟩
abbrev main_v127 : Ref sig .tc := ⟨.hbm, 169, rfl⟩
abbrev main_v128 : Ref sig .tc := ⟨.hbm, 170, rfl⟩
abbrev main_v129 : Ref sig .tc := ⟨.hbm, 171, rfl⟩

abbrev nD : Nat := 1
abbrev τ : Topo := Topo.v7x

variable {F : FTy → Type} [FloatOps F]

class Facts₀ : Prop where
  bcast_S131072x13_S131072x13x1_0_1 : S131072x13.BroadcastsInDim S131072x13x1 (![0, 1] : Fin 2 → Fin S131072x13x1.rank)
  bcast_S13x16_S1x13x16_1_2 : S13x16.BroadcastsInDim S1x13x16 (![1, 2] : Fin 2 → Fin S1x13x16.rank)
  bcast_S131072x13x1_S131072x13x16_0_1_2 : S131072x13x1.BroadcastsInDim S131072x13x16 (![0, 1, 2] : Fin 3 → Fin S131072x13x16.rank)
  bcast_S1x13x16_S131072x13x16_0_1_2 : S1x13x16.BroadcastsInDim S131072x13x16 (![0, 1, 2] : Fin 3 → Fin S131072x13x16.rank)
  bcast_S26_S1x26_1 : S26.BroadcastsInDim S1x26 (![1] : Fin 1 → Fin S1x26.rank)
  bcast_S_S1x26 : S_.BroadcastsInDim S1x26 (![] : Fin 0 → Fin S1x26.rank)
  bcast_S_S131072x26 : S_.BroadcastsInDim S131072x26 (![] : Fin 0 → Fin S131072x26.rank)
  bcast_S1x26_S131072x26_0_1 : S1x26.BroadcastsInDim S131072x26 (![0, 1] : Fin 2 → Fin S131072x26.rank)
  bcast_S131072x26_S131072x26x1_0_1 : S131072x26.BroadcastsInDim S131072x26x1 (![0, 1] : Fin 2 → Fin S131072x26x1.rank)
  concatenates_S131072x26x1_S131072x26x1_S131072x26x2_d2 : Shape.Concatenates [S131072x26x1, S131072x26x1] S131072x26x2 2
  concatenates_S131072x13x16_S131072x26x16_S131072x39x16_d1 : Shape.Concatenates [S131072x13x16, S131072x26x16] S131072x39x16 1
  bcast_S131072x39_S131072x39x1_0_1 : S131072x39.BroadcastsInDim S131072x39x1 (![0, 1] : Fin 2 → Fin S131072x39x1.rank)
  bcast_S131072x39x1_S131072x39x16_0_1_2 : S131072x39x1.BroadcastsInDim S131072x39x16 (![0, 1, 2] : Fin 3 → Fin S131072x39x16.rank)
  reducesTo_S131072x39x16_S131072x16_d1 : S131072x39x16.ReducesTo [1] S131072x16
  h_S_ : 0 < S_.numel
  bcast_S_S131072x16 : S_.BroadcastsInDim S131072x16 (![] : Fin 0 → Fin S131072x16.rank)
  shapeCasts_S131072x39x16_S131072x624 : S131072x39x16.ShapeCasts S131072x624
  bcast_S32_S1x32_1 : S32.BroadcastsInDim S1x32 (![1] : Fin 1 → Fin S1x32.rank)
  bcast_S1x32_S131072x32_0_1 : S1x32.BroadcastsInDim S131072x32 (![0, 1] : Fin 2 → Fin S131072x32.rank)
  reducesTo_S131072x32_S32_d0 : S131072x32.ReducesTo [0] S32
  bcast_S_S32 : S_.BroadcastsInDim S32 (![] : Fin 0 → Fin S32.rank)
  reducesTo_S131072x39x16_S131072_d1_2 : S131072x39x16.ReducesTo [1, 2] S131072
  reducesTo_S131072x16_S131072_d1 : S131072x16.ReducesTo [1] S131072
  reducesTo_S131072x32_S131072_d1 : S131072x32.ReducesTo [1] S131072
  gather_S26x100000x16_S131072x26x2_S131072x26x16_2_01_n_n_01_2_1116_wf : GatherDims.WF S26x100000x16 S131072x26x2 S131072x26x16 [2] [0, 1] [] [0, 1] [] 2 ![1, 1, 16]
  dot_S131072x624_S624x32_S131072x32_1_0_0_1_n_n_wf : DotDims.WF S131072x624 S624x32 S131072x32 [1] [0] [0] [1] [] []
  dot_S131072x32_S32x32_S131072x32_1_0_0_1_n_n_wf : DotDims.WF S131072x32 S32x32 S131072x32 [1] [0] [0] [1] [] []

variable [Facts₀]

def gather_S26x100000x16_S131072x26x2_S131072x26x16_2_01_n_n_01_2_1116 : GatherDims S26x100000x16 S131072x26x2 S131072x26x16 where
  offsetDims := [2]
  collapsedSliceDims := [0, 1]
  operandBatchingDims := []
  startIndicesBatchingDims := []
  startIndexMap := [0, 1]
  indexVectorDim := 2
  sliceSizes := ![1, 1, 16]
  wf := gather_S26x100000x16_S131072x26x2_S131072x26x16_2_01_n_n_01_2_1116_wf
def dot_S131072x624_S624x32_S131072x32_1_0_0_1_n_n : DotDims S131072x624 S624x32 S131072x32 where
  lhsContracting := [1]
  rhsContracting := [0]
  lhsNonContracting := [0]
  rhsNonContracting := [1]
  lhsBatch := []
  rhsBatch := []
  wf := dot_S131072x624_S624x32_S131072x32_1_0_0_1_n_n_wf
def dot_S131072x32_S32x32_S131072x32_1_0_0_1_n_n : DotDims S131072x32 S32x32 S131072x32 where
  lhsContracting := [1]
  rhsContracting := [0]
  lhsNonContracting := [0]
  rhsNonContracting := [1]
  lhsBatch := []
  rhsBatch := []
  wf := dot_S131072x32_S32x32_S131072x32_1_0_0_1_n_n_wf

class Facts : Prop extends Facts₀ where

variable [Facts]
-- ==== Proof.KFrameBody.lean ====
/-
  The kernel body of one grid point as a separation-logic triple.

  At a grid point the body is handed the thirteen input blocks (128 rows of the dense features, of the two gathered
  tables, of the dense and sparse field values and of the row bias; the four small affine tables; the two blocks of
  weight rows; the hidden bias) in staging buffers it only loads, and two output buffers it overwrites whole: the
  128 row partial sums and the 128×32 block of the hidden layer. Each output buffer therefore ends at one piece
  covering it, whose payload is the body's arithmetic on the loaded blocks.
-/
import proofs.«121767_j16406775070798_2_alg».proof.Proof.Gen.Kernel.Skeleton
import proofs.«121767_j16406775070798_2_alg».proof.Proof.Gen.Kernel.Launch
import Idealize.ShloMosaic.Lib.Pipeline.FrameBody
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The rectangles the body loads and stores through: each is a whole buffer -/

abbrev rA : Rect S128x13 := Rect.unit (s := S128x13) ![0, 0] S128x13.size inb_S128x13_S128x13_0_0
abbrev rB : Rect S128x26 := Rect.unit (s := S128x26) ![0, 0] S128x26.size inb_S128x26_S128x26_0_0
abbrev rC : Rect S128x26x16 := Rect.unit (s := S128x26x16) ![0, 0, 0] S128x26x16.size inb_S128x26x16_S128x26x16_0_0_0
abbrev rD : Rect S13x16 := Rect.unit (s := S13x16) ![0, 0] S13x16.size inb_S13x16_S13x16_0_0
abbrev rE : Rect S128 := Rect.unit (s := S128) ![0] S128.size inb_S128_S128_0
abbrev rF : Rect S208x32 := Rect.unit (s := S208x32) ![0, 0] S208x32.size inb_S208x32_S208x32_0_0
abbrev rG : Rect S416x32 := Rect.unit (s := S416x32) ![0, 0] S416x32.size inb_S416x32_S416x32_0_0
abbrev rH : Rect S32 := Rect.unit (s := S32) ![0] S32.size inb_S32_S32_0
abbrev rI : Rect S128x32 := Rect.unit (s := S128x32) ![0, 0] S128x32.size inb_S128x32_S128x32_0_0

/-! ## What the body leaves in each output buffer -/

/-- The row partial sums' buffer after the body: one piece, the whole buffer, holding the first-order sum plus the
    second-order sum plus the bias of each of the 128 rows. -/
def out0_13 (x0 x3 : Vec F S128x13 .f32) (x1 x2 : Vec F S128x26x16 .f32) (x4 : Vec F S128x26 .f32) (x5 : Vec F S128 .f32) (x6 x7 x8 x9 : Vec F S13x16 .f32) : Vec F S128 .f32 :=
  View.canon [⟨rE, k0_pay10 (k0_pay4 (View.ld x2 rC)) (k0_pay5 (View.ld x0 rA) (View.ld x3 rA) (View.ld x6 rD) (View.ld x7 rD))
    (k0_pay6 (View.ld x4 rB) (View.ld x1 rC)) (k0_pay7 (View.ld x0 rA) (View.ld x3 rA) (View.ld x8 rD) (View.ld x9 rD))
    (k0_pay8 (View.ld x4 rB)) (View.ld x5 rE)⟩]

/-- The hidden layer's buffer after the body: one piece, the whole buffer, holding the two partial products of the
    flattened second embedding with the two blocks of weight rows, plus the bias row. -/
def out0_14 (x0 x3 : Vec F S128x13 .f32) (x2 : Vec F S128x26x16 .f32) (x4 : Vec F S128x26 .f32) (x8 x9 : Vec F S13x16 .f32) (x10 : Vec F S208x32 .f32) (x11 : Vec F S416x32 .f32) (x12 : Vec F S32 .f32) : Vec F S128x32 .f32 :=
  View.canon [⟨rI, k0_pay1 (k0_pay11 (k0_pay4 (View.ld x2 rC)) (k0_pay7 (View.ld x0 rA) (View.ld x3 rA) (View.ld x8 rD) (View.ld x9 rD))
    (k0_pay8 (View.ld x4 rB)) (View.ld x10 rF) (View.ld x11 rG)) (k0_pay12 (View.ld x12 rH))⟩]

/-- One whole-buffer piece covers the buffer. -/
theorem cover0_13 (p0 : Vec F S128 .f32) (y : S128.Idx) :
    ∃ pc ∈ ([⟨rE, p0⟩] : List (View.Piece (Elt F) S128 .f32)), y ∈ pc.1.set :=
  View.cover_of_tiled [⟨rE, p0⟩] S128.size (by rfl) y

theorem cover0_14 (p0 : Vec F S128x32 .f32) (y : S128x32.Idx) :
    ∃ pc ∈ ([⟨rI, p0⟩] : List (View.Piece (Elt F) S128x32 .f32)), y ∈ pc.1.set :=
  View.cover_of_tiled [⟨rI, p0⟩] S128x32.size (by rfl) y

/-! ## The body's triple -/

set_option maxHeartbeats 4000000 in
/-- The body on whole staging buffers, the inputs' at contents `x0 … x12` and the outputs' at anything, runs to the
    continuation holding the inputs' as they were and each output's at its piece over the inputs. -/
theorem sound_kernel (c : Dev nD) (E : Set ℕ) (i : grid0.Coords)
    (a1 : Memref sig .tc .vmem S128x13 .f32) (h1 : a1.IsWhole) (a2 : Memref sig .tc .vmem S128x26x16 .f32) (h2 : a2.IsWhole)
    (a3 : Memref sig .tc .vmem S128x26x16 .f32) (h3 : a3.IsWhole) (a4 : Memref sig .tc .vmem S128x13 .f32) (h4 : a4.IsWhole)
    (a5 : Memref sig .tc .vmem S128x26 .f32) (h5 : a5.IsWhole) (a6 : Memref sig .tc .vmem S128 .f32) (h6 : a6.IsWhole)
    (a7 : Memref sig .tc .vmem S13x16 .f32) (h7 : a7.IsWhole) (a8 : Memref sig .tc .vmem S13x16 .f32) (h8 : a8.IsWhole)
    (a9 : Memref sig .tc .vmem S13x16 .f32) (h9 : a9.IsWhole) (a10 : Memref sig .tc .vmem S13x16 .f32) (h10 : a10.IsWhole)
    (a11 : Memref sig .tc .vmem S208x32 .f32) (h11 : a11.IsWhole) (a12 : Memref sig .tc .vmem S416x32 .f32) (h12 : a12.IsWhole)
    (a13 : Memref sig .tc .vmem S32 .f32) (h13 : a13.IsWhole) (a14 : Memref sig .tc .vmem S128 .f32) (h14 : a14.IsWhole)
    (a15 : Memref sig .tc .vmem S128x32 .f32) (h15 : a15.IsWhole)
    (x0 x3 : Vec F S128x13 .f32) (x1 x2 : Vec F S128x26x16 .f32) (x4 : Vec F S128x26 .f32) (x5 : Vec F S128 .f32) (x6 x7 x8 x9 : Vec F S13x16 .f32) (x10 : Vec F S208x32 .f32) (x11 : Vec F S416x32 .f32) (x12 : Vec F S32 .f32) (K : PUnit → sProp 𝕄) :
    iprop(owns (c : Thread nD τ) a1 fullShare x0 ∗ owns (c : Thread nD τ) a2 fullShare x1 ∗ owns (c : Thread nD τ) a3 fullShare x2
        ∗ owns (c : Thread nD τ) a4 fullShare x3 ∗ owns (c : Thread nD τ) a5 fullShare x4 ∗ owns (c : Thread nD τ) a6 fullShare x5
        ∗ owns (c : Thread nD τ) a7 fullShare x6 ∗ owns (c : Thread nD τ) a8 fullShare x7 ∗ owns (c : Thread nD τ) a9 fullShare x8
        ∗ owns (c : Thread nD τ) a10 fullShare x9 ∗ owns (c : Thread nD τ) a11 fullShare x10 ∗ owns (c : Thread nD τ) a12 fullShare x11
        ∗ owns (c : Thread nD τ) a13 fullShare x12
        ∗ (∃ d, owns (c : Thread nD τ) a14 fullShare d) ∗ (∃ d, owns (c : Thread nD τ) a15 fullShare d)
        ∗ (iprop(owns (c : Thread nD τ) a1 fullShare x0 ∗ owns (c : Thread nD τ) a2 fullShare x1 ∗ owns (c : Thread nD τ) a3 fullShare x2
            ∗ owns (c : Thread nD τ) a4 fullShare x3 ∗ owns (c : Thread nD τ) a5 fullShare x4 ∗ owns (c : Thread nD τ) a6 fullShare x5
            ∗ owns (c : Thread nD τ) a7 fullShare x6 ∗ owns (c : Thread nD τ) a8 fullShare x7 ∗ owns (c : Thread nD τ) a9 fullShare x8
            ∗ owns (c : Thread nD τ) a10 fullShare x9 ∗ owns (c : Thread nD τ) a11 fullShare x10 ∗ owns (c : Thread nD τ) a12 fullShare x11
            ∗ owns (c : Thread nD τ) a13 fullShare x12
            ∗ owns (c : Thread nD τ) a14 fullShare (out0_13 x0 x3 x1 x2 x4 x5 x6 x7 x8 x9)
            ∗ owns (c : Thread nD τ) a15 fullShare (out0_14 x0 x3 x2 x4 x8 x9 x10 x11 x12)) -∗ K ⟨⟩))
      ⊢ wp frame (wpE (defs₀ (F := F)) Variants.none c none) E
          (cc0__fused_kernel i a1 h1 a2 h2 a3 h3 a4 h4 a5 h5 a6 h6 a7 h7 a8 h8 a9 h9 a10 h10 a11 h11 a12 h12 a13 h13 a14 h14 a15 h15) K := by
  simp only [cc0__fused_kernel_eq_skeleton]; unfold cc0__fused_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, ⟨%d14, %f14, -, H14⟩, Hk⟩
  subst hf0 hf1 hf2 hf3 hf4 hf5 hf6 hf7 hf8 hf9 hf10 hf11 hf12
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists _; isplitr
    swap; · iexact H13
    ipureintro
    exact View.read_writes_eq_canon _ _ _ (cover0_13 _)
  iexists _; isplitr
  swap; · iexact H14
  ipureintro
  exact View.read_writes_eq_canon _ _ _ (cover0_14 _)

end Cert.Kernel.Frame

end
-- ==== Proof.KFrameMain.lean ====
/-
  The program around its one region: the host lines before it, the region, the host lines after it.

  The 44 lines before the region compute the gathered table rows and the slices the region's windows read; the 67
  lines after it normalise the hidden layer twice and add the row sums. Each line writes only its own result
  buffer, so a buffer that is no line's result keeps its contents across a stretch: the argument arrays are found
  by the region as launched and end as launched, and no line after the region writes an array the region's windows
  stage. From a run to the library's frame post this gives the frame claim's post.
-/
import proofs.«121767_j16406775070798_2_alg».proof.Proof.Gen.Kernel.Launch
import proofs.«121767_j16406775070798_2_alg».proof.Proof.Gen.Kernel.Points
import Idealize.ShloMosaic.Lib.Pipeline.FrameBody
import Idealize.ShloMosaic.Lib.Pipeline.FrameSuffix

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The contents the region finds -/

/-- Core `c`'s buffer contents when the region is entered: after the host lines before it. -/
abbrev V0 (c : Dev nD) : Valuation τ sig (Elt F) := StableHlo.after (List.flatten [hostOps0]) (fun b => m (c, b))
/-- The same read at a reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- The program is the lines before the region, the region, the lines after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-! ## What each stretch writes -/

/-- The result buffers of the lines before the region, in order. -/
abbrev wr0 : List (Ref sig .tc) := [main_v0, main_v1, main_c, main_v2, main_v3, main_c_0, main_v4, main_v5, main_v6, main_c_1, main_v7, main_v8, main_c_2, main_v9, main_v10, main_v11, main_v12, main_v13, main_v14, main_v15, main_v16, main_c_3, main_v17, main_v18, main_c_4, main_v19, main_v20, main_v21, main_c_5, main_v22, main_v23, main_c_6, main_v24, main_v25, main_v26, main_v27, main_v28, main_v29, main_v30, main_v31, main_v32, main_v33, main_v34, main_v35]
/-- The result buffers of the lines after the region, in order. -/
abbrev wr1 : List (Ref sig .tc) := [main_cst, main_v37, main_cst_7, main_v38, main_v39, main_v40, main_v41, main_v42, main_v43, main_cst_8, main_v44, main_cst_9, main_v45, main_v46, main_v47, main_v48, main_v49, main_v50, main_v51, main_v52, main_cst_10, main_v53, main_v54, main_v55, main_v56, main_v57, main_v58, main_v59, main_v60, main_v61, main_v62, main_v63, main_v64, main_v65, main_cst_11, main_v66, main_cst_12, main_v67, main_v68, main_v69, main_v70, main_v71, main_v72, main_cst_13, main_v73, main_cst_14, main_v74, main_v75, main_v76, main_v77, main_v78, main_v79, main_v80, main_v81, main_cst_15, main_v82, main_v83, main_v84, main_v85, main_v86, main_v87, main_v88, main_v89, main_v90, main_cst_16, main_v91, main_v92]

theorem writes_sub_of_mem {W : List (Ref sig .tc)} {y : Ref sig .tc} (h : y ∈ W) :
    ({Proc.devRef (τ := τ) .tc y} : Finset (DevRef τ sig)) ⊆ (W.map (Proc.devRef (τ := τ) .tc)).toFinset :=
  Finset.singleton_subset_iff.mpr (List.mem_toFinset.mpr (List.mem_map_of_mem h))

/-- Each line before the region writes its own result buffer only. -/
theorem hostOps0_writes : (hostOps0 : List (HloOp τ sig (Elt F))).Forall fun op => op.writes ⊆ (wr0.map (Proc.devRef (τ := τ) .tc)).toFinset :=
  ⟨writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide)⟩
/-- Each line after the region writes its own result buffer only. -/
theorem hostOps1_writes : (hostOps1 : List (HloOp τ sig (Elt F))).Forall fun op => op.writes ⊆ (wr1.map (Proc.devRef (τ := τ) .tc)).toFinset :=
  ⟨writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide)⟩

/-- The lines after the region touch the region's arrays and the other unscoped buffers only. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp hostOps1_fresh) op hop
/-- And write no array the region's windows stage: no such array is a result buffer of theirs. -/
theorem sfx_keeps : ∀ ops ∈ ([hostOps1] : List (List (HloOp τ sig (Elt F)))), ∀ op ∈ ops,
    ∀ w, Proc.devRef .tc (Pipeline.arrRef spec0 w) ∉ op.writes := by
  intro ops hops op hop w hmem
  simp only [List.mem_cons, List.mem_nil_iff, or_false] at hops
  rcases hops with rfl
  have hsub := (List.forall_iff_forall_mem.mp hostOps1_writes) op hop hmem
  obtain ⟨y, hy, he⟩ := List.mem_map.mp (List.mem_toFinset.mp hsub)
  exact (by decide : ∀ w, Pipeline.arrRef spec0 w ∉ wr1) w (Proc.devRef_injective _ he ▸ hy)

/-- A buffer no line before the region writes is found by the region as launched. -/
theorem V_of_not_written (c : Dev nD) (b : Ref sig .tc) (hb : b ∉ wr0) : V m c b = m ((c : Thread nD τ).loc b) := by
  show StableHlo.after (List.flatten [hostOps0]) (fun b => m (c, b)) (Proc.devRef .tc b) = _
  rw [List.flatten_cons, List.flatten_nil, List.append_nil]
  exact StableHlo.after_of_writes_sub hostOps0 _ hostOps0_writes hb

/-- A buffer that no line writes and no window stages ends as launched. -/
theorem W_of_not_written (dats : (p : Fin _) → (c : Dev nD) → Dat τ (Elt F) Unit ℕ (UR sig nD τ) ℕ (cfgs p) c) (c : Dev nD)
    (b : Ref sig .tc) (h0 : b ∉ wr0) (h1 : b ∉ wr1) (hw : ∀ w, Pipeline.arrRef spec0 w ≠ b) :
    Pipeline.afterTail₀ cfgs dats 0 (V0 m) [hostOps1] c b = m ((c : Thread nD τ).loc b) := by
  unfold Pipeline.afterTail₀
  rw [List.flatten_cons, List.flatten_nil, List.append_nil, StableHlo.after_of_writes_sub hostOps1 _ hostOps1_writes h1,
    Pipeline.withArrays_of_ne _ c (V0 m c) _ b hw]
  exact V_of_not_written m c b h0

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! Each input window's current staging buffer holds its block at every point, whether it was fetched there or
    not (an unfetched window's block index has not moved). -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
theorem before0_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
theorem before0_10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)
theorem before0_11_of {c : Dev nD} (dat : Dat τ (Elt F) Unit ℕ (UR sig nD τ) ℕ cfg0 c) (hA : dat.A 11 = V m c (Pipeline.arrRef spec0 11))
    (hafter : ∀ t, dat.after 11 t = iblk m c 11 t) (t : Fin cfg0.N) (d) : dat.before 11 t d = iblk m c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)
theorem before0_12_of {c : Dev nD} (dat : Dat τ (Elt F) Unit ℕ (UR sig nD τ) ℕ cfg0 c) (hA : dat.A 12 = V m c (Pipeline.arrRef spec0 12))
    (hafter : ∀ t, dat.after 12 t = iblk m c 12 t) (t : Fin cfg0.N) (d) : dat.before 12 t d = iblk m c 12 t :=
  (dat.before_in_eq_fetched 12 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- From a run to the library's frame post, every argument array ends as launched: one a window stages holds its
    region-entry contents, which no earlier line wrote; any other is written by no line at all. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  (θ_run defs _ _).mono (fun _ h c => ⟨((h c).1 0).trans (((dats 0 c).arrAt_in 0 rfl _).trans ((hA c 0).trans (V_of_not_written m c main_arg0 (by decide)))),
    ((h c).2 main_arg1 (Pipeline.mem_restRefs_of main_arg1 (by decide) (by decide))).trans (W_of_not_written m dats c main_arg1 (by decide) (by decide) (by decide)),
    ((h c).2 main_arg2 (Pipeline.mem_restRefs_of main_arg2 (by decide) (by decide))).trans (W_of_not_written m dats c main_arg2 (by decide) (by decide) (by decide)),
    ((h c).1 5).trans (((dats 0 c).arrAt_in 5 rfl _).trans ((hA c 5).trans (V_of_not_written m c main_arg3 (by decide)))),
    ((h c).1 6).trans (((dats 0 c).arrAt_in 6 rfl _).trans ((hA c 6).trans (V_of_not_written m c main_arg4 (by decide)))),
    ((h c).1 7).trans (((dats 0 c).arrAt_in 7 rfl _).trans ((hA c 7).trans (V_of_not_written m c main_arg5 (by decide)))),
    ((h c).2 main_arg6 (Pipeline.mem_restRefs_of main_arg6 (by decide) (by decide))).trans (W_of_not_written m dats c main_arg6 (by decide) (by decide) (by decide)),
    ((h c).1 8).trans (((dats 0 c).arrAt_in 8 rfl _).trans ((hA c 8).trans (V_of_not_written m c main_arg7 (by decide)))),
    ((h c).1 9).trans (((dats 0 c).arrAt_in 9 rfl _).trans ((hA c 9).trans (V_of_not_written m c main_arg8 (by decide)))),
    ((h c).2 main_arg9 (Pipeline.mem_restRefs_of main_arg9 (by decide) (by decide))).trans (W_of_not_written m dats c main_arg9 (by decide) (by decide) (by decide)),
    ((h c).2 main_arg10 (Pipeline.mem_restRefs_of main_arg10 (by decide) (by decide))).trans (W_of_not_written m dats c main_arg10 (by decide) (by decide) (by decide)),
    ((h c).1 12).trans (((dats 0 c).arrAt_in 12 rfl _).trans ((hA c 12).trans (V_of_not_written m c main_arg11 (by decide)))),
    ((h c).2 main_arg12 (Pipeline.mem_restRefs_of main_arg12 (by decide) (by decide))).trans (W_of_not_written m dats c main_arg12 (by decide) (by decide) (by decide)),
    ((h c).2 main_arg13 (Pipeline.mem_restRefs_of main_arg13 (by decide) (by decide))).trans (W_of_not_written m dats c main_arg13 (by decide) (by decide) (by decide)),
    ((h c).2 main_arg14 (Pipeline.mem_restRefs_of main_arg14 (by decide) (by decide))).trans (W_of_not_written m dats c main_arg14 (by decide) (by decide) (by decide)),
    ((h c).2 main_arg15 (Pipeline.mem_restRefs_of main_arg15 (by decide) (by decide))).trans (W_of_not_written m dats c main_arg15 (by decide) (by decide) (by decide)),
    ((h c).2 main_arg16 (Pipeline.mem_restRefs_of main_arg16 (by decide) (by decide))).trans (W_of_not_written m dats c main_arg16 (by decide) (by decide) (by decide)),
    ((h c).2 main_arg17 (Pipeline.mem_restRefs_of main_arg17 (by decide) (by decide))).trans (W_of_not_written m dats c main_arg17 (by decide) (by decide) (by decide))⟩) h

end Cert.Kernel.Frame

end
-- ==== Proof.KFrameRun.lean ====
/-
  The run of the program and its frame.

  The proof data of the one pipeline: each array as the region finds it; after the body at a grid point each input's
  staging buffer still at its block and each output's at the body's piece over the input blocks. With the body's
  triple this gives the library's body obligation at every point, the launch theorem gives the run — every array
  of the pipeline ends at what the write-backs left, every other buffer as the later host lines leave it — and the
  run gives the frame claim.
-/
import proofs.«121767_j16406775070798_2_alg».proof.Proof.KFrameBody
import proofs.«121767_j16406775070798_2_alg».proof.Proof.KFrameMain
import Idealize.ShloMosaic.Lib.Pipeline.FrameSuffix

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The proof data of the pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => out0_13 (iblk m c 0 t) (iblk m c 3 t) (iblk m c 1 t) (iblk m c 2 t) (iblk m c 4 t) (iblk m c 5 t) (iblk m c 6 t) (iblk m c 7 t) (iblk m c 8 t) (iblk m c 9 t)
    | ⟨14, _⟩ => out0_14 (iblk m c 0 t) (iblk m c 3 t) (iblk m c 2 t) (iblk m c 4 t) (iblk m c 8 t) (iblk m c 9 t) (iblk m c 10 t) (iblk m c 11 t) (iblk m c 12 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = out0_13 (iblk m c 0 t) (iblk m c 3 t) (iblk m c 1 t) (iblk m c 2 t) (iblk m c 4 t) (iblk m c 5 t) (iblk m c 6 t) (iblk m c 7 t) (iblk m c 8 t) (iblk m c 9 t) := by dsimp only [dats]
theorem after0_14 (c : Dev nD) (t : Fin cfg0.N) : (dats m 0 c).after 14 t = out0_14 (iblk m c 0 t) (iblk m c 3 t) (iblk m c 2 t) (iblk m c 4 t) (iblk m c 8 t) (iblk m c 9 t) (iblk m c 10 t) (iblk m c 11 t) (iblk m c 12 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t))

set_option maxHeartbeats 2000000 in
/-- The body at any point: the inputs' buffers hold their blocks, so the body's triple applies; the invariant and the
    core's debts pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
  iapply (sound_kernel c Set.univ (grid0.coords t) _ _ _ _ _ _ _ _ _ _ _ _ _ _ _ _ _ _ _ _ _ _ _ _ _ _ _ _ _ _ (iblk m c 0 t) (iblk m c 3 t) (iblk m c 1 t) (iblk m c 2 t) (iblk m c 4 t) (iblk m c 5 t) (iblk m c 6 t) (iblk m c 7 t) (iblk m c 8 t) (iblk m c 9 t) (iblk m c 10 t) (iblk m c 11 t) (iblk m c 12 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexists _; iexact H13
  isplitl [H14]; · iexists _; iexact H14
  iintro ⟨H0, H1, H2, H3, H4, H5, H6, H7, H8, H9, H10, H11, H12, H13, H14⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  iexact H14

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of the program terminates, and every final state has each array of the pipeline at
    what the write-backs left and every other unscoped buffer as the lines after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: the program runs to the end and every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  frame_of m ρ (dats m) (A_eq m) (run_main m ρ)

end Cert.Kernel.Frame

end
-- ==== Proof.KIFrameBody.lean ====
/-
  The kernel body of one grid point as a separation-logic triple.

  At a grid point the body is handed the thirteen input blocks (128 rows of the dense features, of the two gathered
  tables, of the dense and sparse field values and of the row bias; the four small affine tables; the two blocks of
  weight rows; the hidden bias) in staging buffers it only loads, and two output buffers it overwrites whole: the
  128 row partial sums and the 128×32 block of the hidden layer. Each output buffer therefore ends at one piece
  covering it, whose payload is the body's arithmetic on the loaded blocks.
-/
import proofs.«121767_j16406775070798_2_alg».proof.Proof.Gen.KernelIdeal.Skeleton
import proofs.«121767_j16406775070798_2_alg».proof.Proof.Gen.KernelIdeal.Launch
import Idealize.ShloMosaic.Lib.Pipeline.FrameBody
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The rectangles the body loads and stores through: each is a whole buffer -/

abbrev rA : Rect S128x13 := Rect.unit (s := S128x13) ![0, 0] S128x13.size inb_S128x13_S128x13_0_0
abbrev rB : Rect S128x26 := Rect.unit (s := S128x26) ![0, 0] S128x26.size inb_S128x26_S128x26_0_0
abbrev rC : Rect S128x26x16 := Rect.unit (s := S128x26x16) ![0, 0, 0] S128x26x16.size inb_S128x26x16_S128x26x16_0_0_0
abbrev rD : Rect S13x16 := Rect.unit (s := S13x16) ![0, 0] S13x16.size inb_S13x16_S13x16_0_0
abbrev rE : Rect S128 := Rect.unit (s := S128) ![0] S128.size inb_S128_S128_0
abbrev rF : Rect S208x32 := Rect.unit (s := S208x32) ![0, 0] S208x32.size inb_S208x32_S208x32_0_0
abbrev rG : Rect S416x32 := Rect.unit (s := S416x32) ![0, 0] S416x32.size inb_S416x32_S416x32_0_0
abbrev rH : Rect S32 := Rect.unit (s := S32) ![0] S32.size inb_S32_S32_0
abbrev rI : Rect S128x32 := Rect.unit (s := S128x32) ![0, 0] S128x32.size inb_S128x32_S128x32_0_0

/-! ## What the body leaves in each output buffer -/

/-- The row partial sums' buffer after the body: one piece, the whole buffer, holding the first-order sum plus the
    second-order sum plus the bias of each of the 128 rows. -/
def out0_13 (x0 x3 : Vec F S128x13 .f32) (x1 x2 : Vec F S128x26x16 .f32) (x4 : Vec F S128x26 .f32) (x5 : Vec F S128 .f32) (x6 x7 x8 x9 : Vec F S13x16 .f32) : Vec F S128 .f32 :=
  View.canon [⟨rE, k0_pay10 (k0_pay4 (View.ld x2 rC)) (k0_pay5 (View.ld x0 rA) (View.ld x3 rA) (View.ld x6 rD) (View.ld x7 rD))
    (k0_pay6 (View.ld x4 rB) (View.ld x1 rC)) (k0_pay7 (View.ld x0 rA) (View.ld x3 rA) (View.ld x8 rD) (View.ld x9 rD))
    (k0_pay8 (View.ld x4 rB)) (View.ld x5 rE)⟩]

/-- The hidden layer's buffer after the body: one piece, the whole buffer, holding the two partial products of the
    flattened second embedding with the two blocks of weight rows, plus the bias row. -/
def out0_14 (x0 x3 : Vec F S128x13 .f32) (x2 : Vec F S128x26x16 .f32) (x4 : Vec F S128x26 .f32) (x8 x9 : Vec F S13x16 .f32) (x10 : Vec F S208x32 .f32) (x11 : Vec F S416x32 .f32) (x12 : Vec F S32 .f32) : Vec F S128x32 .f32 :=
  View.canon [⟨rI, k0_pay1 (k0_pay11 (k0_pay4 (View.ld x2 rC)) (k0_pay7 (View.ld x0 rA) (View.ld x3 rA) (View.ld x8 rD) (View.ld x9 rD))
    (k0_pay8 (View.ld x4 rB)) (View.ld x10 rF) (View.ld x11 rG)) (k0_pay12 (View.ld x12 rH))⟩]

/-- One whole-buffer piece covers the buffer. -/
theorem cover0_13 (p0 : Vec F S128 .f32) (y : S128.Idx) :
    ∃ pc ∈ ([⟨rE, p0⟩] : List (View.Piece (Elt F) S128 .f32)), y ∈ pc.1.set :=
  View.cover_of_tiled [⟨rE, p0⟩] S128.size (by rfl) y

theorem cover0_14 (p0 : Vec F S128x32 .f32) (y : S128x32.Idx) :
    ∃ pc ∈ ([⟨rI, p0⟩] : List (View.Piece (Elt F) S128x32 .f32)), y ∈ pc.1.set :=
  View.cover_of_tiled [⟨rI, p0⟩] S128x32.size (by rfl) y

/-! ## The body's triple -/

set_option maxHeartbeats 4000000 in
/-- The body on whole staging buffers, the inputs' at contents `x0 … x12` and the outputs' at anything, runs to the
    continuation holding the inputs' as they were and each output's at its piece over the inputs. -/
theorem sound_kernel (c : Dev nD) (E : Set ℕ) (i : grid0.Coords)
    (a1 : Memref sig .tc .vmem S128x13 .f32) (h1 : a1.IsWhole) (a2 : Memref sig .tc .vmem S128x26x16 .f32) (h2 : a2.IsWhole)
    (a3 : Memref sig .tc .vmem S128x26x16 .f32) (h3 : a3.IsWhole) (a4 : Memref sig .tc .vmem S128x13 .f32) (h4 : a4.IsWhole)
    (a5 : Memref sig .tc .vmem S128x26 .f32) (h5 : a5.IsWhole) (a6 : Memref sig .tc .vmem S128 .f32) (h6 : a6.IsWhole)
    (a7 : Memref sig .tc .vmem S13x16 .f32) (h7 : a7.IsWhole) (a8 : Memref sig .tc .vmem S13x16 .f32) (h8 : a8.IsWhole)
    (a9 : Memref sig .tc .vmem S13x16 .f32) (h9 : a9.IsWhole) (a10 : Memref sig .tc .vmem S13x16 .f32) (h10 : a10.IsWhole)
    (a11 : Memref sig .tc .vmem S208x32 .f32) (h11 : a11.IsWhole) (a12 : Memref sig .tc .vmem S416x32 .f32) (h12 : a12.IsWhole)
    (a13 : Memref sig .tc .vmem S32 .f32) (h13 : a13.IsWhole) (a14 : Memref sig .tc .vmem S128 .f32) (h14 : a14.IsWhole)
    (a15 : Memref sig .tc .vmem S128x32 .f32) (h15 : a15.IsWhole)
    (x0 x3 : Vec F S128x13 .f32) (x1 x2 : Vec F S128x26x16 .f32) (x4 : Vec F S128x26 .f32) (x5 : Vec F S128 .f32) (x6 x7 x8 x9 : Vec F S13x16 .f32) (x10 : Vec F S208x32 .f32) (x11 : Vec F S416x32 .f32) (x12 : Vec F S32 .f32) (K : PUnit → sProp 𝕄) :
    iprop(owns (c : Thread nD τ) a1 fullShare x0 ∗ owns (c : Thread nD τ) a2 fullShare x1 ∗ owns (c : Thread nD τ) a3 fullShare x2
        ∗ owns (c : Thread nD τ) a4 fullShare x3 ∗ owns (c : Thread nD τ) a5 fullShare x4 ∗ owns (c : Thread nD τ) a6 fullShare x5
        ∗ owns (c : Thread nD τ) a7 fullShare x6 ∗ owns (c : Thread nD τ) a8 fullShare x7 ∗ owns (c : Thread nD τ) a9 fullShare x8
        ∗ owns (c : Thread nD τ) a10 fullShare x9 ∗ owns (c : Thread nD τ) a11 fullShare x10 ∗ owns (c : Thread nD τ) a12 fullShare x11
        ∗ owns (c : Thread nD τ) a13 fullShare x12
        ∗ (∃ d, owns (c : Thread nD τ) a14 fullShare d) ∗ (∃ d, owns (c : Thread nD τ) a15 fullShare d)
        ∗ (iprop(owns (c : Thread nD τ) a1 fullShare x0 ∗ owns (c : Thread nD τ) a2 fullShare x1 ∗ owns (c : Thread nD τ) a3 fullShare x2
            ∗ owns (c : Thread nD τ) a4 fullShare x3 ∗ owns (c : Thread nD τ) a5 fullShare x4 ∗ owns (c : Thread nD τ) a6 fullShare x5
            ∗ owns (c : Thread nD τ) a7 fullShare x6 ∗ owns (c : Thread nD τ) a8 fullShare x7 ∗ owns (c : Thread nD τ) a9 fullShare x8
            ∗ owns (c : Thread nD τ) a10 fullShare x9 ∗ owns (c : Thread nD τ) a11 fullShare x10 ∗ owns (c : Thread nD τ) a12 fullShare x11
            ∗ owns (c : Thread nD τ) a13 fullShare x12
            ∗ owns (c : Thread nD τ) a14 fullShare (out0_13 x0 x3 x1 x2 x4 x5 x6 x7 x8 x9)
            ∗ owns (c : Thread nD τ) a15 fullShare (out0_14 x0 x3 x2 x4 x8 x9 x10 x11 x12)) -∗ K ⟨⟩))
      ⊢ wp frame (wpE (defs₀ (F := F)) Variants.none c none) E
          (cc0__fused_kernel i a1 h1 a2 h2 a3 h3 a4 h4 a5 h5 a6 h6 a7 h7 a8 h8 a9 h9 a10 h10 a11 h11 a12 h12 a13 h13 a14 h14 a15 h15) K := by
  simp only [cc0__fused_kernel_eq_skeleton]; unfold cc0__fused_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, ⟨%d14, %f14, -, H14⟩, Hk⟩
  subst hf0 hf1 hf2 hf3 hf4 hf5 hf6 hf7 hf8 hf9 hf10 hf11 hf12
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists _; isplitr
    swap; · iexact H13
    ipureintro
    exact View.read_writes_eq_canon _ _ _ (cover0_13 _)
  iexists _; isplitr
  swap; · iexact H14
  ipureintro
  exact View.read_writes_eq_canon _ _ _ (cover0_14 _)

end Cert.KernelIdeal.Frame

end
-- ==== Proof.KIFrameMain.lean ====
/-
  The program around its one region: the host lines before it, the region, the host lines after it.

  The 44 lines before the region compute the gathered table rows and the slices the region's windows read; the 67
  lines after it normalise the hidden layer twice and add the row sums. Each line writes only its own result
  buffer, so a buffer that is no line's result keeps its contents across a stretch: the argument arrays are found
  by the region as launched and end as launched, and no line after the region writes an array the region's windows
  stage. From a run to the library's frame post this gives the frame claim's post.
-/
import proofs.«121767_j16406775070798_2_alg».proof.Proof.Gen.KernelIdeal.Launch
import proofs.«121767_j16406775070798_2_alg».proof.Proof.Gen.KernelIdeal.Points
import Idealize.ShloMosaic.Lib.Pipeline.FrameBody
import Idealize.ShloMosaic.Lib.Pipeline.FrameSuffix

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The contents the region finds -/

/-- Core `c`'s buffer contents when the region is entered: after the host lines before it. -/
abbrev V0 (c : Dev nD) : Valuation τ sig (Elt F) := StableHlo.after (List.flatten [hostOps0]) (fun b => m (c, b))
/-- The same read at a reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- The program is the lines before the region, the region, the lines after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-! ## What each stretch writes -/

/-- The result buffers of the lines before the region, in order. -/
abbrev wr0 : List (Ref sig .tc) := [main_v0, main_v1, main_c, main_v2, main_v3, main_c_0, main_v4, main_v5, main_v6, main_c_1, main_v7, main_v8, main_c_2, main_v9, main_v10, main_v11, main_v12, main_v13, main_v14, main_v15, main_v16, main_c_3, main_v17, main_v18, main_c_4, main_v19, main_v20, main_v21, main_c_5, main_v22, main_v23, main_c_6, main_v24, main_v25, main_v26, main_v27, main_v28, main_v29, main_v30, main_v31, main_v32, main_v33, main_v34, main_v35]
/-- The result buffers of the lines after the region, in order. -/
abbrev wr1 : List (Ref sig .tc) := [main_cst, main_v37, main_cst_7, main_v38, main_v39, main_v40, main_v41, main_v42, main_v43, main_cst_8, main_v44, main_cst_9, main_v45, main_v46, main_v47, main_v48, main_v49, main_v50, main_v51, main_v52, main_cst_10, main_v53, main_v54, main_v55, main_v56, main_v57, main_v58, main_v59, main_v60, main_v61, main_v62, main_v63, main_v64, main_v65, main_cst_11, main_v66, main_cst_12, main_v67, main_v68, main_v69, main_v70, main_v71, main_v72, main_cst_13, main_v73, main_cst_14, main_v74, main_v75, main_v76, main_v77, main_v78, main_v79, main_v80, main_v81, main_cst_15, main_v82, main_v83, main_v84, main_v85, main_v86, main_v87, main_v88, main_v89, main_v90, main_cst_16, main_v91, main_v92]

theorem writes_sub_of_mem {W : List (Ref sig .tc)} {y : Ref sig .tc} (h : y ∈ W) :
    ({Proc.devRef (τ := τ) .tc y} : Finset (DevRef τ sig)) ⊆ (W.map (Proc.devRef (τ := τ) .tc)).toFinset :=
  Finset.singleton_subset_iff.mpr (List.mem_toFinset.mpr (List.mem_map_of_mem h))

/-- Each line before the region writes its own result buffer only. -/
theorem hostOps0_writes : (hostOps0 : List (HloOp τ sig (Elt F))).Forall fun op => op.writes ⊆ (wr0.map (Proc.devRef (τ := τ) .tc)).toFinset :=
  ⟨writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide)⟩
/-- Each line after the region writes its own result buffer only. -/
theorem hostOps1_writes : (hostOps1 : List (HloOp τ sig (Elt F))).Forall fun op => op.writes ⊆ (wr1.map (Proc.devRef (τ := τ) .tc)).toFinset :=
  ⟨writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide)⟩

/-- The lines after the region touch the region's arrays and the other unscoped buffers only. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp hostOps1_fresh) op hop
/-- And write no array the region's windows stage: no such array is a result buffer of theirs. -/
theorem sfx_keeps : ∀ ops ∈ ([hostOps1] : List (List (HloOp τ sig (Elt F)))), ∀ op ∈ ops,
    ∀ w, Proc.devRef .tc (Pipeline.arrRef spec0 w) ∉ op.writes := by
  intro ops hops op hop w hmem
  simp only [List.mem_cons, List.mem_nil_iff, or_false] at hops
  rcases hops with rfl
  have hsub := (List.forall_iff_forall_mem.mp hostOps1_writes) op hop hmem
  obtain ⟨y, hy, he⟩ := List.mem_map.mp (List.mem_toFinset.mp hsub)
  exact (by decide : ∀ w, Pipeline.arrRef spec0 w ∉ wr1) w (Proc.devRef_injective _ he ▸ hy)

/-- A buffer no line before the region writes is found by the region as launched. -/
theorem V_of_not_written (c : Dev nD) (b : Ref sig .tc) (hb : b ∉ wr0) : V m c b = m ((c : Thread nD τ).loc b) := by
  show StableHlo.after (List.flatten [hostOps0]) (fun b => m (c, b)) (Proc.devRef .tc b) = _
  rw [List.flatten_cons, List.flatten_nil, List.append_nil]
  exact StableHlo.after_of_writes_sub hostOps0 _ hostOps0_writes hb

/-- A buffer that no line writes and no window stages ends as launched. -/
theorem W_of_not_written (dats : (p : Fin _) → (c : Dev nD) → Dat τ (Elt F) Unit ℕ (UR sig nD τ) ℕ (cfgs p) c) (c : Dev nD)
    (b : Ref sig .tc) (h0 : b ∉ wr0) (h1 : b ∉ wr1) (hw : ∀ w, Pipeline.arrRef spec0 w ≠ b) :
    Pipeline.afterTail₀ cfgs dats 0 (V0 m) [hostOps1] c b = m ((c : Thread nD τ).loc b) := by
  unfold Pipeline.afterTail₀
  rw [List.flatten_cons, List.flatten_nil, List.append_nil, StableHlo.after_of_writes_sub hostOps1 _ hostOps1_writes h1,
    Pipeline.withArrays_of_ne _ c (V0 m c) _ b hw]
  exact V_of_not_written m c b h0

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! Each input window's current staging buffer holds its block at every point, whether it was fetched there or
    not (an unfetched window's block index has not moved). -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
theorem before0_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
theorem before0_10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)
theorem before0_11_of {c : Dev nD} (dat : Dat τ (Elt F) Unit ℕ (UR sig nD τ) ℕ cfg0 c) (hA : dat.A 11 = V m c (Pipeline.arrRef spec0 11))
    (hafter : ∀ t, dat.after 11 t = iblk m c 11 t) (t : Fin cfg0.N) (d) : dat.before 11 t d = iblk m c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)
theorem before0_12_of {c : Dev nD} (dat : Dat τ (Elt F) Unit ℕ (UR sig nD τ) ℕ cfg0 c) (hA : dat.A 12 = V m c (Pipeline.arrRef spec0 12))
    (hafter : ∀ t, dat.after 12 t = iblk m c 12 t) (t : Fin cfg0.N) (d) : dat.before 12 t d = iblk m c 12 t :=
  (dat.before_in_eq_fetched 12 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- From a run to the library's frame post, every argument array ends as launched: one a window stages holds its
    region-entry contents, which no earlier line wrote; any other is written by no line at all. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  (θ_run defs _ _).mono (fun _ h c => ⟨((h c).1 0).trans (((dats 0 c).arrAt_in 0 rfl _).trans ((hA c 0).trans (V_of_not_written m c main_arg0 (by decide)))),
    ((h c).2 main_arg1 (Pipeline.mem_restRefs_of main_arg1 (by decide) (by decide))).trans (W_of_not_written m dats c main_arg1 (by decide) (by decide) (by decide)),
    ((h c).2 main_arg2 (Pipeline.mem_restRefs_of main_arg2 (by decide) (by decide))).trans (W_of_not_written m dats c main_arg2 (by decide) (by decide) (by decide)),
    ((h c).1 5).trans (((dats 0 c).arrAt_in 5 rfl _).trans ((hA c 5).trans (V_of_not_written m c main_arg3 (by decide)))),
    ((h c).1 6).trans (((dats 0 c).arrAt_in 6 rfl _).trans ((hA c 6).trans (V_of_not_written m c main_arg4 (by decide)))),
    ((h c).1 7).trans (((dats 0 c).arrAt_in 7 rfl _).trans ((hA c 7).trans (V_of_not_written m c main_arg5 (by decide)))),
    ((h c).2 main_arg6 (Pipeline.mem_restRefs_of main_arg6 (by decide) (by decide))).trans (W_of_not_written m dats c main_arg6 (by decide) (by decide) (by decide)),
    ((h c).1 8).trans (((dats 0 c).arrAt_in 8 rfl _).trans ((hA c 8).trans (V_of_not_written m c main_arg7 (by decide)))),
    ((h c).1 9).trans (((dats 0 c).arrAt_in 9 rfl _).trans ((hA c 9).trans (V_of_not_written m c main_arg8 (by decide)))),
    ((h c).2 main_arg9 (Pipeline.mem_restRefs_of main_arg9 (by decide) (by decide))).trans (W_of_not_written m dats c main_arg9 (by decide) (by decide) (by decide)),
    ((h c).2 main_arg10 (Pipeline.mem_restRefs_of main_arg10 (by decide) (by decide))).trans (W_of_not_written m dats c main_arg10 (by decide) (by decide) (by decide)),
    ((h c).1 12).trans (((dats 0 c).arrAt_in 12 rfl _).trans ((hA c 12).trans (V_of_not_written m c main_arg11 (by decide)))),
    ((h c).2 main_arg12 (Pipeline.mem_restRefs_of main_arg12 (by decide) (by decide))).trans (W_of_not_written m dats c main_arg12 (by decide) (by decide) (by decide)),
    ((h c).2 main_arg13 (Pipeline.mem_restRefs_of main_arg13 (by decide) (by decide))).trans (W_of_not_written m dats c main_arg13 (by decide) (by decide) (by decide)),
    ((h c).2 main_arg14 (Pipeline.mem_restRefs_of main_arg14 (by decide) (by decide))).trans (W_of_not_written m dats c main_arg14 (by decide) (by decide) (by decide)),
    ((h c).2 main_arg15 (Pipeline.mem_restRefs_of main_arg15 (by decide) (by decide))).trans (W_of_not_written m dats c main_arg15 (by decide) (by decide) (by decide)),
    ((h c).2 main_arg16 (Pipeline.mem_restRefs_of main_arg16 (by decide) (by decide))).trans (W_of_not_written m dats c main_arg16 (by decide) (by decide) (by decide)),
    ((h c).2 main_arg17 (Pipeline.mem_restRefs_of main_arg17 (by decide) (by decide))).trans (W_of_not_written m dats c main_arg17 (by decide) (by decide) (by decide))⟩) h

end Cert.KernelIdeal.Frame

end
-- ==== Proof.KIFrameRun.lean ====
/-
  The run of the program and its frame.

  The proof data of the one pipeline: each array as the region finds it; after the body at a grid point each input's
  staging buffer still at its block and each output's at the body's piece over the input blocks. With the body's
  triple this gives the library's body obligation at every point, the launch theorem gives the run — every array
  of the pipeline ends at what the write-backs left, every other buffer as the later host lines leave it — and the
  run gives the frame claim.
-/
import proofs.«121767_j16406775070798_2_alg».proof.Proof.KIFrameBody
import proofs.«121767_j16406775070798_2_alg».proof.Proof.KIFrameMain
import Idealize.ShloMosaic.Lib.Pipeline.FrameSuffix

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The proof data of the pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => out0_13 (iblk m c 0 t) (iblk m c 3 t) (iblk m c 1 t) (iblk m c 2 t) (iblk m c 4 t) (iblk m c 5 t) (iblk m c 6 t) (iblk m c 7 t) (iblk m c 8 t) (iblk m c 9 t)
    | ⟨14, _⟩ => out0_14 (iblk m c 0 t) (iblk m c 3 t) (iblk m c 2 t) (iblk m c 4 t) (iblk m c 8 t) (iblk m c 9 t) (iblk m c 10 t) (iblk m c 11 t) (iblk m c 12 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = out0_13 (iblk m c 0 t) (iblk m c 3 t) (iblk m c 1 t) (iblk m c 2 t) (iblk m c 4 t) (iblk m c 5 t) (iblk m c 6 t) (iblk m c 7 t) (iblk m c 8 t) (iblk m c 9 t) := by dsimp only [dats]
theorem after0_14 (c : Dev nD) (t : Fin cfg0.N) : (dats m 0 c).after 14 t = out0_14 (iblk m c 0 t) (iblk m c 3 t) (iblk m c 2 t) (iblk m c 4 t) (iblk m c 8 t) (iblk m c 9 t) (iblk m c 10 t) (iblk m c 11 t) (iblk m c 12 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t))

set_option maxHeartbeats 2000000 in
/-- The body at any point: the inputs' buffers hold their blocks, so the body's triple applies; the invariant and the
    core's debts pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
  iapply (sound_kernel c Set.univ (grid0.coords t) _ _ _ _ _ _ _ _ _ _ _ _ _ _ _ _ _ _ _ _ _ _ _ _ _ _ _ _ _ _ (iblk m c 0 t) (iblk m c 3 t) (iblk m c 1 t) (iblk m c 2 t) (iblk m c 4 t) (iblk m c 5 t) (iblk m c 6 t) (iblk m c 7 t) (iblk m c 8 t) (iblk m c 9 t) (iblk m c 10 t) (iblk m c 11 t) (iblk m c 12 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexists _; iexact H13
  isplitl [H14]; · iexists _; iexact H14
  iintro ⟨H0, H1, H2, H3, H4, H5, H6, H7, H8, H9, H10, H11, H12, H13, H14⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  iexact H14

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of the program terminates, and every final state has each array of the pipeline at
    what the write-backs left and every other unscoped buffer as the lines after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: the program runs to the end and every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  frame_of m ρ (dats m) (A_eq m) (run_main m ρ)

end Cert.KernelIdeal.Frame

end
-- ==== Proof.RefFrame.lean ====
/-
  The reference program's frame: under the precondition every weakly fair execution terminates without a fault and
  leaves the argument arrays as it found them. It is the generated run with the result's value forgotten.
-/
import proofs.«121767_j16406775070798_2_alg».proof.Proof.Gen.ReferenceIdeal.Run
import proofs.«121767_j16406775070798_2_alg».proof.Defs
import proofs.«121767_j16406775070798_2_alg».proof.Proof.Gen.Pre_finite_inputs

namespace Cert.ReferenceIdeal.RefValue

open Idealize.ShloMosaic Idealize.SL.Sem

theorem frame_ri : Cert.frame_ReferenceIdeal := fun m ρ _ =>
  (θ_run Cert.ReferenceIdeal.defs _ _).mono (fun _ h c => (h c).2) (Cert.ReferenceIdeal.Value.run (F := Ideal) m ρ)

end Cert.ReferenceIdeal.RefValue
-- ==== Proof.RefRowDefs.lean ====
/-
  The reference program's result, cut into named whole-array functions.

  The reference computes, for every one of the 131072 rows at once: the embedding array (13 dense fields mapped
  affinely from the scalar features, 26 sparse fields gathered from a table, every field scaled by its value), the
  first-order term (the first embedding summed over fields and coordinates), the second-order term
  (half of "square of the field sum minus field sum of squares", summed over coordinates, on the second embedding),
  and the hidden layer (the second embedding read as 624 numbers per row, times a 624 x 32 matrix, plus a bias); the
  deep part applied to the hidden layer is stated elsewhere, once for both programs. Each function below is, letter
  for letter, the corresponding sub-term of the generated run's result, with the argument arrays as variables.
-/
import proofs.«121767_j16406775070798_2_alg».proof.Proof.Gen.ReferenceIdeal
import Idealize.ShloMosaic.PureOps.Ideal.Laws
import Idealize.ShloMosaic.Lib.ValueIdx

noncomputable section

namespace Cert.ReferenceIdeal.RefValue

open Cert.ReferenceIdeal Cert.ReferenceIdeal.Gen Idealize.ShloMosaic Idealize.ShloMosaic.TcCoe Idealize.SL.Sem Idealize.ShloMosaic.StableHlo

/-- The gathered table rows: entry (n, f, e) is the table's entry (f, XI (n, f), e), the field index being the
    iota row (wrapped if negative) and the row index XI (n, f) (wrapped by 100000 if negative). -/
def gatherT (T : FVec Ideal S26x100000x16 .f32) (XI : IVec S131072x26 32) : FVec Ideal S131072x26x16 .f32 :=
  Host.gather gather_S26x100000x16_S131072x26x2_S131072x26x16_2_01_n_n_01_2_1116 T (concatenate S131072x26x2 2 [⟨S131072x26x1, (broadcastInDim S131072x26x1 ![0, 1] bcast_S131072x26_S131072x26x1_0_1 (broadcastInDim S131072x26 ![0, 1] bcast_S1x26_S131072x26_0_1 (select (cmpi .slt (broadcastInDim S1x26 ![1] bcast_S26_S1x26_1 (iotaInDim S26 32 0)) (broadcastInDim S1x26 ![] bcast_S_S1x26 (constantI S_ 32 0#32))) (addi (broadcastInDim S1x26 ![1] bcast_S26_S1x26_1 (iotaInDim S26 32 0)) (broadcastInDim S1x26 ![] bcast_S_S1x26 (constantI S_ 32 26#32))) (broadcastInDim S1x26 ![1] bcast_S26_S1x26_1 (iotaInDim S26 32 0)))))⟩, ⟨S131072x26x1, (broadcastInDim S131072x26x1 ![0, 1] bcast_S131072x26_S131072x26x1_0_1 (select (cmpi .slt XI (broadcastInDim S131072x26 ![] bcast_S_S131072x26 (constantI S_ 32 0#32))) (addi XI (broadcastInDim S131072x26 ![] bcast_S_S131072x26 (constantI S_ 32 100000#32))) XI))⟩] concatenates_S131072x26x1_S131072x26x1_S131072x26x2_d2)

/-- The embedding array: fields 0..12 are x * w + b, fields 13..38 the gathered rows; every field scaled by its
    value. -/
def embT (XD : FVec Ideal S131072x13 .f32) (W B : FVec Ideal S13x16 .f32) (S : FVec Ideal S131072x26x16 .f32)
    (XV : FVec Ideal S131072x39 .f32) : FVec Ideal S131072x39x16 .f32 :=
  mulf (concatenate S131072x39x16 1 [⟨S131072x13x16, (addf (mulf (broadcastInDim S131072x13x16 ![0, 1, 2] bcast_S131072x13x1_S131072x13x16_0_1_2 (broadcastInDim S131072x13x1 ![0, 1] bcast_S131072x13_S131072x13x1_0_1 XD)) (broadcastInDim S131072x13x16 ![0, 1, 2] bcast_S1x13x16_S131072x13x16_0_1_2 (broadcastInDim S1x13x16 ![1, 2] bcast_S13x16_S1x13x16_1_2 W))) (broadcastInDim S131072x13x16 ![0, 1, 2] bcast_S1x13x16_S131072x13x16_0_1_2 (broadcastInDim S1x13x16 ![1, 2] bcast_S13x16_S1x13x16_1_2 B)))⟩, ⟨S131072x26x16, S⟩] concatenates_S131072x13x16_S131072x26x16_S131072x39x16_d1) (broadcastInDim S131072x39x16 ![0, 1, 2] bcast_S131072x39x1_S131072x39x16_0_1_2 (broadcastInDim S131072x39x1 ![0, 1] bcast_S131072x39_S131072x39x1_0_1 XV))

/-- The first-order term: an embedding summed over fields and coordinates. -/
def firstT (E : FVec Ideal S131072x39x16 .f32) : FVec Ideal S131072 .f32 :=
  Host.reduceAdd E (constant (F := Ideal) S_ .f32 0x00000000#32) reducesTo_S131072x39x16_S131072_d1_2 h_S_

/-- The second-order term: half of (square of the sum over fields, minus the sum over fields of squares), summed
    over coordinates. -/
def fm2T (E : FVec Ideal S131072x39x16 .f32) : FVec Ideal S131072 .f32 :=
  Host.reduceAdd (mulf (broadcastInDim S131072x16 ![] bcast_S_S131072x16 (constant (F := Ideal) S_ .f32 0x3F000000#32)) (subf (mulf (Host.reduceAdd E (constant (F := Ideal) S_ .f32 0x00000000#32) reducesTo_S131072x39x16_S131072x16_d1 h_S_) (Host.reduceAdd E (constant (F := Ideal) S_ .f32 0x00000000#32) reducesTo_S131072x39x16_S131072x16_d1 h_S_)) (Host.reduceAdd (mulf E E) (constant (F := Ideal) S_ .f32 0x00000000#32) reducesTo_S131072x39x16_S131072x16_d1 h_S_))) (constant (F := Ideal) S_ .f32 0x00000000#32) reducesTo_S131072x16_S131072_d1 h_S_

/-- The hidden layer before normalisation: the embedding as 624 numbers per row, times the weights, plus the
    bias. -/
def hiddenT (E : FVec Ideal S131072x39x16 .f32) (WL1 : FVec Ideal S624x32 .f32) (BL1 : FVec Ideal S32 .f32) :
    FVec Ideal S131072x32 .f32 :=
  addf (Host.dotGeneral (F := Ideal) dot_S131072x624_S624x32_S131072x32_1_0_0_1_n_n none (shapeCast _ E shapeCasts_S131072x39x16_S131072x624) WL1) (broadcastInDim S131072x32 ![0, 1] bcast_S1x32_S131072x32_0_1 (broadcastInDim S1x32 ![1] bcast_S32_S1x32_1 BL1))

end Cert.ReferenceIdeal.RefValue

end
-- ==== Proof.DeepTail.lean ====
/-
  The part both programs share after the hidden layer: batch-normalise the hidden layer over the batch, multiply by
  the second weight matrix and add its bias, batch-normalise again, and sum each row.

  Batch normalisation of a matrix X of 131072 rows and 32 columns with scale g and shift b: with μ the column means
  (column sums divided by 131072) and σ² the column means of (X − μ)², the result is g · (X − μ) · (σ² + ε)^(−1/2) + b,
  column-wise. It is stated here once, for any float instance, as the composition of whole-array operations both
  printed programs spell, so that neither side's proof ever looks inside it: the two results are equal as soon as the
  hidden layers going in are.
-/
import Idealize.ShloMosaic.PureOps

noncomputable section

namespace DeepFM

open Idealize.ShloMosaic

abbrev SNx32 : Shape := ⟨2, ![131072, 32]⟩
abbrev S1x32 : Shape := ⟨2, ![1, 32]⟩
abbrev S32x32 : Shape := ⟨2, ![32, 32]⟩
abbrev S32 : Shape := ⟨1, ![32]⟩
abbrev SN : Shape := ⟨1, ![131072]⟩
abbrev S0 : Shape := ⟨0, ![]⟩

theorem colSum : SNx32.ReducesTo [0] S32 := by decide
theorem rowSum : SNx32.ReducesTo [1] SN := by decide
theorem pos0 : 0 < S0.numel := by decide
theorem bc0 : S0.BroadcastsInDim S32 (![] : Fin 0 → Fin S32.rank) := by decide
theorem bc1 : S32.BroadcastsInDim S1x32 (![1] : Fin 1 → Fin S1x32.rank) := by decide
theorem bc2 : S1x32.BroadcastsInDim SNx32 (![0, 1] : Fin 2 → Fin SNx32.rank) := by decide

variable {F : FTy → Type} [FloatOps F]

/-- A vector of 32 numbers as the matrix whose every row it is. -/
def rows (v : FVec F S32 .f32) : FVec F SNx32 .f32 :=
  broadcastInDim SNx32 ![0, 1] bc2 (broadcastInDim S1x32 ![1] bc1 v)

/-- The column means of a matrix: column sums from zero, divided by the number of rows (131072 = 0x48000000). -/
def colMean (X : FVec F SNx32 .f32) : FVec F S32 .f32 :=
  Host.divf (Host.reduceAdd X (constant S0 .f32 0x00000000#32) colSum pos0)
    (broadcastInDim S32 ![] bc0 (constant S0 .f32 0x48000000#32))

/-- Batch normalisation over the rows, with scale `g`, shift `b` and ε the float word 0x3727C5AC. -/
def batchNorm (X : FVec F SNx32 .f32) (g b : FVec F S32 .f32) : FVec F SNx32 .f32 :=
  addf (mulf (mulf (rows g) (subf X (rows (colMean X))))
      (rows (Host.rsqrt (addf (colMean (mulf (subf X (rows (colMean X))) (subf X (rows (colMean X)))))
        (broadcastInDim S32 ![] bc0 (constant S0 .f32 0x3727C5AC#32))))))
    (rows b)

/-- The deep part's row sums from the hidden layer `H`: normalise, multiply by the 32×32 weights `W` under the
    dimension record `d` and add the bias `c`, normalise again, sum each row from zero. -/
def deep (d : DotDims SNx32 S32x32 SNx32) (H : FVec F SNx32 .f32) (g1 b1 : FVec F S32 .f32) (W : FVec F S32x32 .f32)
    (c g2 b2 : FVec F S32 .f32) : FVec F SN .f32 :=
  Host.reduceAdd (batchNorm (addf (Host.dotGeneral d none (batchNorm H g1 b1) W) (rows c)) g2 b2)
    (constant S0 .f32 0x00000000#32) rowSum pos0

end DeepFM

end
-- ==== Proof.RefRowRun.lean ====
/-
  The generated run of the reference program, restated with the result as the sum of the four named parts:
  first-order term + second-order term + deep part + the bias argument.
-/
import proofs.«121767_j16406775070798_2_alg».proof.Proof.Gen.ReferenceIdeal.Run
import proofs.«121767_j16406775070798_2_alg».proof.Proof.RefRowDefs
import proofs.«121767_j16406775070798_2_alg».proof.Proof.DeepTail

noncomputable section

namespace Cert.ReferenceIdeal.RefValue

open Cert.ReferenceIdeal Cert.ReferenceIdeal.Gen Idealize.ShloMosaic Idealize.ShloMosaic.TcCoe Idealize.SL.Sem Idealize.ShloMosaic.StableHlo

/-- The composed term of the generated run is the sum of the named parts. -/
theorem result_eq (m : (ℓ : Loc nD τ sig) → Buf (Elt Ideal) ℓ) (c : Dev nD) :
    addf (addf (addf (Host.reduceAdd (mulf (concatenate S131072x39x16 1 [⟨S131072x13x16, (addf (mulf (broadcastInDim S131072x13x16 ![0, 1, 2] bcast_S131072x13x1_S131072x13x16_0_1_2 (broadcastInDim S131072x13x1 ![0, 1] bcast_S131072x13_S131072x13x1_0_1 ((launchContents m c) (Proc.devRef .tc main_arg0)))) (broadcastInDim S131072x13x16 ![0, 1, 2] bcast_S1x13x16_S131072x13x16_0_1_2 (broadcastInDim S1x13x16 ![1, 2] bcast_S13x16_S1x13x16_1_2 ((launchContents m c) (Proc.devRef .tc main_arg4))))) (broadcastInDim S131072x13x16 ![0, 1, 2] bcast_S1x13x16_S131072x13x16_0_1_2 (broadcastInDim S1x13x16 ![1, 2] bcast_S13x16_S1x13x16_1_2 ((launchContents m c) (Proc.devRef .tc main_arg5)))))⟩, ⟨S131072x26x16, (Host.gather gather_S26x100000x16_S131072x26x2_S131072x26x16_2_01_n_n_01_2_1116 ((launchContents m c) (Proc.devRef .tc main_arg6)) (concatenate S131072x26x2 2 [⟨S131072x26x1, (broadcastInDim S131072x26x1 ![0, 1] bcast_S131072x26_S131072x26x1_0_1 (broadcastInDim S131072x26 ![0, 1] bcast_S1x26_S131072x26_0_1 (select (cmpi .slt (Value.res_main_v9 (F := Ideal) (launchContents m c)) (broadcastInDim S1x26 ![] bcast_S_S1x26 (constantI S_ 32 0#32))) (addi (Value.res_main_v9 (F := Ideal) (launchContents m c)) (broadcastInDim S1x26 ![] bcast_S_S1x26 (constantI S_ 32 26#32))) (Value.res_main_v9 (F := Ideal) (launchContents m c)))))⟩, ⟨S131072x26x1, (broadcastInDim S131072x26x1 ![0, 1] bcast_S131072x26_S131072x26x1_0_1 (select (cmpi .slt ((launchContents m c) (Proc.devRef .tc main_arg1)) (broadcastInDim S131072x26 ![] bcast_S_S131072x26 (constantI S_ 32 0#32))) (addi ((launchContents m c) (Proc.devRef .tc main_arg1)) (broadcastInDim S131072x26 ![] bcast_S_S131072x26 (constantI S_ 32 100000#32))) ((launchContents m c) (Proc.devRef .tc main_arg1))))⟩] concatenates_S131072x26x1_S131072x26x1_S131072x26x2_d2))⟩] concatenates_S131072x13x16_S131072x26x16_S131072x39x16_d1) (broadcastInDim S131072x39x16 ![0, 1, 2] bcast_S131072x39x1_S131072x39x16_0_1_2 (broadcastInDim S131072x39x1 ![0, 1] bcast_S131072x39_S131072x39x1_0_1 ((launchContents m c) (Proc.devRef .tc main_arg2))))) (constant S_ .f32 0x00000000#32) reducesTo_S131072x39x16_S131072_d1_2 h_S_) (Host.reduceAdd (mulf (broadcastInDim S131072x16 ![] bcast_S_S131072x16 (constant S_ .f32 0x3F000000#32)) (subf (mulf (Value.res_main_v58 (F := Ideal) (launchContents m c)) (Value.res_main_v58 (F := Ideal) (launchContents m c))) (Host.reduceAdd (mulf (Value.res_main_v57 (F := Ideal) (launchContents m c)) (Value.res_main_v57 (F := Ideal) (launchContents m c))) (constant S_ .f32 0x00000000#32) reducesTo_S131072x39x16_S131072x16_d1 h_S_))) (constant S_ .f32 0x00000000#32) reducesTo_S131072x16_S131072_d1 h_S_)) (Host.reduceAdd (addf (mulf (mulf (broadcastInDim S131072x32 ![0, 1] bcast_S1x32_S131072x32_0_1 (broadcastInDim S1x32 ![1] bcast_S32_S1x32_1 ((launchContents m c) (Proc.devRef .tc main_arg16)))) (subf (Value.res_main_v98 (F := Ideal) (launchContents m c)) (broadcastInDim S131072x32 ![0, 1] bcast_S1x32_S131072x32_0_1 (broadcastInDim S1x32 ![1] bcast_S32_S1x32_1 (Value.res_main_v101 (F := Ideal) (launchContents m c)))))) (broadcastInDim S131072x32 ![0, 1] bcast_S1x32_S131072x32_0_1 (broadcastInDim S1x32 ![1] bcast_S32_S1x32_1 (Host.rsqrt (addf (Host.divf (Host.reduceAdd (mulf (Value.res_main_v104 (F := Ideal) (launchContents m c)) (Value.res_main_v104 (F := Ideal) (launchContents m c))) (constant S_ .f32 0x00000000#32) reducesTo_S131072x32_S32_d0 h_S_) (broadcastInDim S32 ![] bcast_S_S32 (constant S_ .f32 0x48000000#32))) (broadcastInDim S32 ![] bcast_S_S32 (constant S_ .f32 0x3727C5AC#32))))))) (broadcastInDim S131072x32 ![0, 1] bcast_S1x32_S131072x32_0_1 (broadcastInDim S1x32 ![1] bcast_S32_S1x32_1 ((launchContents m c) (Proc.devRef .tc main_arg17))))) (constant S_ .f32 0x00000000#32) reducesTo_S131072x32_S131072_d1 h_S_)) ((launchContents m c) (Proc.devRef .tc main_arg3))
    = addf (addf (addf (firstT (embT (launchContents m c (Proc.devRef .tc main_arg0)) (launchContents m c (Proc.devRef .tc main_arg4)) (launchContents m c (Proc.devRef .tc main_arg5)) (gatherT (launchContents m c (Proc.devRef .tc main_arg6)) (launchContents m c (Proc.devRef .tc main_arg1))) (launchContents m c (Proc.devRef .tc main_arg2)))) (fm2T (embT (launchContents m c (Proc.devRef .tc main_arg0)) (launchContents m c (Proc.devRef .tc main_arg7)) (launchContents m c (Proc.devRef .tc main_arg8)) (gatherT (launchContents m c (Proc.devRef .tc main_arg9)) (launchContents m c (Proc.devRef .tc main_arg1))) (launchContents m c (Proc.devRef .tc main_arg2))))) (DeepFM.deep (F := Ideal) dot_S131072x32_S32x32_S131072x32_1_0_0_1_n_n (hiddenT (embT (launchContents m c (Proc.devRef .tc main_arg0)) (launchContents m c (Proc.devRef .tc main_arg7)) (launchContents m c (Proc.devRef .tc main_arg8)) (gatherT (launchContents m c (Proc.devRef .tc main_arg9)) (launchContents m c (Proc.devRef .tc main_arg1))) (launchContents m c (Proc.devRef .tc main_arg2))) (launchContents m c (Proc.devRef .tc main_arg10)) (launchContents m c (Proc.devRef .tc main_arg11))) (launchContents m c (Proc.devRef .tc main_arg12)) (launchContents m c (Proc.devRef .tc main_arg13)) (launchContents m c (Proc.devRef .tc main_arg14)) (launchContents m c (Proc.devRef .tc main_arg15)) (launchContents m c (Proc.devRef .tc main_arg16)) (launchContents m c (Proc.devRef .tc main_arg17)))) (launchContents m c (Proc.devRef .tc main_arg3)) := rfl

/-- On every device, from any memory with zero counters: every weakly fair execution of the reference terminates
    with its result buffer at first-order term + second-order term + deep part + bias argument, each a named
    function of the launch contents of the arguments, and with the arguments unchanged. -/
theorem run' (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v129) = addf (addf (addf (firstT (embT (launchContents m c (Proc.devRef .tc main_arg0)) (launchContents m c (Proc.devRef .tc main_arg4)) (launchContents m c (Proc.devRef .tc main_arg5)) (gatherT (launchContents m c (Proc.devRef .tc main_arg6)) (launchContents m c (Proc.devRef .tc main_arg1))) (launchContents m c (Proc.devRef .tc main_arg2)))) (fm2T (embT (launchContents m c (Proc.devRef .tc main_arg0)) (launchContents m c (Proc.devRef .tc main_arg7)) (launchContents m c (Proc.devRef .tc main_arg8)) (gatherT (launchContents m c (Proc.devRef .tc main_arg9)) (launchContents m c (Proc.devRef .tc main_arg1))) (launchContents m c (Proc.devRef .tc main_arg2))))) (DeepFM.deep (F := Ideal) dot_S131072x32_S32x32_S131072x32_1_0_0_1_n_n (hiddenT (embT (launchContents m c (Proc.devRef .tc main_arg0)) (launchContents m c (Proc.devRef .tc main_arg7)) (launchContents m c (Proc.devRef .tc main_arg8)) (gatherT (launchContents m c (Proc.devRef .tc main_arg9)) (launchContents m c (Proc.devRef .tc main_arg1))) (launchContents m c (Proc.devRef .tc main_arg2))) (launchContents m c (Proc.devRef .tc main_arg10)) (launchContents m c (Proc.devRef .tc main_arg11))) (launchContents m c (Proc.devRef .tc main_arg12)) (launchContents m c (Proc.devRef .tc main_arg13)) (launchContents m c (Proc.devRef .tc main_arg14)) (launchContents m c (Proc.devRef .tc main_arg15)) (launchContents m c (Proc.devRef .tc main_arg16)) (launchContents m c (Proc.devRef .tc main_arg17)))) (launchContents m c (Proc.devRef .tc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17) :=
  (θ_run defs _ _).mono (fun _ h c => ⟨(h c).1.trans (result_eq m c), (h c).2⟩) (Value.run (F := Ideal) m ρ)

end Cert.ReferenceIdeal.RefValue

end
-- ==== Proof.KITail.lean ====
/-
  The host lines after the region, read back: the program's result is the row partial sums the region wrote plus the
  deep part's row sums of the hidden layer the region wrote.

  The 67 lines after the region normalise the hidden layer over the batch, multiply by the second weight matrix, add
  its bias, normalise again, sum each row, and add the result to the region's first output. Composed, they are the
  shared function `DeepFM.deep` of the hidden layer and the six small arguments, added to the partial sums.
-/
import proofs.«121767_j16406775070798_2_alg».proof.Proof.Gen.KernelIdeal.Launch
import proofs.«121767_j16406775070798_2_alg».proof.Proof.DeepTail
import Idealize.ShloMosaic.Lib.StableHlo.Run

set_option maxRecDepth 16384

noncomputable section

namespace Cert.KernelIdeal.Tail

open Cert.KernelIdeal Cert.KernelIdeal.Gen
open Idealize.ShloMosaic Idealize.ShloMosaic.TcCoe Idealize.SL.Sem Idealize.ShloMosaic.StableHlo

variable {F : FTy → Type} [FloatOps F]

set_option maxHeartbeats 4000000 in
/-- From any contents `M`, the result buffer after the later lines is the partial sums plus the deep part of the
    hidden layer, both as `M` holds them. -/
theorem tail_eq (M : Valuation τ sig (Elt F)) :
    (StableHlo.after (hostOps1 (F := F)) M (Proc.devRef .tc main_v92) : FVec F S131072 .f32)
      = addf (M (Proc.devRef .tc main_v36_0) : FVec F S131072 .f32)
          (DeepFM.deep (F := F) dot_S131072x32_S32x32_S131072x32_1_0_0_1_n_n (M (Proc.devRef .tc main_v36_1))
            (M (Proc.devRef .tc main_arg12)) (M (Proc.devRef .tc main_arg13)) (M (Proc.devRef .tc main_arg14))
            (M (Proc.devRef .tc main_arg15)) (M (Proc.devRef .tc main_arg16)) (M (Proc.devRef .tc main_arg17))) := by
  after_results_simp
  rfl

end Cert.KernelIdeal.Tail

end
-- ==== Proof.KIPrefix.lean ====
/-
  The host lines before the region, read back: what the region's windows find in the six arrays those lines compute.

  The table rows of the two embedding tables are gathered at (field, id) pairs: the field index is the column number
  0..25, the id is the integer feature with a negative value wrapped once by the vocabulary size (the usual
  normalisation of a Python index; the gather itself clamps). The field values are cut into their 13 dense and 26
  sparse columns, the first weight matrix into its 208 dense and 416 sparse rows.
-/
import proofs.«121767_j16406775070798_2_alg».proof.Proof.Gen.KernelIdeal.Launch
import Idealize.ShloMosaic.Lib.StableHlo.Run

set_option maxRecDepth 16384

noncomputable section

namespace Cert.KernelIdeal.Prefix

open Cert.KernelIdeal Cert.KernelIdeal.Gen
open Idealize.ShloMosaic Idealize.ShloMosaic.TcCoe Idealize.SL.Sem Idealize.ShloMosaic.StableHlo

variable {F : FTy → Type} [FloatOps F]

/-- The field numbers 0..25 as a row. -/
def fieldRow : (⟨S1x26, .i32⟩ : BufTy).Contents (Elt F) :=
  broadcastInDim S1x26 ![1] bcast_S26_S1x26_1 (iotaInDim S26 32 0 : (⟨S26, .i32⟩ : BufTy).Contents (Elt F))

/-- The (field, id) index pairs of every row and sparse field, negative entries wrapped once. -/
def indexPairs (XI : (⟨S131072x26, .i32⟩ : BufTy).Contents (Elt F)) : (⟨S131072x26x2, .i32⟩ : BufTy).Contents (Elt F) :=
  concatenate S131072x26x2 2
    [⟨S131072x26x1, (broadcastInDim S131072x26x1 ![0, 1] bcast_S131072x26_S131072x26x1_0_1
        (broadcastInDim S131072x26 ![0, 1] bcast_S1x26_S131072x26_0_1
          (select (cmpi .slt (fieldRow (F := F)) (broadcastInDim S1x26 ![] bcast_S_S1x26 (constantI S_ 32 0#32 : (⟨S_, .i32⟩ : BufTy).Contents (Elt F))))
            (addi (fieldRow (F := F)) (broadcastInDim S1x26 ![] bcast_S_S1x26 (constantI S_ 32 26#32 : (⟨S_, .i32⟩ : BufTy).Contents (Elt F))))
            (fieldRow (F := F)))) : (⟨S131072x26x1, .i32⟩ : BufTy).Contents (Elt F))⟩,
     ⟨S131072x26x1, (broadcastInDim S131072x26x1 ![0, 1] bcast_S131072x26_S131072x26x1_0_1
        (select (cmpi .slt XI (broadcastInDim S131072x26 ![] bcast_S_S131072x26 (constantI S_ 32 0#32 : (⟨S_, .i32⟩ : BufTy).Contents (Elt F))))
          (addi XI (broadcastInDim S131072x26 ![] bcast_S_S131072x26 (constantI S_ 32 100000#32 : (⟨S_, .i32⟩ : BufTy).Contents (Elt F))))
          XI) : (⟨S131072x26x1, .i32⟩ : BufTy).Contents (Elt F))⟩]
    concatenates_S131072x26x1_S131072x26x1_S131072x26x2_d2

/-- The gathered rows of a table: for every batch row and sparse field, the table's row at that field and id. -/
def gatherK (T : (⟨S26x100000x16, .f32⟩ : BufTy).Contents (Elt F)) (XI : (⟨S131072x26, .i32⟩ : BufTy).Contents (Elt F)) : (⟨S131072x26x16, .f32⟩ : BufTy).Contents (Elt F) :=
  Host.gather gather_S26x100000x16_S131072x26x2_S131072x26x16_2_01_n_n_01_2_1116 T (indexPairs XI)

set_option maxHeartbeats 4000000 in
theorem v16_eq (M : Valuation τ sig (Elt F)) :
    (StableHlo.after (hostOps0 (F := F)) M (Proc.devRef .tc main_v16) : (⟨S131072x26x16, .f32⟩ : BufTy).Contents (Elt F))
      = gatherK (M (Proc.devRef .tc main_arg6)) (M (Proc.devRef .tc main_arg1)) := by
  after_results_simp <;> rfl

set_option maxHeartbeats 4000000 in
theorem v31_eq (M : Valuation τ sig (Elt F)) :
    (StableHlo.after (hostOps0 (F := F)) M (Proc.devRef .tc main_v31) : (⟨S131072x26x16, .f32⟩ : BufTy).Contents (Elt F))
      = gatherK (M (Proc.devRef .tc main_arg9)) (M (Proc.devRef .tc main_arg1)) := by
  after_results_simp <;> rfl

set_option maxHeartbeats 4000000 in
theorem v32_eq (M : Valuation τ sig (Elt F)) :
    (StableHlo.after (hostOps0 (F := F)) M (Proc.devRef .tc main_v32) : (⟨S131072x13, .f32⟩ : BufTy).Contents (Elt F))
      = extractStridedSlice S131072x13 ![0, 0] (M (Proc.devRef .tc main_arg2) : (⟨S131072x39, .f32⟩ : BufTy).Contents (Elt F)) slices_S131072x39_S131072x13_0_0 := by
  after_results_simp <;> rfl

set_option maxHeartbeats 4000000 in
theorem v33_eq (M : Valuation τ sig (Elt F)) :
    (StableHlo.after (hostOps0 (F := F)) M (Proc.devRef .tc main_v33) : (⟨S131072x26, .f32⟩ : BufTy).Contents (Elt F))
      = extractStridedSlice S131072x26 ![0, 13] (M (Proc.devRef .tc main_arg2) : (⟨S131072x39, .f32⟩ : BufTy).Contents (Elt F)) slices_S131072x39_S131072x26_0_13 := by
  after_results_simp <;> rfl

set_option maxHeartbeats 4000000 in
theorem v34_eq (M : Valuation τ sig (Elt F)) :
    (StableHlo.after (hostOps0 (F := F)) M (Proc.devRef .tc main_v34) : (⟨S208x32, .f32⟩ : BufTy).Contents (Elt F))
      = extractStridedSlice S208x32 ![0, 0] (M (Proc.devRef .tc main_arg10) : (⟨S624x32, .f32⟩ : BufTy).Contents (Elt F)) slices_S624x32_S208x32_0_0 := by
  after_results_simp <;> rfl

set_option maxHeartbeats 4000000 in
theorem v35_eq (M : Valuation τ sig (Elt F)) :
    (StableHlo.after (hostOps0 (F := F)) M (Proc.devRef .tc main_v35) : (⟨S416x32, .f32⟩ : BufTy).Contents (Elt F))
      = extractStridedSlice S416x32 ![208, 0] (M (Proc.devRef .tc main_arg10) : (⟨S624x32, .f32⟩ : BufTy).Contents (Elt F)) slices_S624x32_S416x32_208_0 := by
  after_results_simp <;> rfl

end Cert.KernelIdeal.Prefix

end
-- ==== Proof.KIResult.lean ====
/-
  The kernel program's result, read off its run.

  After the run the result buffer holds what the later host lines compute from the region's two output arrays and
  the six small arguments: the partial sums' array plus the deep part of the hidden layer's array. The six arrays the
  earlier host lines compute are, at the region's entry, the two gathers and the four slices of the launched
  arguments; every other array a window reads is an argument as launched.
-/
import proofs.«121767_j16406775070798_2_alg».proof.Proof.KIFrameRun
import proofs.«121767_j16406775070798_2_alg».proof.Proof.KITail
import proofs.«121767_j16406775070798_2_alg».proof.Proof.KIPrefix
import Idealize.ShloMosaic.Lib.ValueIdx
import Idealize.ShloMosaic.Lib.ValueLayout
import Idealize.ShloMosaic.Lib.Pipeline.Value

set_option maxRecDepth 16384

noncomputable section

namespace Cert.KernelIdeal.Arrays

open Cert.KernelIdeal Cert.KernelIdeal.Gen Cert.KernelIdeal.Frame
open Idealize.ShloMosaic Idealize.ShloMosaic.TcCoe Idealize.ShloMosaic.ValueIdx
open Idealize.SL Idealize.SL.Sem
open Idealize.ShloMosaic.Pipeline (Dat Cfg Window)

variable (m : (ℓ : Loc nD τ sig) → Buf (Elt Ideal) ℓ) (ρ : Dev nD → PrngReg)

open Idealize.ShloMosaic.StableHlo

/-- The result buffer after the run's later lines: the tail of the two output arrays as the write-backs left them. -/
theorem tail_read (c : Dev nD) :
    Pipeline.afterTail₀ cfgs (dats m) 0 (V0 m) [hostOps1] c main_v92
      = addf ((dats m 0 c).arrAt 13 cfg0.N : FVec Ideal S131072 .f32)
          (DeepFM.deep (F := Ideal) dot_S131072x32_S32x32_S131072x32_1_0_0_1_n_n ((dats m 0 c).arrAt 14 cfg0.N)
            (m ((c : Thread nD τ).loc main_arg12)) (m ((c : Thread nD τ).loc main_arg13)) (m ((c : Thread nD τ).loc main_arg14))
            (m ((c : Thread nD τ).loc main_arg15)) (m ((c : Thread nD τ).loc main_arg16)) (m ((c : Thread nD τ).loc main_arg17))) := by
  unfold Pipeline.afterTail₀
  rw [List.flatten_cons, List.flatten_nil, List.append_nil]
  refine (Tail.tail_eq _).trans ?_
  have h13 : Pipeline.withArrays spec0 c (V0 m c) (fun w => (dats m 0 c).arrAt w cfg0.N) (Proc.devRef .tc main_v36_0)
      = (dats m 0 c).arrAt 13 cfg0.N := Pipeline.withArrays_arr spec0 launch0.win.arr_inj c _ _ 13
  have h14 : Pipeline.withArrays spec0 c (V0 m c) (fun w => (dats m 0 c).arrAt w cfg0.N) (Proc.devRef .tc main_v36_1)
      = (dats m 0 c).arrAt 14 cfg0.N := Pipeline.withArrays_arr spec0 launch0.win.arr_inj c _ _ 14
  have hne : ∀ b : Ref sig .tc, (∀ w, Pipeline.arrRef spec0 w ≠ b) → b ∉ wr0 →
      Pipeline.withArrays spec0 c (V0 m c) (fun w => (dats m 0 c).arrAt w cfg0.N) (Proc.devRef .tc b) = m ((c : Thread nD τ).loc b) :=
    fun b hb h0 => (Pipeline.withArrays_of_ne _ c (V0 m c) _ b hb).trans (V_of_not_written m c b h0)
  have a12 := hne main_arg12 (by decide) (by decide)
  have a13 := hne main_arg13 (by decide) (by decide)
  have a14 := hne main_arg14 (by decide) (by decide)
  have a15 := hne main_arg15 (by decide) (by decide)
  have a16 := hne main_arg16 (by decide) (by decide)
  have a17 := hne main_arg17 (by decide) (by decide)
  show addf (Pipeline.withArrays spec0 c (V0 m c) (fun w => (dats m 0 c).arrAt w cfg0.N) (Proc.devRef .tc main_v36_0) : FVec Ideal S131072 .f32)
      (DeepFM.deep (F := Ideal) dot_S131072x32_S32x32_S131072x32_1_0_0_1_n_n
        (Pipeline.withArrays spec0 c (V0 m c) (fun w => (dats m 0 c).arrAt w cfg0.N) (Proc.devRef .tc main_v36_1))
        (Pipeline.withArrays spec0 c (V0 m c) (fun w => (dats m 0 c).arrAt w cfg0.N) (Proc.devRef .tc main_arg12))
        (Pipeline.withArrays spec0 c (V0 m c) (fun w => (dats m 0 c).arrAt w cfg0.N) (Proc.devRef .tc main_arg13))
        (Pipeline.withArrays spec0 c (V0 m c) (fun w => (dats m 0 c).arrAt w cfg0.N) (Proc.devRef .tc main_arg14))
        (Pipeline.withArrays spec0 c (V0 m c) (fun w => (dats m 0 c).arrAt w cfg0.N) (Proc.devRef .tc main_arg15))
        (Pipeline.withArrays spec0 c (V0 m c) (fun w => (dats m 0 c).arrAt w cfg0.N) (Proc.devRef .tc main_arg16))
        (Pipeline.withArrays spec0 c (V0 m c) (fun w => (dats m 0 c).arrAt w cfg0.N) (Proc.devRef .tc main_arg17))) = _
  rw [h13, h14, a12, a13, a14, a15, a16, a17]

/-- The run's post gives the result buffer at that term. -/
theorem result_of_post (r : PUnit × MemSt nD τ sig (Elt Ideal))
    (h : Pipeline.FramePost cfgs (dats m) 0 (Pipeline.afterTail₀ cfgs (dats m) 0 (V0 m) [hostOps1]) r) (c : Dev nD) :
    r.2.mem ((c.tc : Thread nD τ).loc main_v92) = Pipeline.afterTail₀ cfgs (dats m) 0 (V0 m) [hostOps1] c main_v92 :=
  (h c).2 main_v92 (Pipeline.mem_restRefs_of main_v92 (by decide) (by decide))

/-- And every argument array as launched. -/
theorem args_of_post (r : PUnit × MemSt nD τ sig (Elt Ideal))
    (h : Pipeline.FramePost cfgs (dats m) 0 (Pipeline.afterTail₀ cfgs (dats m) 0 (V0 m) [hostOps1]) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17) :=
  ⟨((h c).1 0).trans (((dats m 0 c).arrAt_in 0 rfl _).trans ((A_eq m c 0).trans (V_of_not_written m c main_arg0 (by decide)))),
    ((h c).2 main_arg1 (Pipeline.mem_restRefs_of main_arg1 (by decide) (by decide))).trans (W_of_not_written m (dats m) c main_arg1 (by decide) (by decide) (by decide)),
    ((h c).2 main_arg2 (Pipeline.mem_restRefs_of main_arg2 (by decide) (by decide))).trans (W_of_not_written m (dats m) c main_arg2 (by decide) (by decide) (by decide)),
    ((h c).1 5).trans (((dats m 0 c).arrAt_in 5 rfl _).trans ((A_eq m c 5).trans (V_of_not_written m c main_arg3 (by decide)))),
    ((h c).1 6).trans (((dats m 0 c).arrAt_in 6 rfl _).trans ((A_eq m c 6).trans (V_of_not_written m c main_arg4 (by decide)))),
    ((h c).1 7).trans (((dats m 0 c).arrAt_in 7 rfl _).trans ((A_eq m c 7).trans (V_of_not_written m c main_arg5 (by decide)))),
    ((h c).2 main_arg6 (Pipeline.mem_restRefs_of main_arg6 (by decide) (by decide))).trans (W_of_not_written m (dats m) c main_arg6 (by decide) (by decide) (by decide)),
    ((h c).1 8).trans (((dats m 0 c).arrAt_in 8 rfl _).trans ((A_eq m c 8).trans (V_of_not_written m c main_arg7 (by decide)))),
    ((h c).1 9).trans (((dats m 0 c).arrAt_in 9 rfl _).trans ((A_eq m c 9).trans (V_of_not_written m c main_arg8 (by decide)))),
    ((h c).2 main_arg9 (Pipeline.mem_restRefs_of main_arg9 (by decide) (by decide))).trans (W_of_not_written m (dats m) c main_arg9 (by decide) (by decide) (by decide)),
    ((h c).2 main_arg10 (Pipeline.mem_restRefs_of main_arg10 (by decide) (by decide))).trans (W_of_not_written m (dats m) c main_arg10 (by decide) (by decide) (by decide)),
    ((h c).1 12).trans (((dats m 0 c).arrAt_in 12 rfl _).trans ((A_eq m c 12).trans (V_of_not_written m c main_arg11 (by decide)))),
    ((h c).2 main_arg12 (Pipeline.mem_restRefs_of main_arg12 (by decide) (by decide))).trans (W_of_not_written m (dats m) c main_arg12 (by decide) (by decide) (by decide)),
    ((h c).2 main_arg13 (Pipeline.mem_restRefs_of main_arg13 (by decide) (by decide))).trans (W_of_not_written m (dats m) c main_arg13 (by decide) (by decide) (by decide)),
    ((h c).2 main_arg14 (Pipeline.mem_restRefs_of main_arg14 (by decide) (by decide))).trans (W_of_not_written m (dats m) c main_arg14 (by decide) (by decide) (by decide)),
    ((h c).2 main_arg15 (Pipeline.mem_restRefs_of main_arg15 (by decide) (by decide))).trans (W_of_not_written m (dats m) c main_arg15 (by decide) (by decide) (by decide)),
    ((h c).2 main_arg16 (Pipeline.mem_restRefs_of main_arg16 (by decide) (by decide))).trans (W_of_not_written m (dats m) c main_arg16 (by decide) (by decide) (by decide)),
    ((h c).2 main_arg17 (Pipeline.mem_restRefs_of main_arg17 (by decide) (by decide))).trans (W_of_not_written m (dats m) c main_arg17 (by decide) (by decide) (by decide))⟩

/-! ## The region-entry contents of the arrays the earlier lines compute -/

theorem V_flat (c : Dev nD) (b : Ref sig .tc) :
    V m c b = StableHlo.after (hostOps0 (F := Ideal)) (fun b => m (c, b)) (Proc.devRef .tc b) := by
  show StableHlo.after (List.flatten [hostOps0]) (fun b => m (c, b)) (Proc.devRef .tc b) = _
  rw [List.flatten_cons, List.flatten_nil, List.append_nil]

theorem V16 (c : Dev nD) : V m c main_v16 = Prefix.gatherK (F := Ideal) (m ((c : Thread nD τ).loc main_arg6)) (m ((c : Thread nD τ).loc main_arg1)) :=
  (V_flat m c main_v16).trans (Prefix.v16_eq _)
theorem V31 (c : Dev nD) : V m c main_v31 = Prefix.gatherK (F := Ideal) (m ((c : Thread nD τ).loc main_arg9)) (m ((c : Thread nD τ).loc main_arg1)) :=
  (V_flat m c main_v31).trans (Prefix.v31_eq _)
theorem V32 (c : Dev nD) : V m c main_v32 = extractStridedSlice S131072x13 ![0, 0] (m ((c : Thread nD τ).loc main_arg2)) slices_S131072x39_S131072x13_0_0 :=
  (V_flat m c main_v32).trans (Prefix.v32_eq _)
theorem V33 (c : Dev nD) : V m c main_v33 = extractStridedSlice S131072x26 ![0, 13] (m ((c : Thread nD τ).loc main_arg2)) slices_S131072x39_S131072x26_0_13 :=
  (V_flat m c main_v33).trans (Prefix.v33_eq _)
theorem V34 (c : Dev nD) : V m c main_v34 = extractStridedSlice S208x32 ![0, 0] (m ((c : Thread nD τ).loc main_arg10)) slices_S624x32_S208x32_0_0 :=
  (V_flat m c main_v34).trans (Prefix.v34_eq _)
theorem V35 (c : Dev nD) : V m c main_v35 = extractStridedSlice S416x32 ![208, 0] (m ((c : Thread nD τ).loc main_arg10)) slices_S624x32_S416x32_208_0 :=
  (V_flat m c main_v35).trans (Prefix.v35_eq _)

theorem Varg0 (c : Dev nD) : V m c main_arg0 = (m ((c : Thread nD τ).loc main_arg0)) := V_of_not_written m c main_arg0 (by decide)
theorem Varg3 (c : Dev nD) : V m c main_arg3 = (m ((c : Thread nD τ).loc main_arg3)) := V_of_not_written m c main_arg3 (by decide)
theorem Varg4 (c : Dev nD) : V m c main_arg4 = (m ((c : Thread nD τ).loc main_arg4)) := V_of_not_written m c main_arg4 (by decide)
theorem Varg5 (c : Dev nD) : V m c main_arg5 = (m ((c : Thread nD τ).loc main_arg5)) := V_of_not_written m c main_arg5 (by decide)
theorem Varg7 (c : Dev nD) : V m c main_arg7 = (m ((c : Thread nD τ).loc main_arg7)) := V_of_not_written m c main_arg7 (by decide)
theorem Varg8 (c : Dev nD) : V m c main_arg8 = (m ((c : Thread nD τ).loc main_arg8)) := V_of_not_written m c main_arg8 (by decide)
theorem Varg11 (c : Dev nD) : V m c main_arg11 = (m ((c : Thread nD τ).loc main_arg11)) := V_of_not_written m c main_arg11 (by decide)

end Cert.KernelIdeal.Arrays

end
-- ==== Proof.Spec.lean ====
/-
  The row formulas of the factorization-machine model both programs compute, as plain functions of one row's data.

  For one batch row the model has 13 dense fields and 26 sparse fields, each embedded in 16 coordinates:
  a dense field `f` at coordinate `e` is `(x f · w f e + b f e) · v f` (a per-field affine map of the
  scalar feature, scaled by the field's value `v f`), a sparse field is its gathered table row scaled the same
  way. The first-order term sums every entry of the first embedding; the second-order term is
  `Σ_e ½ · ((Σ_f z f e)² − Σ_f (z f e)²)` over the second embedding `z`; the hidden layer contracts the second
  embedding, read as one vector of 39·16 numbers (field-major), with a weight matrix and adds a bias.

  Every sum over the 39 fields is written here as the sum over the 13 dense fields plus the sum over the 26
  sparse ones, and the contraction over 624 as 208 + 416: regrouping a finite sum is valid on the extended reals
  with no finiteness hypothesis (addition there is commutative and associative), so either arrangement may be
  taken as the definition.
-/
import Idealize.ShloMosaic.PureOps.Ideal
import Mathlib.Algebra.BigOperators.Fin

noncomputable section

namespace DeepFM

open Idealize.ShloMosaic

/-- One half, kept as the float word both programs print. -/
def half : EReal := Ideal.ofBits .f32 0x3F000000#32

/-- A dense field's embedding entry: the affine map of the scalar feature, scaled by the field value. -/
def denseE (x v : Fin 13 → EReal) (w b : Fin 13 → Fin 16 → EReal) (f : Fin 13) (e : Fin 16) : EReal :=
  (x f * w f e + b f e) * v f

/-- A sparse field's embedding entry: the gathered table row, scaled by the field value. -/
def sparseE (s : Fin 26 → Fin 16 → EReal) (v : Fin 26 → EReal) (f : Fin 26) (e : Fin 16) : EReal :=
  s f e * v f

/-- The first-order term of a row: every entry of the first embedding summed, dense fields then sparse fields,
    each over the fields first and the coordinates second. -/
def rowFirst (x vd : Fin 13 → EReal) (vs : Fin 26 → EReal) (s1 : Fin 26 → Fin 16 → EReal)
    (w1 b1 : Fin 13 → Fin 16 → EReal) : EReal :=
  (∑ e : Fin 16, ∑ f : Fin 13, denseE x vd w1 b1 f e) + (∑ e : Fin 16, ∑ f : Fin 26, sparseE s1 vs f e)

/-- The second-order term of a row: `Σ_e ½ · ((Σ_f z)² − Σ_f z²)` over the second embedding. -/
def rowSecond (x vd : Fin 13 → EReal) (vs : Fin 26 → EReal) (s2 : Fin 26 → Fin 16 → EReal)
    (w2 b2 : Fin 13 → Fin 16 → EReal) : EReal :=
  ∑ e : Fin 16, half *
    (((∑ f : Fin 13, denseE x vd w2 b2 f e) + (∑ f : Fin 26, sparseE s2 vs f e))
        * ((∑ f : Fin 13, denseE x vd w2 b2 f e) + (∑ f : Fin 26, sparseE s2 vs f e))
      - ((∑ f : Fin 13, denseE x vd w2 b2 f e * denseE x vd w2 b2 f e)
        + (∑ f : Fin 26, sparseE s2 vs f e * sparseE s2 vs f e)))

/-- Position `k` of a field-major vector of `n` fields of 16 coordinates: its field. -/
def fieldOf {n : Nat} (k : Fin (n * 16)) : Fin n :=
  ⟨k.val / 16, Nat.div_lt_of_lt_mul (by have := k.isLt; omega)⟩

/-- Position `k` of such a vector: its coordinate. -/
def coordOf {n : Nat} (k : Fin (n * 16)) : Fin 16 := ⟨k.val % 16, Nat.mod_lt _ (by decide)⟩

/-- The hidden layer's entry `j` of a row: the second embedding as one vector (dense part of 13·16 = 208
    numbers, sparse part of 26·16 = 416) against the two blocks of weight rows, plus the bias. -/
def rowHidden (x vd : Fin 13 → EReal) (vs : Fin 26 → EReal) (s2 : Fin 26 → Fin 16 → EReal)
    (w2 b2 : Fin 13 → Fin 16 → EReal) (ud : Fin 208 → Fin 32 → EReal) (us : Fin 416 → Fin 32 → EReal)
    (c : Fin 32 → EReal) (j : Fin 32) : EReal :=
  ((∑ k : Fin 208, denseE x vd w2 b2 (fieldOf (n := 13) k) (coordOf (n := 13) k) * ud k j)
    + (∑ k : Fin 416, sparseE s2 vs (fieldOf (n := 26) k) (coordOf (n := 26) k) * us k j)) + c j

end DeepFM

end
-- ==== Proof.KIBlocks.lean ====
/-
  From blocks to arrays: what the region's two output arrays hold after the run, as whole-array functions of the
  thirteen arrays its windows read.

  The grid has 1024 points; point t handles rows 128·t … 128·t + 127. Each row-blocked input window's block at t is
  those rows of its array, each small input window's block is its whole array, and each output window's block at t
  is those rows of the output. So an element (r, ·) of a block at t is element (128·t + r, ·) of the array, the body's
  row formulas on the blocks are the same formulas on the arrays' rows, the write-backs of the 1024 points tile each
  output array, and the array ends at one function of the input arrays, row by row.
-/
import proofs.«121767_j16406775070798_2_alg».proof.Proof.KIFrameRun
import proofs.«121767_j16406775070798_2_alg».proof.Proof.Spec
import Idealize.ShloMosaic.Lib.ValueIdx
import Idealize.ShloMosaic.Lib.ValueLayout
import Idealize.ShloMosaic.Lib.Pipeline.Value

set_option maxRecDepth 16384

noncomputable section

namespace Cert.KernelIdeal.Arrays

open Cert.KernelIdeal Cert.KernelIdeal.Gen Cert.KernelIdeal.Frame
open Idealize.ShloMosaic Idealize.ShloMosaic.TcCoe Idealize.ShloMosaic.ValueIdx
open Idealize.SL Idealize.SL.Sem
open Idealize.ShloMosaic.Pipeline (Dat Cfg Window)

variable (m : (ℓ : Loc nD τ sig) → Buf (Elt Ideal) ℓ) (ρ : Dev nD → PrngReg)

/-- The printed index maps over the grid: the six row-blocked inputs and the two outputs move with the grid point along
    the rows; the seven small inputs stay at block zero. -/
theorem idx_facts : ∀ t : Fin cfg0.N,
    win0_0.index t (0 : Fin 2) = t.val ∧ win0_0.index t (1 : Fin 2) = 0
    ∧ win0_1.index t (0 : Fin 3) = t.val ∧ win0_1.index t (1 : Fin 3) = 0 ∧ win0_1.index t (2 : Fin 3) = 0
    ∧ win0_2.index t (0 : Fin 3) = t.val ∧ win0_2.index t (1 : Fin 3) = 0 ∧ win0_2.index t (2 : Fin 3) = 0
    ∧ win0_3.index t (0 : Fin 2) = t.val ∧ win0_3.index t (1 : Fin 2) = 0
    ∧ win0_4.index t (0 : Fin 2) = t.val ∧ win0_4.index t (1 : Fin 2) = 0
    ∧ win0_5.index t (0 : Fin 1) = t.val
    ∧ win0_13.index t (0 : Fin 1) = t.val
    ∧ win0_14.index t (0 : Fin 2) = t.val ∧ win0_14.index t (1 : Fin 2) = 0 :=
  (by decide +kernel : ∀ t : Fin grid0.N, _)

theorem idx_small : ∀ t : Fin cfg0.N,
    win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = 0 ∧ win0_9.index t (1 : Fin 2) = 0
    ∧ win0_10.index t (0 : Fin 2) = 0 ∧ win0_10.index t (1 : Fin 2) = 0
    ∧ win0_11.index t (0 : Fin 2) = 0 ∧ win0_11.index t (1 : Fin 2) = 0
    ∧ win0_12.index t (0 : Fin 1) = 0 :=
  (by decide +kernel : ∀ t : Fin grid0.N, _)

theorem t_lt (t : Fin cfg0.N) : t.val < 1024 := by have := t.isLt; have h : cfg0.N = 1024 := N_0; omega

/-- the row of the array that row r of point t's block is -/
def rowAt (t : Fin cfg0.N) (r : Fin 128) : Fin 131072 := ⟨t.val * 128 + r.val, by have := t_lt t; have := r.isLt; omega⟩

/-! ## Each input window's block, read at an element -/

theorem read0 (c : Dev nD) (t : Fin cfg0.N) (r : Fin 128) (f : Fin 13) :
    iblk m c 0 t (ix2 r f) = V m c main_arg0 (ix2 (rowAt t r) f) := by
  show V m c main_arg0 (((cfg0.win 0).blk t).view.emb (ix2 r f)) = _
  refine congrArg (V m c main_arg0) ?_
  funext a; apply Fin.ext
  obtain ⟨e0_0, e0_1, e1_0, e1_1, e1_2, e2_0, e2_1, e2_2, e3_0, e3_1, e4_0, e4_1, e5_0, e13_0, e14_0, e14_1⟩ := idx_facts t
  match a with
  | ⟨0, _⟩ => show win0_0.index t (0 : Fin 2) * 128 + 1 * r.val = t.val * 128 + r.val; rw [e0_0]; omega
  | ⟨1, _⟩ => show win0_0.index t (1 : Fin 2) * 13 + 1 * f.val = f.val; rw [e0_1]; omega

theorem read1 (c : Dev nD) (t : Fin cfg0.N) (r : Fin 128) (f : Fin 26) (e : Fin 16) :
    iblk m c 1 t (ix3 r f e) = V m c main_v16 (ix3 (rowAt t r) f e) := by
  show V m c main_v16 (((cfg0.win 1).blk t).view.emb (ix3 r f e)) = _
  refine congrArg (V m c main_v16) ?_
  funext a; apply Fin.ext
  obtain ⟨e0_0, e0_1, e1_0, e1_1, e1_2, e2_0, e2_1, e2_2, e3_0, e3_1, e4_0, e4_1, e5_0, e13_0, e14_0, e14_1⟩ := idx_facts t
  match a with
  | ⟨0, _⟩ => show win0_1.index t (0 : Fin 3) * 128 + 1 * r.val = t.val * 128 + r.val; rw [e1_0]; omega
  | ⟨1, _⟩ => show win0_1.index t (1 : Fin 3) * 26 + 1 * f.val = f.val; rw [e1_1]; omega
  | ⟨2, _⟩ => show win0_1.index t (2 : Fin 3) * 16 + 1 * e.val = e.val; rw [e1_2]; omega

theorem read2 (c : Dev nD) (t : Fin cfg0.N) (r : Fin 128) (f : Fin 26) (e : Fin 16) :
    iblk m c 2 t (ix3 r f e) = V m c main_v31 (ix3 (rowAt t r) f e) := by
  show V m c main_v31 (((cfg0.win 2).blk t).view.emb (ix3 r f e)) = _
  refine congrArg (V m c main_v31) ?_
  funext a; apply Fin.ext
  obtain ⟨e0_0, e0_1, e1_0, e1_1, e1_2, e2_0, e2_1, e2_2, e3_0, e3_1, e4_0, e4_1, e5_0, e13_0, e14_0, e14_1⟩ := idx_facts t
  match a with
  | ⟨0, _⟩ => show win0_2.index t (0 : Fin 3) * 128 + 1 * r.val = t.val * 128 + r.val; rw [e2_0]; omega
  | ⟨1, _⟩ => show win0_2.index t (1 : Fin 3) * 26 + 1 * f.val = f.val; rw [e2_1]; omega
  | ⟨2, _⟩ => show win0_2.index t (2 : Fin 3) * 16 + 1 * e.val = e.val; rw [e2_2]; omega

theorem read3 (c : Dev nD) (t : Fin cfg0.N) (r : Fin 128) (f : Fin 13) :
    iblk m c 3 t (ix2 r f) = V m c main_v32 (ix2 (rowAt t r) f) := by
  show V m c main_v32 (((cfg0.win 3).blk t).view.emb (ix2 r f)) = _
  refine congrArg (V m c main_v32) ?_
  funext a; apply Fin.ext
  obtain ⟨e0_0, e0_1, e1_0, e1_1, e1_2, e2_0, e2_1, e2_2, e3_0, e3_1, e4_0, e4_1, e5_0, e13_0, e14_0, e14_1⟩ := idx_facts t
  match a with
  | ⟨0, _⟩ => show win0_3.index t (0 : Fin 2) * 128 + 1 * r.val = t.val * 128 + r.val; rw [e3_0]; omega
  | ⟨1, _⟩ => show win0_3.index t (1 : Fin 2) * 13 + 1 * f.val = f.val; rw [e3_1]; omega

theorem read4 (c : Dev nD) (t : Fin cfg0.N) (r : Fin 128) (f : Fin 26) :
    iblk m c 4 t (ix2 r f) = V m c main_v33 (ix2 (rowAt t r) f) := by
  show V m c main_v33 (((cfg0.win 4).blk t).view.emb (ix2 r f)) = _
  refine congrArg (V m c main_v33) ?_
  funext a; apply Fin.ext
  obtain ⟨e0_0, e0_1, e1_0, e1_1, e1_2, e2_0, e2_1, e2_2, e3_0, e3_1, e4_0, e4_1, e5_0, e13_0, e14_0, e14_1⟩ := idx_facts t
  match a with
  | ⟨0, _⟩ => show win0_4.index t (0 : Fin 2) * 128 + 1 * r.val = t.val * 128 + r.val; rw [e4_0]; omega
  | ⟨1, _⟩ => show win0_4.index t (1 : Fin 2) * 26 + 1 * f.val = f.val; rw [e4_1]; omega

theorem read5 (c : Dev nD) (t : Fin cfg0.N) (r : Fin 128) :
    iblk m c 5 t (ix1 r) = V m c main_arg3 (ix1 (rowAt t r)) := by
  show V m c main_arg3 (((cfg0.win 5).blk t).view.emb (ix1 r)) = _
  refine congrArg (V m c main_arg3) ?_
  funext a; apply Fin.ext
  obtain ⟨e0_0, e0_1, e1_0, e1_1, e1_2, e2_0, e2_1, e2_2, e3_0, e3_1, e4_0, e4_1, e5_0, e13_0, e14_0, e14_1⟩ := idx_facts t
  match a with
  | ⟨0, _⟩ => show win0_5.index t (0 : Fin 1) * 128 + 1 * r.val = t.val * 128 + r.val; rw [e5_0]; omega

theorem read6 (c : Dev nD) (t : Fin cfg0.N) (p : Fin 13) (q : Fin 16) :
    iblk m c 6 t (ix2 p q) = V m c main_arg4 (ix2 p q) := by
  show V m c main_arg4 (((cfg0.win 6).blk t).view.emb (ix2 p q)) = _
  refine congrArg (V m c main_arg4) ?_
  funext a; apply Fin.ext
  obtain ⟨s6_0, s6_1, s7_0, s7_1, s8_0, s8_1, s9_0, s9_1, s10_0, s10_1, s11_0, s11_1, s12_0⟩ := idx_small t
  match a with
  | ⟨0, _⟩ => show win0_6.index t (0 : Fin 2) * 13 + 1 * p.val = p.val; rw [s6_0]; omega
  | ⟨1, _⟩ => show win0_6.index t (1 : Fin 2) * 16 + 1 * q.val = q.val; rw [s6_1]; omega

theorem read7 (c : Dev nD) (t : Fin cfg0.N) (p : Fin 13) (q : Fin 16) :
    iblk m c 7 t (ix2 p q) = V m c main_arg5 (ix2 p q) := by
  show V m c main_arg5 (((cfg0.win 7).blk t).view.emb (ix2 p q)) = _
  refine congrArg (V m c main_arg5) ?_
  funext a; apply Fin.ext
  obtain ⟨s6_0, s6_1, s7_0, s7_1, s8_0, s8_1, s9_0, s9_1, s10_0, s10_1, s11_0, s11_1, s12_0⟩ := idx_small t
  match a with
  | ⟨0, _⟩ => show win0_7.index t (0 : Fin 2) * 13 + 1 * p.val = p.val; rw [s7_0]; omega
  | ⟨1, _⟩ => show win0_7.index t (1 : Fin 2) * 16 + 1 * q.val = q.val; rw [s7_1]; omega

theorem read8 (c : Dev nD) (t : Fin cfg0.N) (p : Fin 13) (q : Fin 16) :
    iblk m c 8 t (ix2 p q) = V m c main_arg7 (ix2 p q) := by
  show V m c main_arg7 (((cfg0.win 8).blk t).view.emb (ix2 p q)) = _
  refine congrArg (V m c main_arg7) ?_
  funext a; apply Fin.ext
  obtain ⟨s6_0, s6_1, s7_0, s7_1, s8_0, s8_1, s9_0, s9_1, s10_0, s10_1, s11_0, s11_1, s12_0⟩ := idx_small t
  match a with
  | ⟨0, _⟩ => show win0_8.index t (0 : Fin 2) * 13 + 1 * p.val = p.val; rw [s8_0]; omega
  | ⟨1, _⟩ => show win0_8.index t (1 : Fin 2) * 16 + 1 * q.val = q.val; rw [s8_1]; omega

theorem read9 (c : Dev nD) (t : Fin cfg0.N) (p : Fin 13) (q : Fin 16) :
    iblk m c 9 t (ix2 p q) = V m c main_arg8 (ix2 p q) := by
  show V m c main_arg8 (((cfg0.win 9).blk t).view.emb (ix2 p q)) = _
  refine congrArg (V m c main_arg8) ?_
  funext a; apply Fin.ext
  obtain ⟨s6_0, s6_1, s7_0, s7_1, s8_0, s8_1, s9_0, s9_1, s10_0, s10_1, s11_0, s11_1, s12_0⟩ := idx_small t
  match a with
  | ⟨0, _⟩ => show win0_9.index t (0 : Fin 2) * 13 + 1 * p.val = p.val; rw [s9_0]; omega
  | ⟨1, _⟩ => show win0_9.index t (1 : Fin 2) * 16 + 1 * q.val = q.val; rw [s9_1]; omega

theorem read10 (c : Dev nD) (t : Fin cfg0.N) (p : Fin 208) (q : Fin 32) :
    iblk m c 10 t (ix2 p q) = V m c main_v34 (ix2 p q) := by
  show V m c main_v34 (((cfg0.win 10).blk t).view.emb (ix2 p q)) = _
  refine congrArg (V m c main_v34) ?_
  funext a; apply Fin.ext
  obtain ⟨s6_0, s6_1, s7_0, s7_1, s8_0, s8_1, s9_0, s9_1, s10_0, s10_1, s11_0, s11_1, s12_0⟩ := idx_small t
  match a with
  | ⟨0, _⟩ => show win0_10.index t (0 : Fin 2) * 208 + 1 * p.val = p.val; rw [s10_0]; omega
  | ⟨1, _⟩ => show win0_10.index t (1 : Fin 2) * 32 + 1 * q.val = q.val; rw [s10_1]; omega

theorem read11 (c : Dev nD) (t : Fin cfg0.N) (p : Fin 416) (q : Fin 32) :
    iblk m c 11 t (ix2 p q) = V m c main_v35 (ix2 p q) := by
  show V m c main_v35 (((cfg0.win 11).blk t).view.emb (ix2 p q)) = _
  refine congrArg (V m c main_v35) ?_
  funext a; apply Fin.ext
  obtain ⟨s6_0, s6_1, s7_0, s7_1, s8_0, s8_1, s9_0, s9_1, s10_0, s10_1, s11_0, s11_1, s12_0⟩ := idx_small t
  match a with
  | ⟨0, _⟩ => show win0_11.index t (0 : Fin 2) * 416 + 1 * p.val = p.val; rw [s11_0]; omega
  | ⟨1, _⟩ => show win0_11.index t (1 : Fin 2) * 32 + 1 * q.val = q.val; rw [s11_1]; omega

theorem read12 (c : Dev nD) (t : Fin cfg0.N) (p : Fin 32) :
    iblk m c 12 t (ix1 p) = V m c main_arg11 (ix1 p) := by
  show V m c main_arg11 (((cfg0.win 12).blk t).view.emb (ix1 p)) = _
  refine congrArg (V m c main_arg11) ?_
  funext a; apply Fin.ext
  obtain ⟨s6_0, s6_1, s7_0, s7_1, s8_0, s8_1, s9_0, s9_1, s10_0, s10_1, s11_0, s11_1, s12_0⟩ := idx_small t
  match a with
  | ⟨0, _⟩ => show win0_12.index t (0 : Fin 1) * 32 + 1 * p.val = p.val; rw [s12_0]; omega

end Cert.KernelIdeal.Arrays

end
-- ==== Proof.KernelRowLayout.lean ====
/-
  Layout operations of the body read at an index given by coordinates: a trailing unit axis added by a shape
  cast ([a,b] viewed [a,b,1]), a column broadcast along the last axis ([a,b,1] to [a,b,c]), a matrix broadcast
  along a new leading axis ([1,b,c] to [a,b,c]), and the lane sum over the middle axis of a rank-3 block or the
  last axis of a rank-2 block read as a sum over that axis's coordinates.
-/
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Rows

open Idealize.ShloMosaic Idealize.ShloMosaic.ValueIdx

variable {α : Type}

/-- An `[a, b]` array viewed `[a, b, 1]` reads, at `(i, j, u)`, the operand at `(i, j)`: the two row-major
    positions agree because the unit coordinate is zero. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- An `[a, b, 1]` column broadcast to `[a, b, c]` reads, at `(i, j, e)`, the column at `(i, j, 0)`. -/
theorem broadcastTo_ab1_abc_apply {a b c : ℕ} (v : (⟨3, ![a, b, 1]⟩ : Shape).Idx → α)
    (h : (⟨3, ![a, b, 1]⟩ : Shape).Broadcasts ⟨3, ![a, b, c]⟩) (i : Fin a) (j : Fin b) (e : Fin c) :
    broadcastTo ⟨3, ![a, b, c]⟩ v h (ix3 i j e) = v (ix3 i j (0 : Fin 1)) := by
  refine broadcastTo_apply v h (ix3 i j e) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

/-- A `[1, b, c]` matrix broadcast to `[a, b, c]` reads, at `(i, j, e)`, the matrix at `(0, j, e)`. -/
theorem broadcastTo_1bc_abc_apply {a b c : ℕ} (v : (⟨3, ![1, b, c]⟩ : Shape).Idx → α)
    (h : (⟨3, ![1, b, c]⟩ : Shape).Broadcasts ⟨3, ![a, b, c]⟩) (i : Fin a) (j : Fin b) (e : Fin c) :
    broadcastTo ⟨3, ![a, b, c]⟩ v h (ix3 i j e) = v (ix3 (0 : Fin 1) j e) := by
  refine broadcastTo_apply v h (ix3 i j e) (ix3 (0 : Fin 1) j e) fun ax => ?_
  match ax with
  | ⟨0, _⟩ => rfl
  | ⟨1, _⟩ =>
    show j.val = if b = 1 then 0 else j.val
    split
    · have := j.isLt; omega
    · rfl
  | ⟨2, _⟩ =>
    show e.val = if c = 1 then 0 else e.val
    split
    · have := e.isLt; omega
    · rfl

/-- The sum of a rank-3 block over its middle axis, started from the zero word, read at `(i, e)`: the sum over
    the middle coordinate. -/
theorem sumMiddle_apply {a b c : ℕ} (src : FVec Ideal ⟨3, ![a, b, c]⟩ .f32)
    (h : (⟨3, ![a, b, c]⟩ : Shape).Reduces [1] ⟨2, ![a, c]⟩) (hφ : FKind.Formats .f32)
    (hacc : (0x00000000#32 : BitVec 32) = FKind.add.neutral .f32 hφ) (i : Fin a) (e : Fin c) :
    multiReduction (F := Ideal) .add [1] ⟨2, ![a, c]⟩ src 0x00000000#32 h hφ hacc (ix2 i e)
      = ∑ j : Fin b, src (ix3 i j e) := by
  refine (Ideal.multiReduction_add_single src 0x00000000#32 h hφ hacc (ix2 i e)).trans ?_
  refine Finset.sum_congr rfl fun j _ => congrArg src ?_
  funext ax
  match ax with
  | ⟨0, _⟩ => rfl
  | ⟨1, _⟩ => rfl
  | ⟨2, _⟩ => rfl

/-- The sum of a rank-2 block over its last axis, started from the zero word, read at `i`: the sum over the
    last coordinate. -/
theorem sumLast_apply {a c : ℕ} (src : FVec Ideal ⟨2, ![a, c]⟩ .f32)
    (h : (⟨2, ![a, c]⟩ : Shape).Reduces [1] ⟨1, ![a]⟩) (hφ : FKind.Formats .f32)
    (hacc : (0x00000000#32 : BitVec 32) = FKind.add.neutral .f32 hφ) (i : Fin a) :
    multiReduction (F := Ideal) .add [1] ⟨1, ![a]⟩ src 0x00000000#32 h hφ hacc (ix1 i)
      = ∑ e : Fin c, src (ix2 i e) := by
  refine (Ideal.multiReduction_add_single src 0x00000000#32 h hφ hacc (ix1 i)).trans ?_
  refine Finset.sum_congr rfl fun e _ => congrArg src ?_
  funext ax
  match ax with
  | ⟨0, _⟩ => rfl
  | ⟨1, _⟩ => rfl

end Cert.KernelIdeal.Rows

end
-- ==== Proof.KernelRowEmbed.lean ====
/-
  The embedding payloads of the body read at an index. At row `r`, field `f`, coordinate `e` of a block:
  a dense field's entry is the affine map of the row's scalar feature scaled by the field's value,
  `(x r f · w f e + b f e) · v r f`; a sparse field's entry is the gathered table row scaled by the field's
  value, `s r f e · v r f`. These are `DeepFM.denseE` and `DeepFM.sparseE` of the row's data.
-/
import proofs.«121767_j16406775070798_2_alg».proof.Proof.Gen.KernelIdeal.Skeleton
import proofs.«121767_j16406775070798_2_alg».proof.Proof.Spec
import proofs.«121767_j16406775070798_2_alg».proof.Proof.KernelRowLayout

noncomputable section

namespace Cert.KernelIdeal.Rows

open Idealize.ShloMosaic Idealize.ShloMosaic.ValueIdx Cert.KernelIdeal Cert.KernelIdeal.Gen

/-- The first dense embedding at `(r, f, e)`: the affine map of the feature, scaled by the field's value. -/
theorem pay5_apply (x0 x3 : Vec Ideal S128x13 .f32) (x6 x7 : Vec Ideal S13x16 .f32)
    (r : Fin 128) (f : Fin 13) (e : Fin 16) :
    k0_pay5 (F := Ideal) x0 x3 x6 x7 (ix3 r f e)
      = DeepFM.denseE (fun f => x0 (ix2 r f)) (fun f => x3 (ix2 r f)) (fun f e => x6 (ix2 f e))
          (fun f e => x7 (ix2 f e)) f e := by
  unfold k0_pay5 k0_pay2 DeepFM.denseE
  simp only [mulf_apply, addf_apply]
  rw [broadcastTo_ab1_abc_apply, broadcastTo_ab1_abc_apply, broadcastTo_1bc_abc_apply, broadcastTo_1bc_abc_apply,
    shapeCast_ab_ab1_apply, shapeCast_ab_ab1_apply, shapeCast_ab_1ab_apply, shapeCast_ab_1ab_apply, shapeCast_self]

/-- The second dense embedding at `(r, f, e)`: the same map with the second pair of weights. -/
theorem pay7_apply (x0 x3 : Vec Ideal S128x13 .f32) (x8 x9 : Vec Ideal S13x16 .f32)
    (r : Fin 128) (f : Fin 13) (e : Fin 16) :
    k0_pay7 (F := Ideal) x0 x3 x8 x9 (ix3 r f e)
      = DeepFM.denseE (fun f => x0 (ix2 r f)) (fun f => x3 (ix2 r f)) (fun f e => x8 (ix2 f e))
          (fun f e => x9 (ix2 f e)) f e := by
  unfold k0_pay7 k0_pay2 DeepFM.denseE
  simp only [mulf_apply, addf_apply]
  rw [broadcastTo_ab1_abc_apply, broadcastTo_ab1_abc_apply, broadcastTo_1bc_abc_apply, broadcastTo_1bc_abc_apply,
    shapeCast_ab_ab1_apply, shapeCast_ab_ab1_apply, shapeCast_ab_1ab_apply, shapeCast_ab_1ab_apply, shapeCast_self]

/-- The first sparse embedding at `(r, f, e)`: the first table's gathered row scaled by the field's value. -/
theorem pay6_apply (x4 : Vec Ideal S128x26 .f32) (x1 : Vec Ideal S128x26x16 .f32)
    (r : Fin 128) (f : Fin 26) (e : Fin 16) :
    k0_pay6 (F := Ideal) x4 x1 (ix3 r f e)
      = DeepFM.sparseE (fun f e => x1 (ix3 r f e)) (fun f => x4 (ix2 r f)) f e := by
  unfold k0_pay6 k0_pay3 DeepFM.sparseE
  simp only [mulf_apply]
  rw [broadcastTo_ab1_abc_apply, shapeCast_ab_ab1_apply, shapeCast_self, shapeCast_self]

/-- The second sparse embedding at `(r, f, e)`: the second table's gathered row scaled by the field's value. -/
theorem pay9_apply (x4 : Vec Ideal S128x26 .f32) (x2 : Vec Ideal S128x26x16 .f32)
    (r : Fin 128) (f : Fin 26) (e : Fin 16) :
    k0_pay9 (F := Ideal) (k0_pay4 x2) (k0_pay8 x4) (ix3 r f e)
      = DeepFM.sparseE (fun f e => x2 (ix3 r f e)) (fun f => x4 (ix2 r f)) f e := by
  unfold k0_pay9 k0_pay8 k0_pay4 k0_pay3 DeepFM.sparseE
  simp only [mulf_apply]
  rw [broadcastTo_ab1_abc_apply, shapeCast_ab_ab1_apply, shapeCast_self, shapeCast_self]

end Cert.KernelIdeal.Rows

end
-- ==== Proof.KernelRowPartial.lean ====
/-
  The body's scalar output read at a row. The kernel sums each embedding over its fields first and over the
  16 coordinates second. The first-order term is the total of the first embedding (dense fields, then sparse
  fields); the second-order term is, per coordinate, one half of the square of the field sum minus the sum of
  the squares, over the second embedding; the row's bias is added last. Read at row `r` this is exactly
  `rowFirst + rowSecond + bias` of the row's data: the two sides are the same arrangement of sums, so no law
  of the extended reals beyond reading each operation at its index is used.
-/
import proofs.«121767_j16406775070798_2_alg».proof.Proof.KernelRowEmbed

noncomputable section

namespace Cert.KernelIdeal.Rows

open Idealize.ShloMosaic Idealize.ShloMosaic.ValueIdx Cert.KernelIdeal Cert.KernelIdeal.Gen

/-- The scalar payload at row `r` over ANY four embedding blocks: the nested sums, fields inside coordinates. -/
theorem pay10_apply (v8 : FVec Ideal S128x26x16 .f32) (v31 : FVec Ideal S128x13x16 .f32)
    (v34 : FVec Ideal S128x26x16 .f32) (v37 : FVec Ideal S128x13x16 .f32) (v38 : FVec Ideal S128x26x1 .f32)
    (v60 : Vec Ideal S128 .f32) (r : Fin 128) :
    k0_pay10 (F := Ideal) v8 v31 v34 v37 v38 v60 (ix1 r)
      = (((∑ e : Fin 16, ∑ f : Fin 13, v31 (ix3 r f e)) + (∑ e : Fin 16, ∑ f : Fin 26, v34 (ix3 r f e)))
          + ∑ e : Fin 16, DeepFM.half *
              (((∑ f : Fin 13, v37 (ix3 r f e)) + (∑ f : Fin 26, k0_pay9 v8 v38 (ix3 r f e)))
                  * ((∑ f : Fin 13, v37 (ix3 r f e)) + (∑ f : Fin 26, k0_pay9 v8 v38 (ix3 r f e)))
                - ((∑ f : Fin 13, v37 (ix3 r f e) * v37 (ix3 r f e))
                  + (∑ f : Fin 26, k0_pay9 v8 v38 (ix3 r f e) * k0_pay9 v8 v38 (ix3 r f e)))))
        + v60 (ix1 r) := by
  unfold k0_pay10
  simp only [addf_apply]
  refine congrArg₂ (· + ·) (congrArg₂ (· + ·) (congrArg₂ (· + ·) ?_ ?_) ?_) rfl
  · refine (sumLast_apply _ _ _ _ r).trans ?_
    exact Finset.sum_congr rfl fun e _ => sumMiddle_apply _ _ _ _ r e
  · refine (sumLast_apply _ _ _ _ r).trans ?_
    exact Finset.sum_congr rfl fun e _ => sumMiddle_apply _ _ _ _ r e
  · refine (sumLast_apply _ _ _ _ r).trans ?_
    refine Finset.sum_congr rfl fun e _ => ?_
    simp only [mulf_apply, subf_apply, addf_apply, broadcast_apply]
    have hs := congrArg₂ (· + ·) (sumMiddle_apply v37 reduces_S128x13x16_S128x16 (.inl rfl) rfl r e)
      (sumMiddle_apply (k0_pay9 v8 v38) reduces_S128x26x16_S128x16 (.inl rfl) rfl r e)
    have hq := congrArg₂ (· + ·) (sumMiddle_apply (mulf v37 v37) reduces_S128x13x16_S128x16 (.inl rfl) rfl r e)
      (sumMiddle_apply (mulf (k0_pay9 v8 v38) (k0_pay9 v8 v38)) reduces_S128x26x16_S128x16 (.inl rfl) rfl r e)
    exact congrArg₂ (· * ·) rfl (congrArg₂ (· - ·) (congrArg₂ (· * ·) hs hs) hq)

/-- THE SCALAR OUTPUT AT A ROW: first-order term plus second-order term plus bias, of the row's data. -/
theorem partial_row (x0 x3 : Vec Ideal S128x13 .f32) (x1 x2 : Vec Ideal S128x26x16 .f32)
    (x4 : Vec Ideal S128x26 .f32) (x5 : Vec Ideal S128 .f32) (x6 x7 x8 x9 : Vec Ideal S13x16 .f32) (r : Fin 128) :
    k0_pay10 (F := Ideal) (k0_pay4 x2) (k0_pay5 x0 x3 x6 x7) (k0_pay6 x4 x1) (k0_pay7 x0 x3 x8 x9) (k0_pay8 x4) x5 (ix1 r)
      = (DeepFM.rowFirst (fun f => x0 (ix2 r f)) (fun f => x3 (ix2 r f)) (fun f => x4 (ix2 r f))
            (fun f e => x1 (ix3 r f e)) (fun f e => x6 (ix2 f e)) (fun f e => x7 (ix2 f e))
          + DeepFM.rowSecond (fun f => x0 (ix2 r f)) (fun f => x3 (ix2 r f)) (fun f => x4 (ix2 r f))
            (fun f e => x2 (ix3 r f e)) (fun f e => x8 (ix2 f e)) (fun f e => x9 (ix2 f e)))
        + x5 (ix1 r) := by
  rw [pay10_apply]
  unfold DeepFM.rowFirst DeepFM.rowSecond
  simp only [pay5_apply, pay6_apply, pay7_apply, pay9_apply]

end Cert.KernelIdeal.Rows

end
-- ==== Proof.KIArray13.lean ====
/-
  The row partial sums' array after the run.

  Row n of the output is the first-order sum plus the second-order sum of row n's data plus the row's bias; point t
  writes rows 128·t … 128·t + 127, and the 1024 points' blocks tile the 131072 rows.
-/
import proofs.«121767_j16406775070798_2_alg».proof.Proof.KIBlocks
import proofs.«121767_j16406775070798_2_alg».proof.Proof.KernelRowPartial
import proofs.«121767_j16406775070798_2_alg».proof.Proof.Spec
import Idealize.ShloMosaic.Lib.ValueIdx
import Idealize.ShloMosaic.Lib.ValueLayout
import Idealize.ShloMosaic.Lib.Pipeline.Value

set_option maxRecDepth 16384

noncomputable section

namespace Cert.KernelIdeal.Arrays

open Cert.KernelIdeal Cert.KernelIdeal.Gen Cert.KernelIdeal.Frame
open Idealize.ShloMosaic Idealize.ShloMosaic.TcCoe Idealize.ShloMosaic.ValueIdx
open Idealize.SL Idealize.SL.Sem
open Idealize.ShloMosaic.Pipeline (Dat Cfg Window)

variable (m : (ℓ : Loc nD τ sig) → Buf (Elt Ideal) ℓ) (ρ : Dev nD → PrngReg)

theorem hz1 : (![0] : Fin 1 → Nat) = fun _ => 0 := funext fun a => by fin_cases a <;> rfl
theorem hz2 : (![0, 0] : Fin 2 → Nat) = fun _ => 0 := funext fun a => by fin_cases a <;> rfl
theorem hz3 : (![0, 0, 0] : Fin 3 → Nat) = fun _ => 0 := funext fun a => by fin_cases a <;> rfl

/-- Row `n`'s partial sum from the arrays the region reads. -/
def partialRow (A0 A3 : FVec Ideal S131072x13 .f32) (A1 A2 : FVec Ideal S131072x26x16 .f32) (A4 : FVec Ideal S131072x26 .f32)
    (A5 : FVec Ideal S131072 .f32) (A6 A7 A8 A9 : FVec Ideal S13x16 .f32) (n : Fin 131072) : EReal :=
  (DeepFM.rowFirst (fun f => A0 (ix2 n f)) (fun f => A3 (ix2 n f)) (fun f => A4 (ix2 n f)) (fun f e => A1 (ix3 n f e))
      (fun f e => A6 (ix2 f e)) (fun f e => A7 (ix2 f e))
    + DeepFM.rowSecond (fun f => A0 (ix2 n f)) (fun f => A3 (ix2 n f)) (fun f => A4 (ix2 n f)) (fun f e => A2 (ix3 n f e))
      (fun f e => A8 (ix2 f e)) (fun f e => A9 (ix2 f e)))
    + A5 (ix1 n)

/-- The partial sums' array as one function of those arrays. -/
def G13 (A0 A3 : FVec Ideal S131072x13 .f32) (A1 A2 : FVec Ideal S131072x26x16 .f32) (A4 : FVec Ideal S131072x26 .f32)
    (A5 : FVec Ideal S131072 .f32) (A6 A7 A8 A9 : FVec Ideal S13x16 .f32) : FVec Ideal S131072 .f32 :=
  fun i => partialRow A0 A3 A1 A2 A4 A5 A6 A7 A8 A9 (i 0)

/-- On blocks that are rows 128·t + r of the arrays, the body's partial sum of block row `r` is the array row's. -/
theorem block13 (t : Fin cfg0.N) (x0 x3 : Vec Ideal S128x13 .f32) (x1 x2 : Vec Ideal S128x26x16 .f32) (x4 : Vec Ideal S128x26 .f32)
    (x5 : Vec Ideal S128 .f32) (x6 x7 x8 x9 : Vec Ideal S13x16 .f32)
    (A0 A3 : FVec Ideal S131072x13 .f32) (A1 A2 : FVec Ideal S131072x26x16 .f32) (A4 : FVec Ideal S131072x26 .f32)
    (A5 : FVec Ideal S131072 .f32) (A6 A7 A8 A9 : FVec Ideal S13x16 .f32)
    (h0 : ∀ (r : Fin 128) (f : Fin 13), x0 (ix2 r f) = A0 (ix2 (rowAt t r) f))
    (h3 : ∀ (r : Fin 128) (f : Fin 13), x3 (ix2 r f) = A3 (ix2 (rowAt t r) f))
    (h1 : ∀ (r : Fin 128) (f : Fin 26) (e : Fin 16), x1 (ix3 r f e) = A1 (ix3 (rowAt t r) f e))
    (h2 : ∀ (r : Fin 128) (f : Fin 26) (e : Fin 16), x2 (ix3 r f e) = A2 (ix3 (rowAt t r) f e))
    (h4 : ∀ (r : Fin 128) (f : Fin 26), x4 (ix2 r f) = A4 (ix2 (rowAt t r) f))
    (h5 : ∀ r : Fin 128, x5 (ix1 r) = A5 (ix1 (rowAt t r)))
    (h6 : ∀ (p : Fin 13) (q : Fin 16), x6 (ix2 p q) = A6 (ix2 p q)) (h7 : ∀ (p : Fin 13) (q : Fin 16), x7 (ix2 p q) = A7 (ix2 p q))
    (h8 : ∀ (p : Fin 13) (q : Fin 16), x8 (ix2 p q) = A8 (ix2 p q)) (h9 : ∀ (p : Fin 13) (q : Fin 16), x9 (ix2 p q) = A9 (ix2 p q))
    (r : Fin 128) :
    k0_pay10 (F := Ideal) (k0_pay4 x2) (k0_pay5 x0 x3 x6 x7) (k0_pay6 x4 x1) (k0_pay7 x0 x3 x8 x9) (k0_pay8 x4) x5 (ix1 r)
      = partialRow A0 A3 A1 A2 A4 A5 A6 A7 A8 A9 (rowAt t r) := by
  rw [Rows.partial_row]
  unfold partialRow
  simp only [h0, h1, h2, h3, h4, h5, h6, h7, h8, h9]

/-- What point `t` writes back is block `t` of the whole-array function. -/
theorem flushed13_eq (c : Dev nD) (t : Fin cfg0.N) :
    (dats m 0 c).flushed 13 t = ((cfg0.win 13).blk t).view.read (Elt Ideal) (G13 (V m c main_arg0) (V m c main_v32) (V m c main_v16) (V m c main_v31) (V m c main_v33) (V m c main_arg3) (V m c main_arg4) (V m c main_arg5) (V m c main_arg7) (V m c main_arg8)) := by
  show (cfg0.win 13).cut (grid0.coords t) ((dats m 0 c).after 13 t) = _
  rw [after0_13]
  unfold out0_13
  rw [View.canon_unit_zero hz1]
  simp only [View.ld_unit_zero (S := S128x13) hz2, View.ld_unit_zero (S := S128x26x16) hz3, View.ld_unit_zero (S := S128x26) hz2,
    View.ld_unit_zero (S := S128) hz1, View.ld_unit_zero (S := S13x16) hz2]
  funext j
  obtain ⟨r, rfl⟩ : ∃ r : Fin 128, j = ix1 r := ⟨j 0, eq_ix1 j⟩
  obtain ⟨e0_0, e0_1, e1_0, e1_1, e1_2, e2_0, e2_1, e2_2, e3_0, e3_1, e4_0, e4_1, e5_0, e13_0, e14_0, e14_1⟩ := idx_facts t
  show k0_pay10 (F := Ideal) (k0_pay4 (iblk m c 2 t)) (k0_pay5 (iblk m c 0 t) (iblk m c 3 t) (iblk m c 6 t) (iblk m c 7 t))
      (k0_pay6 (iblk m c 4 t) (iblk m c 1 t)) (k0_pay7 (iblk m c 0 t) (iblk m c 3 t) (iblk m c 8 t) (iblk m c 9 t))
      (k0_pay8 (iblk m c 4 t)) (iblk m c 5 t) (ix1 r)
    = partialRow (V m c main_arg0) (V m c main_v32) (V m c main_v16) (V m c main_v31) (V m c main_v33) (V m c main_arg3) (V m c main_arg4) (V m c main_arg5) (V m c main_arg7) (V m c main_arg8) ((((cfg0.win 13).blk t).view.emb (ix1 r)) 0)
  refine (block13 t (iblk m c 0 t) (iblk m c 3 t) (iblk m c 1 t) (iblk m c 2 t) (iblk m c 4 t) (iblk m c 5 t) (iblk m c 6 t) (iblk m c 7 t) (iblk m c 8 t) (iblk m c 9 t) (V m c main_arg0) (V m c main_v32) (V m c main_v16) (V m c main_v31) (V m c main_v33) (V m c main_arg3) (V m c main_arg4) (V m c main_arg5) (V m c main_arg7) (V m c main_arg8) (read0 m c t) (read3 m c t) (read1 m c t) (read2 m c t) (read4 m c t) (read5 m c t) (read6 m c t) (read7 m c t) (read8 m c t) (read9 m c t) r).trans ?_
  refine congrArg (partialRow (V m c main_arg0) (V m c main_v32) (V m c main_v16) (V m c main_v31) (V m c main_v33) (V m c main_arg3) (V m c main_arg4) (V m c main_arg5) (V m c main_arg7) (V m c main_arg8)) ?_
  apply Fin.ext
  show t.val * 128 + r.val = win0_13.index t (0 : Fin 1) * 128 + 1 * r.val
  rw [e13_0]; omega

/-- An index of the array is in point `t`'s block iff its row is among the block's 128 rows. -/
theorem mem_blk13 (t : Fin cfg0.N) (i : S131072.Idx) :
    i ∈ ((cfg0.win 13).blk t).view.set ↔ ∀ a : Fin 1, win0_13.index t a * S128.size a ≤ (i a).val ∧ (i a).val < win0_13.index t a * S128.size a + S128.size a := by
  show i ∈ ((View.whole main_v36_0).slice (win0_13.rect t)).set ↔ _
  rw [View.set_slice_whole, Rect.mem_set_unit]
  exact Iff.rfl

/-- Every row is in the block of the point numbered by its row divided by 128. -/
theorem cover13 (i : S131072.Idx) : ∃ t : Fin cfg0.N, (cfg0.win 13).flush t = true ∧ i ∈ ((cfg0.win 13).blk t).view.set := by
  have hi : (i 0).val < 131072 := (i 0).isLt
  have hN : cfg0.N = 1024 := N_0
  let t : Fin cfg0.N := ⟨(i 0).val / 128, by rw [hN]; omega⟩
  refine ⟨t, flush0_13 t, ?_⟩
  rw [mem_blk13]
  obtain ⟨e0_0, e0_1, e1_0, e1_1, e1_2, e2_0, e2_1, e2_2, e3_0, e3_1, e4_0, e4_1, e5_0, e13_0, e14_0, e14_1⟩ := idx_facts t
  intro a
  match a with
  | ⟨0, _⟩ =>
    show win0_13.index t (0 : Fin 1) * 128 ≤ (i 0).val ∧ (i 0).val < win0_13.index t (0 : Fin 1) * 128 + 128
    rw [e13_0]
    show (i 0).val / 128 * 128 ≤ (i 0).val ∧ (i 0).val < (i 0).val / 128 * 128 + 128
    omega

/-- The partial sums' array after the run. -/
theorem final13 (c : Dev nD) : (dats m 0 c).arrAt 13 cfg0.N = G13 (V m c main_arg0) (V m c main_v32) (V m c main_v16) (V m c main_v31) (V m c main_v33) (V m c main_arg3) (V m c main_arg4) (V m c main_arg5) (V m c main_arg7) (V m c main_arg8) :=
  (dats m 0 c).arrAt_eq_of_cover 13 (G13 (V m c main_arg0) (V m c main_v32) (V m c main_v16) (V m c main_v31) (V m c main_v33) (V m c main_arg3) (V m c main_arg4) (V m c main_arg5) (V m c main_arg7) (V m c main_arg8)) (fun t _ => flushed13_eq m c t) cover13

end Cert.KernelIdeal.Arrays

end
-- ==== Proof.KernelRowMatmul.lean ====
/-
  Two operations of the hidden layer read at an index given by coordinates. A rank-3 block `[a, n, 16]` viewed
  as the matrix `[a, n·16]` reads, at `(i, k)`, the block at field `k / 16`, coordinate `k % 16` (the row-major
  position `(i·n + k/16)·16 + k%16` is `i·(n·16) + k`). A matrix product rows × columns into a zero
  accumulator reads, at `(a, b)`, the sum over the contracted coordinate of the products of the entries.
-/
import Idealize.ShloMosaic.Lib.ValueIdx
import Idealize.ShloMosaic.Lib.Pipeline.Value
import Idealize.ShloMosaic.PureOps.Ideal.Laws

noncomputable section

namespace Cert.KernelIdeal.Rows

open Idealize.ShloMosaic Idealize.ShloMosaic.ValueIdx

/-- `[a, n, 16]` viewed `[a, N]` with `N = n · 16`: position `k` is field `k / 16`, coordinate `k % 16`. -/
theorem shapeCast_flatten_apply {α : Type} {a n N : ℕ} (x : (⟨3, ![a, n, 16]⟩ : Shape).Idx → α)
    (h : (⟨3, ![a, n, 16]⟩ : Shape).ShapeCasts ⟨2, ![a, N]⟩) (hN : N = n * 16) (i : Fin a) (k : Fin N)
    (f : Fin n) (c : Fin 16) (hf : f.val = k.val / 16) (hc : c.val = k.val % 16) :
    shapeCast ⟨2, ![a, N]⟩ x h (ix2 i k) = x (ix3 i f c) := by
  subst hN
  refine shapeCast_apply x h _ _ ?_
  rw [Shape.rowMajor_val_three, Shape.rowMajor_val_two]
  show (i.val * n + f.val) * 16 + c.val = i.val * (n * 16) + k.val
  rw [hf, hc, Nat.add_mul, Nat.mul_assoc, Nat.add_assoc, Nat.div_add_mod']

/-- The dimension numbers of a product of an `m × k` by a `k × n` matrix: contract the left operand's columns
    with the right operand's rows. -/
abbrev rowsByCols {m k n : ℕ}
    (w : DotDims.WF ⟨2, ![m, k]⟩ ⟨2, ![k, n]⟩ ⟨2, ![m, n]⟩ [1] [0] [0] [1] [] []) :
    DotDims ⟨2, ![m, k]⟩ ⟨2, ![k, n]⟩ ⟨2, ![m, n]⟩ := ⟨[1], [0], [0], [1], [], [], w⟩

/-- That product into the zero accumulator, read at `(a, b)`: `∑ c, A (a, c) · B (c, b)`. -/
theorem matmul_zero_rowsByCols_apply {m k n : ℕ} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    FloatOps.matmul (rowsByCols w) prec A B (constant (F := Ideal) ⟨2, ![m, n]⟩ .f32 0x00000000#32) (ix2 a b)
      = ∑ c : Fin k, A (ix2 a c) * B (ix2 c b) := by
  rw [Ideal.matmul_constant_zero_apply, ← Equiv.sum_comp (contrEquiv1 (rowsByCols w) k rfl rfl).symm]
  refine Finset.sum_congr rfl fun c _ => ?_
  have c2 := contrEquiv1_symm_val (rowsByCols w) k rfl rfl c
  have l2 : (rowsByCols w).lhsIdx (ix2 a b) ((contrEquiv1 (rowsByCols w) k rfl rfl).symm c) = ix2 a c := by
    funext ax; apply Fin.ext
    match ax with
    | ⟨0, _⟩ => simp [DotDims.lhsIdx]; rfl
    | ⟨1, _⟩ => simp [DotDims.lhsIdx]; exact c2
  have r2 : (rowsByCols w).rhsIdx (ix2 a b) ((contrEquiv1 (rowsByCols w) k rfl rfl).symm c) = ix2 c b := by
    funext ax; apply Fin.ext
    match ax with
    | ⟨0, _⟩ => simp [DotDims.rhsIdx]; exact c2
    | ⟨1, _⟩ => simp [DotDims.rhsIdx]; rfl
  rw [l2, r2]

end Cert.KernelIdeal.Rows

end
-- ==== Proof.KernelRowHidden.lean ====
/-
  The body's hidden-layer output read at a row and an output unit. The second embedding, dense part
  `[128, 13, 16]` and sparse part `[128, 26, 16]`, is viewed as two matrices `[128, 208]` and `[128, 416]`
  (field-major: position `k` is field `k / 16`, coordinate `k % 16`), each multiplied into a zero accumulator
  with its block of weight rows; the two products are added and the bias row, broadcast over the rows, is
  added last. The changes of float format on the way into the products are the identity on extended reals.
  Read at `(r, j)` this is `DeepFM.rowHidden` of the row's data at `j`.
-/
import proofs.«121767_j16406775070798_2_alg».proof.Proof.KernelRowEmbed
import proofs.«121767_j16406775070798_2_alg».proof.Proof.KernelRowMatmul

noncomputable section

namespace Cert.KernelIdeal.Rows

open Idealize.ShloMosaic Idealize.ShloMosaic.ValueIdx Cert.KernelIdeal Cert.KernelIdeal.Gen

/-- The bias row broadcast over the block's rows reads, at `(r, j)`, the bias at `j`. -/
theorem pay12_apply (x12 : Vec Ideal S32 .f32) (r : Fin 128) (j : Fin 32) :
    k0_pay12 (F := Ideal) x12 (ix2 r j) = x12 (ix1 j) := by
  unfold k0_pay12
  rw [broadcastTo_1b_ab_apply, shapeCast_a_1a_apply]

/-- The dense part's product at `(r, j)`: the sum over the 208 positions. -/
theorem matmul208_apply (A : FVec Ideal S128x208 .bf16) (B : FVec Ideal S208x32 .bf16) (r : Fin 128) (j : Fin 32) :
    matmul (F := Ideal) dot_S128x208_S208x32_S128x32_1_0_0_1_n_n none A B
        (constant (F := Ideal) S128x32 .f32 0x00000000#32) (ix2 r j)
      = ∑ c : Fin 208, A (ix2 r c) * B (ix2 c j) :=
  matmul_zero_rowsByCols_apply dot_S128x208_S208x32_S128x32_1_0_0_1_n_n.wf none A B r j

/-- The sparse part's product at `(r, j)`: the sum over the 416 positions. -/
theorem matmul416_apply (A : FVec Ideal S128x416 .bf16) (B : FVec Ideal S416x32 .bf16) (r : Fin 128) (j : Fin 32) :
    matmul (F := Ideal) dot_S128x416_S416x32_S128x32_1_0_0_1_n_n none A B
        (constant (F := Ideal) S128x32 .f32 0x00000000#32) (ix2 r j)
      = ∑ c : Fin 416, A (ix2 r c) * B (ix2 c j) :=
  matmul_zero_rowsByCols_apply dot_S128x416_S416x32_S128x32_1_0_0_1_n_n.wf none A B r j

/-- The dense embedding block viewed `[128, 208]`: position `k` is field `k / 16`, coordinate `k % 16`. -/
theorem flat208_apply {φ : FTy} (v : FVec Ideal S128x13x16 φ) (h : S128x13x16.ShapeCasts S128x208)
    (r : Fin 128) (k : Fin 208) :
    shapeCast S128x208 v h (ix2 r k) = v (ix3 r (DeepFM.fieldOf (n := 13) k) (DeepFM.coordOf (n := 13) k)) :=
  shapeCast_flatten_apply v h rfl r k (DeepFM.fieldOf (n := 13) k) (DeepFM.coordOf (n := 13) k) rfl rfl

/-- The sparse embedding block viewed `[128, 416]`, likewise. -/
theorem flat416_apply {φ : FTy} (v : FVec Ideal S128x26x16 φ) (h : S128x26x16.ShapeCasts S128x416)
    (r : Fin 128) (k : Fin 416) :
    shapeCast S128x416 v h (ix2 r k) = v (ix3 r (DeepFM.fieldOf (n := 26) k) (DeepFM.coordOf (n := 26) k)) :=
  shapeCast_flatten_apply v h rfl r k (DeepFM.fieldOf (n := 26) k) (DeepFM.coordOf (n := 26) k) rfl rfl

/-- The two products added, at `(r, j)`, over ANY dense embedding block and sparse operands: the two
    contractions over the field-major positions. -/
theorem pay11_apply (v8 : FVec Ideal S128x26x16 .f32) (v37 : FVec Ideal S128x13x16 .f32)
    (v38 : FVec Ideal S128x26x1 .f32) (x10 : Vec Ideal S208x32 .f32) (x11 : Vec Ideal S416x32 .f32)
    (r : Fin 128) (j : Fin 32) :
    k0_pay11 (F := Ideal) v8 v37 v38 x10 x11 (ix2 r j)
      = (∑ k : Fin 208, v37 (ix3 r (DeepFM.fieldOf (n := 13) k) (DeepFM.coordOf (n := 13) k)) * x10 (ix2 k j))
        + (∑ k : Fin 416, k0_pay9 v8 v38 (ix3 r (DeepFM.fieldOf (n := 26) k) (DeepFM.coordOf (n := 26) k))
            * x11 (ix2 k j)) := by
  unfold k0_pay11
  simp only [addf_apply]
  refine congrArg₂ (· + ·) ?_ ?_
  · refine (matmul208_apply _ _ r j).trans ?_
    refine Finset.sum_congr rfl fun k _ => congrArg₂ (· * ·) ?_ ?_
    · exact flat208_apply _ _ r k
    · exact congrFun (shapeCast_self x10 _) (ix2 k j)
  · refine (matmul416_apply _ _ r j).trans ?_
    refine Finset.sum_congr rfl fun k _ => congrArg₂ (· * ·) ?_ ?_
    · exact flat416_apply _ _ r k
    · exact congrFun (shapeCast_self x11 _) (ix2 k j)

/-- THE HIDDEN OUTPUT AT A ROW AND A UNIT: the second embedding against the two blocks of weight rows, plus
    the bias. -/
theorem hidden_row (x0 x3 : Vec Ideal S128x13 .f32) (x2 : Vec Ideal S128x26x16 .f32) (x4 : Vec Ideal S128x26 .f32)
    (x8 x9 : Vec Ideal S13x16 .f32) (x10 : Vec Ideal S208x32 .f32) (x11 : Vec Ideal S416x32 .f32)
    (x12 : Vec Ideal S32 .f32) (r : Fin 128) (j : Fin 32) :
    k0_pay1 (F := Ideal) (k0_pay11 (k0_pay4 x2) (k0_pay7 x0 x3 x8 x9) (k0_pay8 x4) x10 x11) (k0_pay12 x12) (ix2 r j)
      = DeepFM.rowHidden (fun f => x0 (ix2 r f)) (fun f => x3 (ix2 r f)) (fun f => x4 (ix2 r f))
          (fun f e => x2 (ix3 r f e)) (fun f e => x8 (ix2 f e)) (fun f e => x9 (ix2 f e))
          (fun k j => x10 (ix2 k j)) (fun k j => x11 (ix2 k j)) (fun j => x12 (ix1 j)) j := by
  unfold k0_pay1
  simp only [addf_apply]
  rw [pay11_apply, pay12_apply]
  unfold DeepFM.rowHidden
  simp only [pay7_apply, pay9_apply]

end Cert.KernelIdeal.Rows

end
-- ==== Proof.KIArray14.lean ====
/-
  The hidden layer's array after the run.

  Entry (n, j) of the output is the hidden layer's unit j of row n's data: the row's second embedding, read as one
  vector of 39·16 numbers, against the two blocks of weight rows, plus the bias. Point t writes rows
  128·t … 128·t + 127 and all 32 columns, and the 1024 points' blocks tile the 131072 × 32 array.
-/
import proofs.«121767_j16406775070798_2_alg».proof.Proof.KIBlocks
import proofs.«121767_j16406775070798_2_alg».proof.Proof.KernelRowHidden
import proofs.«121767_j16406775070798_2_alg».proof.Proof.Spec
import Idealize.ShloMosaic.Lib.ValueIdx
import Idealize.ShloMosaic.Lib.ValueLayout
import Idealize.ShloMosaic.Lib.Pipeline.Value

set_option maxRecDepth 16384

noncomputable section

namespace Cert.KernelIdeal.Arrays

open Cert.KernelIdeal Cert.KernelIdeal.Gen Cert.KernelIdeal.Frame
open Idealize.ShloMosaic Idealize.ShloMosaic.TcCoe Idealize.ShloMosaic.ValueIdx
open Idealize.SL Idealize.SL.Sem
open Idealize.ShloMosaic.Pipeline (Dat Cfg Window)

variable (m : (ℓ : Loc nD τ sig) → Buf (Elt Ideal) ℓ) (ρ : Dev nD → PrngReg)

theorem hzz1 : (![0] : Fin 1 → Nat) = fun _ => 0 := funext fun a => by fin_cases a <;> rfl
theorem hzz2 : (![0, 0] : Fin 2 → Nat) = fun _ => 0 := funext fun a => by fin_cases a <;> rfl
theorem hzz3 : (![0, 0, 0] : Fin 3 → Nat) = fun _ => 0 := funext fun a => by fin_cases a <;> rfl

/-- Row `n`'s hidden unit `j` from the arrays the region reads. -/
def hiddenRow (A0 A3 : FVec Ideal S131072x13 .f32) (A2 : FVec Ideal S131072x26x16 .f32) (A4 : FVec Ideal S131072x26 .f32)
    (A8 A9 : FVec Ideal S13x16 .f32) (A10 : FVec Ideal S208x32 .f32) (A11 : FVec Ideal S416x32 .f32)
    (A12 : FVec Ideal S32 .f32) (n : Fin 131072) (j : Fin 32) : EReal :=
  DeepFM.rowHidden (fun f => A0 (ix2 n f)) (fun f => A3 (ix2 n f)) (fun f => A4 (ix2 n f)) (fun f e => A2 (ix3 n f e))
    (fun f e => A8 (ix2 f e)) (fun f e => A9 (ix2 f e)) (fun k j => A10 (ix2 k j)) (fun k j => A11 (ix2 k j))
    (fun j => A12 (ix1 j)) j

/-- The hidden layer's array as one function of those arrays. -/
def G14 (A0 A3 : FVec Ideal S131072x13 .f32) (A2 : FVec Ideal S131072x26x16 .f32) (A4 : FVec Ideal S131072x26 .f32)
    (A8 A9 : FVec Ideal S13x16 .f32) (A10 : FVec Ideal S208x32 .f32) (A11 : FVec Ideal S416x32 .f32)
    (A12 : FVec Ideal S32 .f32) : FVec Ideal S131072x32 .f32 :=
  fun i => hiddenRow A0 A3 A2 A4 A8 A9 A10 A11 A12 (i 0) (i 1)

/-- On blocks that are rows 128·t + r of the row-blocked arrays and the whole of the small ones, the body's hidden
    unit `j` of block row `r` is the array row's. -/
theorem block14 (t : Fin cfg0.N) (x0 x3 : Vec Ideal S128x13 .f32) (x2 : Vec Ideal S128x26x16 .f32) (x4 : Vec Ideal S128x26 .f32)
    (x8 x9 : Vec Ideal S13x16 .f32) (x10 : Vec Ideal S208x32 .f32) (x11 : Vec Ideal S416x32 .f32) (x12 : Vec Ideal S32 .f32)
    (A0 A3 : FVec Ideal S131072x13 .f32) (A2 : FVec Ideal S131072x26x16 .f32) (A4 : FVec Ideal S131072x26 .f32)
    (A8 A9 : FVec Ideal S13x16 .f32) (A10 : FVec Ideal S208x32 .f32) (A11 : FVec Ideal S416x32 .f32) (A12 : FVec Ideal S32 .f32)
    (h0 : ∀ (r : Fin 128) (f : Fin 13), x0 (ix2 r f) = A0 (ix2 (rowAt t r) f))
    (h3 : ∀ (r : Fin 128) (f : Fin 13), x3 (ix2 r f) = A3 (ix2 (rowAt t r) f))
    (h2 : ∀ (r : Fin 128) (f : Fin 26) (e : Fin 16), x2 (ix3 r f e) = A2 (ix3 (rowAt t r) f e))
    (h4 : ∀ (r : Fin 128) (f : Fin 26), x4 (ix2 r f) = A4 (ix2 (rowAt t r) f))
    (h8 : ∀ (p : Fin 13) (q : Fin 16), x8 (ix2 p q) = A8 (ix2 p q)) (h9 : ∀ (p : Fin 13) (q : Fin 16), x9 (ix2 p q) = A9 (ix2 p q))
    (h10 : ∀ (p : Fin 208) (q : Fin 32), x10 (ix2 p q) = A10 (ix2 p q))
    (h11 : ∀ (p : Fin 416) (q : Fin 32), x11 (ix2 p q) = A11 (ix2 p q))
    (h12 : ∀ p : Fin 32, x12 (ix1 p) = A12 (ix1 p))
    (r : Fin 128) (j : Fin 32) :
    k0_pay1 (F := Ideal) (k0_pay11 (k0_pay4 x2) (k0_pay7 x0 x3 x8 x9) (k0_pay8 x4) x10 x11) (k0_pay12 x12) (ix2 r j)
      = hiddenRow A0 A3 A2 A4 A8 A9 A10 A11 A12 (rowAt t r) j := by
  rw [Rows.hidden_row]
  unfold hiddenRow
  simp only [h0, h2, h3, h4, h8, h9, h10, h11, h12]

/-- What point `t` writes back is block `t` of the whole-array function. -/
theorem flushed14_eq (c : Dev nD) (t : Fin cfg0.N) :
    (dats m 0 c).flushed 14 t = ((cfg0.win 14).blk t).view.read (Elt Ideal) (G14 (V m c main_arg0) (V m c main_v32) (V m c main_v31) (V m c main_v33) (V m c main_arg7) (V m c main_arg8) (V m c main_v34) (V m c main_v35) (V m c main_arg11)) := by
  show (cfg0.win 14).cut (grid0.coords t) ((dats m 0 c).after 14 t) = _
  rw [after0_14]
  unfold out0_14
  rw [View.canon_unit_zero hzz2]
  simp only [View.ld_unit_zero (S := S128x13) hzz2, View.ld_unit_zero (S := S128x26x16) hzz3, View.ld_unit_zero (S := S128x26) hzz2,
    View.ld_unit_zero (S := S13x16) hzz2, View.ld_unit_zero (S := S208x32) hzz2, View.ld_unit_zero (S := S416x32) hzz2,
    View.ld_unit_zero (S := S32) hzz1]
  funext j
  obtain ⟨r, q, rfl⟩ : ∃ (r : Fin 128) (q : Fin 32), j = ix2 r q := ⟨j 0, j 1, eq_ix2 j⟩
  obtain ⟨e0_0, e0_1, e1_0, e1_1, e1_2, e2_0, e2_1, e2_2, e3_0, e3_1, e4_0, e4_1, e5_0, e13_0, e14_0, e14_1⟩ := idx_facts t
  show k0_pay1 (F := Ideal) (k0_pay11 (k0_pay4 (iblk m c 2 t)) (k0_pay7 (iblk m c 0 t) (iblk m c 3 t) (iblk m c 8 t) (iblk m c 9 t))
      (k0_pay8 (iblk m c 4 t)) (iblk m c 10 t) (iblk m c 11 t)) (k0_pay12 (iblk m c 12 t)) (ix2 r q)
    = hiddenRow (V m c main_arg0) (V m c main_v32) (V m c main_v31) (V m c main_v33) (V m c main_arg7) (V m c main_arg8) (V m c main_v34) (V m c main_v35) (V m c main_arg11) ((((cfg0.win 14).blk t).view.emb (ix2 r q)) 0) ((((cfg0.win 14).blk t).view.emb (ix2 r q)) 1)
  refine (block14 t (iblk m c 0 t) (iblk m c 3 t) (iblk m c 2 t) (iblk m c 4 t) (iblk m c 8 t) (iblk m c 9 t) (iblk m c 10 t) (iblk m c 11 t) (iblk m c 12 t) (V m c main_arg0) (V m c main_v32) (V m c main_v31) (V m c main_v33) (V m c main_arg7) (V m c main_arg8) (V m c main_v34) (V m c main_v35) (V m c main_arg11) (read0 m c t) (read3 m c t) (read2 m c t) (read4 m c t) (read8 m c t) (read9 m c t) (read10 m c t) (read11 m c t) (read12 m c t) r q).trans ?_
  refine congrArg₂ (hiddenRow (V m c main_arg0) (V m c main_v32) (V m c main_v31) (V m c main_v33) (V m c main_arg7) (V m c main_arg8) (V m c main_v34) (V m c main_v35) (V m c main_arg11)) ?_ ?_
  · apply Fin.ext
    show t.val * 128 + r.val = win0_14.index t (0 : Fin 2) * 128 + 1 * r.val
    rw [e14_0]; omega
  · apply Fin.ext
    show q.val = win0_14.index t (1 : Fin 2) * 32 + 1 * q.val
    rw [e14_1]; omega

/-- An index of the array is in point `t`'s block iff its row is among the block's 128 rows and its column among the 32. -/
theorem mem_blk14 (t : Fin cfg0.N) (i : S131072x32.Idx) :
    i ∈ ((cfg0.win 14).blk t).view.set ↔ ∀ a : Fin 2, win0_14.index t a * S128x32.size a ≤ (i a).val ∧ (i a).val < win0_14.index t a * S128x32.size a + S128x32.size a := by
  show i ∈ ((View.whole main_v36_1).slice (win0_14.rect t)).set ↔ _
  rw [View.set_slice_whole, Rect.mem_set_unit]
  exact Iff.rfl

/-- Every entry is in the block of the point numbered by its row divided by 128. -/
theorem cover14 (i : S131072x32.Idx) : ∃ t : Fin cfg0.N, (cfg0.win 14).flush t = true ∧ i ∈ ((cfg0.win 14).blk t).view.set := by
  have hi : (i 0).val < 131072 := (i 0).isLt
  have hq : (i 1).val < 32 := (i 1).isLt
  have hN : cfg0.N = 1024 := N_0
  let t : Fin cfg0.N := ⟨(i 0).val / 128, by rw [hN]; omega⟩
  refine ⟨t, flush0_14 t, ?_⟩
  rw [mem_blk14]
  obtain ⟨e0_0, e0_1, e1_0, e1_1, e1_2, e2_0, e2_1, e2_2, e3_0, e3_1, e4_0, e4_1, e5_0, e13_0, e14_0, e14_1⟩ := idx_facts t
  intro a
  match a with
  | ⟨0, _⟩ =>
    show win0_14.index t (0 : Fin 2) * 128 ≤ (i 0).val ∧ (i 0).val < win0_14.index t (0 : Fin 2) * 128 + 128
    rw [e14_0]
    show (i 0).val / 128 * 128 ≤ (i 0).val ∧ (i 0).val < (i 0).val / 128 * 128 + 128
    omega
  | ⟨1, _⟩ =>
    show win0_14.index t (1 : Fin 2) * 32 ≤ (i 1).val ∧ (i 1).val < win0_14.index t (1 : Fin 2) * 32 + 32
    rw [e14_1]
    omega

/-- The hidden layer's array after the run. -/
theorem final14 (c : Dev nD) : (dats m 0 c).arrAt 14 cfg0.N = G14 (V m c main_arg0) (V m c main_v32) (V m c main_v31) (V m c main_v33) (V m c main_arg7) (V m c main_arg8) (V m c main_v34) (V m c main_v35) (V m c main_arg11) :=
  (dats m 0 c).arrAt_eq_of_cover 14 (G14 (V m c main_arg0) (V m c main_v32) (V m c main_v31) (V m c main_v33) (V m c main_arg7) (V m c main_arg8) (V m c main_v34) (V m c main_v35) (V m c main_arg11)) (fun t _ => flushed14_eq m c t) cover14

end Cert.KernelIdeal.Arrays

end
-- ==== Proof.KISlices.lean ====
/-
  The pieces the host lines before the region cut out of the arguments, read at an index, and the identification of
  this program's gathered rows with the reference's.

  The field values [131072, 39] are cut into columns 0..12 (the dense fields) and columns 13..38 (the sparse ones);
  the first weight matrix [624, 32] into rows 0..207 and rows 208..623. A cut from offset o reads the source at
  o + the coordinate inside the cut. Both programs gather the table rows at the same (field, id) pairs with the same
  dimension numbers, so the two gathered arrays are one function of the table and the ids.
-/
import proofs.«121767_j16406775070798_2_alg».proof.Proof.KIPrefix
import proofs.«121767_j16406775070798_2_alg».proof.Proof.RefRowDefs
import Idealize.ShloMosaic.Lib.ValueLayout

set_option maxRecDepth 16384

noncomputable section

namespace Cert.KernelIdeal.Glue

open Cert.KernelIdeal Cert.KernelIdeal.Gen
open Idealize.ShloMosaic Idealize.ShloMosaic.ValueIdx

/-- The dense fields' values: column f of the cut is column f of the source. -/
theorem slice_dense (XV : FVec Ideal S131072x39 .f32) (n : Fin 131072) (f : Fin 13) :
    extractStridedSlice S131072x13 ![0, 0] XV slices_S131072x39_S131072x13_0_0 (ix2 n f) = XV (ix2 n (Fin.castAdd 26 f)) :=
  slice2_axis1_apply 0 XV slices_S131072x39_S131072x13_0_0 n f (Fin.castAdd 26 f) (Nat.zero_add _).symm

/-- The sparse fields' values: column f of the cut is column 13 + f of the source. -/
theorem slice_sparse (XV : FVec Ideal S131072x39 .f32) (n : Fin 131072) (f : Fin 26) :
    extractStridedSlice S131072x26 ![0, 13] XV slices_S131072x39_S131072x26_0_13 (ix2 n f) = XV (ix2 n (Fin.natAdd 13 f)) :=
  slice2_axis1_apply 13 XV slices_S131072x39_S131072x26_0_13 n f (Fin.natAdd 13 f) rfl

/-- The weight rows of the dense part: row k of the cut is row k of the source. -/
theorem slice_wd (WL1 : FVec Ideal S624x32 .f32) (k : Fin 208) (j : Fin 32) :
    extractStridedSlice S208x32 ![0, 0] WL1 slices_S624x32_S208x32_0_0 (ix2 k j) = WL1 (ix2 (Fin.castAdd 416 k) j) :=
  slice2_axis0_apply 0 WL1 slices_S624x32_S208x32_0_0 k j (Fin.castAdd 416 k) (Nat.zero_add _).symm

/-- The weight rows of the sparse part: row k of the cut is row 208 + k of the source. -/
theorem slice_ws (WL1 : FVec Ideal S624x32 .f32) (k : Fin 416) (j : Fin 32) :
    extractStridedSlice S416x32 ![208, 0] WL1 slices_S624x32_S416x32_208_0 (ix2 k j) = WL1 (ix2 (Fin.natAdd 208 k) j) :=
  slice2_axis0_apply 208 WL1 slices_S624x32_S416x32_208_0 k j (Fin.natAdd 208 k) rfl

/-- The two programs' gathered rows are one array. -/
theorem gather_eq (T : (⟨S26x100000x16, .f32⟩ : BufTy).Contents (Elt Ideal)) (XI : (⟨S131072x26, .i32⟩ : BufTy).Contents (Elt Ideal)) :
    Cert.KernelIdeal.Prefix.gatherK (F := Ideal) T XI = Cert.ReferenceIdeal.RefValue.gatherT T XI := by
  unfold Cert.KernelIdeal.Prefix.gatherK Cert.KernelIdeal.Prefix.indexPairs Cert.KernelIdeal.Prefix.fieldRow
    Cert.ReferenceIdeal.RefValue.gatherT
  rfl

/-- The two programs' dimension numbers of the 32 by 32 product are the same record. -/
theorem dot_eq : Cert.KernelIdeal.dot_S131072x32_S32x32_S131072x32_1_0_0_1_n_n
    = Cert.ReferenceIdeal.dot_S131072x32_S32x32_S131072x32_1_0_0_1_n_n := rfl

end Cert.KernelIdeal.Glue

end
-- ==== Proof.RefRowRead.lean ====
/-
  The reference's host operations read at an index, at the shapes this model uses: each float sum over one axis is
  the plain finite sum over that axis (its initial value is the float zero), the sum over two axes is the double
  sum, the matrix product is the sum over the contracted position, the reshape of [131072, 39, 16] to
  [131072, 624] puts field f, coordinate e at position 16 f + e, and a broadcast reads its operand.
-/
import proofs.«121767_j16406775070798_2_alg».proof.Proof.Gen.ReferenceIdeal
import Idealize.ShloMosaic.PureOps.Ideal.Laws
import Idealize.ShloMosaic.Lib.ValueIdx
import Idealize.ShloMosaic.Lib.IdealHost
import Idealize.ShloMosaic.Lib.Pipeline.Value

noncomputable section

namespace Cert.ReferenceIdeal.RefValue

open Cert.ReferenceIdeal Cert.ReferenceIdeal.Gen Idealize.ShloMosaic Idealize.ShloMosaic.ValueIdx

/-- The sum over the 39 fields, at row n and coordinate e. -/
theorem sum_fields_apply (E : FVec Ideal S131072x39x16 .f32) (n : Fin 131072) (e : Fin 16) :
    Host.reduceAdd E (constant (F := Ideal) S_ .f32 0x00000000#32) reducesTo_S131072x39x16_S131072x16_d1 h_S_ (ix2 n e)
      = ∑ f : Fin 39, E (ix3 n f e) := by
  have h : S131072x39x16.Reduces [1] S131072x16 := by decide
  rw [hostReduceAdd_apply, Ideal.hostReduceAdd_single _ h, constant_apply, Ideal.ofBits_zero_f32, zero_add]
  refine Finset.sum_congr rfl fun k _ => congrArg E ?_
  funext c; apply Fin.ext
  match c with
  | ⟨0, _⟩ => rfl
  | ⟨1, _⟩ => rfl
  | ⟨2, _⟩ => rfl

/-- The sum over the 16 coordinates, at row n. -/
theorem sum_coords_apply (Y : FVec Ideal S131072x16 .f32) (n : Fin 131072) :
    Host.reduceAdd Y (constant (F := Ideal) S_ .f32 0x00000000#32) reducesTo_S131072x16_S131072_d1 h_S_ (ix1 n)
      = ∑ e : Fin 16, Y (ix2 n e) := by
  have h : S131072x16.Reduces [1] S131072 := by decide
  rw [hostReduceAdd_apply, Ideal.hostReduceAdd_single _ h, constant_apply, Ideal.ofBits_zero_f32, zero_add]
  refine Finset.sum_congr rfl fun k _ => congrArg Y ?_
  funext c; apply Fin.ext
  match c with
  | ⟨0, _⟩ => rfl
  | ⟨1, _⟩ => rfl

/-- The sum over fields and coordinates at once, at row n: the source indices whose row is n are exactly the
    (n, f, e), one for every pair (f, e). -/
theorem sum_fields_coords_apply (E : FVec Ideal S131072x39x16 .f32) (n : Fin 131072) :
    Host.reduceAdd E (constant (F := Ideal) S_ .f32 0x00000000#32) reducesTo_S131072x39x16_S131072_d1_2 h_S_ (ix1 n)
      = ∑ f : Fin 39, ∑ e : Fin 16, E (ix3 n f e) := by
  rw [hostReduceAdd_apply, constant_apply, Ideal.ofBits_zero_f32]
  unfold Ideal.hostReduceAdd
  rw [zero_add, ← Finset.sum_product']
  have hrow : ∀ i : S131072x39x16.Idx, reducesTo_S131072x39x16_S131072_d1_2.drop i = ix1 n → i 0 = n := by
    intro i hi
    exact Fin.ext (Fin.ext_iff.mp (congrFun hi (0 : Fin 1)))
  refine Finset.sum_nbij' (fun i => (i 1, i 2)) (fun p => ix3 n p.1 p.2) ?_ ?_ ?_ ?_ ?_
  · intro i _; exact Finset.mem_product.mpr ⟨Finset.mem_univ _, Finset.mem_univ _⟩
  · intro p _
    refine Finset.mem_filter.mpr ⟨Finset.mem_univ _, ?_⟩
    funext b; apply Fin.ext
    match b with
    | ⟨0, _⟩ => rfl
  · intro i hi
    have h0 := hrow i (Finset.mem_filter.mp hi).2
    funext c; apply Fin.ext
    match c with
    | ⟨0, _⟩ => exact (congrArg Fin.val h0).symm
    | ⟨1, _⟩ => rfl
    | ⟨2, _⟩ => rfl
  · intro p _; rfl
  · intro i hi
    have h0 := hrow i (Finset.mem_filter.mp hi).2
    refine congrArg E ?_
    funext c; apply Fin.ext
    match c with
    | ⟨0, _⟩ => exact congrArg Fin.val h0
    | ⟨1, _⟩ => rfl
    | ⟨2, _⟩ => rfl

/-- The coordinates of the first matrix product's operand indices. -/
theorem hid_lhs_0 (i : S131072x32.Idx) (q : dot_S131072x624_S624x32_S131072x32_1_0_0_1_n_n.contr.Idx) :
    (dot_S131072x624_S624x32_S131072x32_1_0_0_1_n_n.lhsIdx i q 0).val = (i 0).val := by
  unfold DotDims.lhsIdx
  rw [dif_neg (show ¬(0 : Fin S131072x624.rank) ∈ dot_S131072x624_S624x32_S131072x32_1_0_0_1_n_n.lhsBatch by decide), dif_pos (show (0 : Fin S131072x624.rank) ∈ dot_S131072x624_S624x32_S131072x32_1_0_0_1_n_n.lhsNonContracting by decide)]
  rfl
theorem hid_lhs_1 (i : S131072x32.Idx) (q : dot_S131072x624_S624x32_S131072x32_1_0_0_1_n_n.contr.Idx) :
    (dot_S131072x624_S624x32_S131072x32_1_0_0_1_n_n.lhsIdx i q 1).val = (q ⟨0, by decide⟩).val :=
  dot_S131072x624_S624x32_S131072x32_1_0_0_1_n_n.lhsIdx_val_of_single rfl i q
theorem hid_rhs_0 (i : S131072x32.Idx) (q : dot_S131072x624_S624x32_S131072x32_1_0_0_1_n_n.contr.Idx) :
    (dot_S131072x624_S624x32_S131072x32_1_0_0_1_n_n.rhsIdx i q 0).val = (q ⟨0, by decide⟩).val :=
  dot_S131072x624_S624x32_S131072x32_1_0_0_1_n_n.rhsIdx_val_of_single rfl i q
theorem hid_rhs_1 (i : S131072x32.Idx) (q : dot_S131072x624_S624x32_S131072x32_1_0_0_1_n_n.contr.Idx) :
    (dot_S131072x624_S624x32_S131072x32_1_0_0_1_n_n.rhsIdx i q 1).val = (i 1).val := by
  unfold DotDims.rhsIdx
  rw [dif_neg (show ¬(1 : Fin S624x32.rank) ∈ dot_S131072x624_S624x32_S131072x32_1_0_0_1_n_n.rhsBatch by decide), dif_pos (show (1 : Fin S624x32.rank) ∈ dot_S131072x624_S624x32_S131072x32_1_0_0_1_n_n.rhsNonContracting by decide)]
  rfl

/-- The [131072, 624] by [624, 32] product at (n, j): the sum over the 624 positions. -/
theorem hidden_dot_apply (L : FVec Ideal S131072x624 .f32) (R : FVec Ideal S624x32 .f32) (n : Fin 131072) (j : Fin 32) :
    Host.dotGeneral (F := Ideal) dot_S131072x624_S624x32_S131072x32_1_0_0_1_n_n none L R (ix2 n j)
      = ∑ k : Fin 624, L (ix2 n k) * R (ix2 k j) := by
  simp only [Host.dotGeneral]
  rw [Ideal.dotGeneral_apply, ← Equiv.sum_comp (contrEquiv1 dot_S131072x624_S624x32_S131072x32_1_0_0_1_n_n 624 rfl rfl).symm]
  refine Finset.sum_congr rfl fun k _ => ?_
  have hk := contrEquiv1_symm_val dot_S131072x624_S624x32_S131072x32_1_0_0_1_n_n 624 rfl rfl k
  have el : dot_S131072x624_S624x32_S131072x32_1_0_0_1_n_n.lhsIdx (ix2 n j) ((contrEquiv1 dot_S131072x624_S624x32_S131072x32_1_0_0_1_n_n 624 rfl rfl).symm k) = ix2 n k := funext fun a => Fin.ext (by
    match a with
    | ⟨0, _⟩ => exact hid_lhs_0 _ _
    | ⟨1, _⟩ => exact (hid_lhs_1 _ _).trans hk)
  have er : dot_S131072x624_S624x32_S131072x32_1_0_0_1_n_n.rhsIdx (ix2 n j) ((contrEquiv1 dot_S131072x624_S624x32_S131072x32_1_0_0_1_n_n 624 rfl rfl).symm k) = ix2 k j := funext fun a => Fin.ext (by
    match a with
    | ⟨0, _⟩ => exact (hid_rhs_0 _ _).trans hk
    | ⟨1, _⟩ => exact hid_rhs_1 _ _)
  rw [el, er]

/-- The embedding read as 624 numbers per row: position 16 f + e holds field f, coordinate e. -/
theorem flat_apply (E : FVec Ideal S131072x39x16 .f32) (n : Fin 131072) (k : Fin 624) (f : Fin 39) (e : Fin 16)
    (hk : k.val = 16 * f.val + e.val) :
    shapeCast S131072x624 E shapeCasts_S131072x39x16_S131072x624 (ix2 n k) = E (ix3 n f e) := by
  refine shapeCast_apply _ _ _ _ ?_
  rw [Shape.rowMajor_val_two, Shape.rowMajor_val_three]
  show (n.val * 39 + f.val) * 16 + e.val = n.val * 624 + k.val
  omega

/-- The bias repeated down the rows. -/
theorem bias_rows_apply (v : FVec Ideal S32 .f32) (n : Fin 131072) (j : Fin 32) :
    broadcastInDim S131072x32 ![0, 1] bcast_S1x32_S131072x32_0_1 (broadcastInDim S1x32 ![1] bcast_S32_S1x32_1 v) (ix2 n j)
      = v (ix1 j) := by
  rw [broadcastInDim_apply _ _ _ _ (ix2 (0 : Fin 1) j) (by intro a; match a with | ⟨0, _⟩ => rfl | ⟨1, _⟩ => rfl)]
  rw [broadcastInDim_apply _ _ _ _ (ix1 j) (by intro a; match a with | ⟨0, _⟩ => rfl)]

/-- The constant one half spread over [131072, 16]. -/
theorem half_apply (n : Fin 131072) (e : Fin 16) :
    broadcastInDim S131072x16 ![] bcast_S_S131072x16 (constant (F := Ideal) S_ .f32 0x3F000000#32) (ix2 n e)
      = Ideal.ofBits .f32 0x3F000000#32 := by
  rw [broadcastInDim_scalar_apply, constant_apply]

end Cert.ReferenceIdeal.RefValue

end
-- ==== Proof.RefRowEmb.lean ====
/-
  One entry of the embedding array, as the row formulas spell it: for a dense field f (fields 0..12 of the 39) the
  entry at row n, coordinate e is (x (n, f) * w (f, e) + b (f, e)) * v (n, f); for a sparse field (fields 13..38,
  field 13 + f) it is the gathered row's entry times v (n, 13 + f). The concatenation along the field axis reads
  its first piece below 13 and its second piece, shifted by 13, from 13 on; each broadcast reads its operand at
  the coordinates it keeps.
-/
import proofs.«121767_j16406775070798_2_alg».proof.Proof.RefRowDefs
import proofs.«121767_j16406775070798_2_alg».proof.Proof.Spec
import Idealize.ShloMosaic.Lib.ValueIdx
import Idealize.ShloMosaic.Lib.Pipeline.Value

noncomputable section

namespace Cert.ReferenceIdeal.RefValue

open Cert.ReferenceIdeal Cert.ReferenceIdeal.Gen Idealize.ShloMosaic Idealize.ShloMosaic.ValueIdx

/-- The scalar features spread over the coordinates. -/
theorem feature_apply (XD : FVec Ideal S131072x13 .f32) (n : Fin 131072) (f : Fin 13) (e : Fin 16) :
    broadcastInDim S131072x13x16 ![0, 1, 2] bcast_S131072x13x1_S131072x13x16_0_1_2 (broadcastInDim S131072x13x1 ![0, 1] bcast_S131072x13_S131072x13x1_0_1 XD) (ix3 n f e)
      = XD (ix2 n f) := by
  rw [broadcastInDim_apply _ _ _ _ (ix3 n f (0 : Fin 1)) (by intro a; match a with | ⟨0, _⟩ => rfl | ⟨1, _⟩ => rfl | ⟨2, _⟩ => rfl)]
  rw [broadcastInDim_apply _ _ _ _ (ix2 n f) (by intro a; match a with | ⟨0, _⟩ => rfl | ⟨1, _⟩ => rfl)]

/-- A [13, 16] parameter spread over the rows. -/
theorem param_apply (W : FVec Ideal S13x16 .f32) (n : Fin 131072) (f : Fin 13) (e : Fin 16) :
    broadcastInDim S131072x13x16 ![0, 1, 2] bcast_S1x13x16_S131072x13x16_0_1_2 (broadcastInDim S1x13x16 ![1, 2] bcast_S13x16_S1x13x16_1_2 W) (ix3 n f e)
      = W (ix2 f e) := by
  rw [broadcastInDim_apply _ _ _ _ (ix3 (0 : Fin 1) f e) (by intro a; match a with | ⟨0, _⟩ => rfl | ⟨1, _⟩ => rfl | ⟨2, _⟩ => rfl)]
  rw [broadcastInDim_apply _ _ _ _ (ix2 f e) (by intro a; match a with | ⟨0, _⟩ => rfl | ⟨1, _⟩ => rfl)]

/-- The field values spread over the coordinates. -/
theorem value_apply (XV : FVec Ideal S131072x39 .f32) (n : Fin 131072) (g : Fin 39) (e : Fin 16) :
    broadcastInDim S131072x39x16 ![0, 1, 2] bcast_S131072x39x1_S131072x39x16_0_1_2 (broadcastInDim S131072x39x1 ![0, 1] bcast_S131072x39_S131072x39x1_0_1 XV) (ix3 n g e)
      = XV (ix2 n g) := by
  rw [broadcastInDim_apply _ _ _ _ (ix3 n g (0 : Fin 1)) (by intro a; match a with | ⟨0, _⟩ => rfl | ⟨1, _⟩ => rfl | ⟨2, _⟩ => rfl)]
  rw [broadcastInDim_apply _ _ _ _ (ix2 n g) (by intro a; match a with | ⟨0, _⟩ => rfl | ⟨1, _⟩ => rfl)]

/-- A sum over the 39 fields is the sum over the 13 dense fields plus the sum over the 26 sparse ones. -/
theorem sum_fields_split (g : Fin 39 → EReal) :
    ∑ f : Fin 39, g f = ∑ f : Fin 13, g (Fin.castAdd 26 f) + ∑ f : Fin 26, g (Fin.natAdd 13 f) :=
  Fin.sum_univ_add (a := 13) (b := 26) g

/-- A dense field's entry. -/
theorem emb_dense (XD : FVec Ideal S131072x13 .f32) (W B : FVec Ideal S13x16 .f32) (S : FVec Ideal S131072x26x16 .f32)
    (XV : FVec Ideal S131072x39 .f32) (n : Fin 131072) (f : Fin 13) (e : Fin 16) :
    embT XD W B S XV (ix3 n (Fin.castAdd 26 f) e)
      = DeepFM.denseE (fun f => XD (ix2 n f)) (fun f => XV (ix2 n (Fin.castAdd 26 f))) (fun f e => W (ix2 f e))
          (fun f e => B (ix2 f e)) f e := by
  unfold embT DeepFM.denseE
  rw [mulf_apply, value_apply]
  rw [concatenate_pair_apply_left (s₁ := S131072x13x16) (s₂ := S131072x26x16) (1 : Fin S131072x39x16.rank) _ _ _ _ rfl (ix3 n f e)
    (by intro b; match b with | ⟨0, _⟩ => rfl | ⟨1, _⟩ => rfl | ⟨2, _⟩ => rfl)]
  rw [addf_apply, mulf_apply, feature_apply, param_apply, param_apply]

/-- A sparse field's entry. -/
theorem emb_sparse (XD : FVec Ideal S131072x13 .f32) (W B : FVec Ideal S13x16 .f32) (S : FVec Ideal S131072x26x16 .f32)
    (XV : FVec Ideal S131072x39 .f32) (n : Fin 131072) (f : Fin 26) (e : Fin 16) :
    embT XD W B S XV (ix3 n (Fin.natAdd 13 f) e)
      = DeepFM.sparseE (fun f e => S (ix3 n f e)) (fun f => XV (ix2 n (Fin.natAdd 13 f))) f e := by
  unfold embT DeepFM.sparseE
  rw [mulf_apply, value_apply]
  rw [concatenate_pair_apply_right (s₁ := S131072x13x16) (s₂ := S131072x26x16) (1 : Fin S131072x39x16.rank) _ _ _ _ rfl rfl (ix3 n f e)
    (by intro b hb; match b with | ⟨0, _⟩ => rfl | ⟨1, _⟩ => exact absurd rfl hb | ⟨2, _⟩ => rfl)
    (by show f.val + 13 = 13 + f.val; omega)]

end Cert.ReferenceIdeal.RefValue

end
-- ==== Proof.RefRowFirst.lean ====
/-
  The reference's first-order term at row n is the row formula: the sum over fields and coordinates of the first
  embedding splits over the 13 dense and the 26 sparse fields, and in each part the two sums are exchanged so that
  the coordinates run outermost, as the row formula has them.
-/
import proofs.«121767_j16406775070798_2_alg».proof.Proof.RefRowDefs
import proofs.«121767_j16406775070798_2_alg».proof.Proof.RefRowRead
import proofs.«121767_j16406775070798_2_alg».proof.Proof.RefRowEmb
import proofs.«121767_j16406775070798_2_alg».proof.Proof.Spec

noncomputable section

namespace Cert.ReferenceIdeal.RefValue

open Cert.ReferenceIdeal Cert.ReferenceIdeal.Gen Idealize.ShloMosaic Idealize.ShloMosaic.ValueIdx

theorem first_row (XD : FVec Ideal S131072x13 .f32) (W B : FVec Ideal S13x16 .f32) (S : FVec Ideal S131072x26x16 .f32)
    (XV : FVec Ideal S131072x39 .f32) (n : Fin 131072) :
    firstT (embT XD W B S XV) (ix1 n)
      = DeepFM.rowFirst (fun f => XD (ix2 n f)) (fun f => XV (ix2 n (Fin.castAdd 26 f)))
          (fun f => XV (ix2 n (Fin.natAdd 13 f))) (fun f e => S (ix3 n f e)) (fun f e => W (ix2 f e))
          (fun f e => B (ix2 f e)) := by
  unfold firstT DeepFM.rowFirst
  rw [sum_fields_coords_apply, sum_fields_split (fun f => ∑ e : Fin 16, embT XD W B S XV (ix3 n f e))]
  simp only [emb_dense, emb_sparse]
  rw [Finset.sum_comm (s := (Finset.univ : Finset (Fin 13))), Finset.sum_comm (s := (Finset.univ : Finset (Fin 26)))]

end Cert.ReferenceIdeal.RefValue

end
-- ==== Proof.RefRowSecond.lean ====
/-
  The reference's second-order term at row n is the row formula: the outer sum runs over the 16 coordinates, and
  inside it each of the two sums over the 39 fields (of the entries, and of their squares) splits into the 13 dense
  fields and the 26 sparse ones, whose entries are the row formulas' dense and sparse entries.
-/
import proofs.«121767_j16406775070798_2_alg».proof.Proof.RefRowDefs
import proofs.«121767_j16406775070798_2_alg».proof.Proof.RefRowRead
import proofs.«121767_j16406775070798_2_alg».proof.Proof.RefRowEmb
import proofs.«121767_j16406775070798_2_alg».proof.Proof.Spec

noncomputable section

namespace Cert.ReferenceIdeal.RefValue

open Cert.ReferenceIdeal Cert.ReferenceIdeal.Gen Idealize.ShloMosaic Idealize.ShloMosaic.ValueIdx

theorem second_row (XD : FVec Ideal S131072x13 .f32) (W B : FVec Ideal S13x16 .f32) (S : FVec Ideal S131072x26x16 .f32)
    (XV : FVec Ideal S131072x39 .f32) (n : Fin 131072) :
    fm2T (embT XD W B S XV) (ix1 n)
      = DeepFM.rowSecond (fun f => XD (ix2 n f)) (fun f => XV (ix2 n (Fin.castAdd 26 f)))
          (fun f => XV (ix2 n (Fin.natAdd 13 f))) (fun f e => S (ix3 n f e)) (fun f e => W (ix2 f e))
          (fun f e => B (ix2 f e)) := by
  unfold fm2T DeepFM.rowSecond DeepFM.half
  rw [sum_coords_apply]
  refine Finset.sum_congr rfl fun e _ => ?_
  rw [mulf_apply, half_apply, subf_apply, mulf_apply, sum_fields_apply, sum_fields_apply]
  rw [sum_fields_split (fun f => embT XD W B S XV (ix3 n f e)),
    sum_fields_split (fun f => mulf (embT XD W B S XV) (embT XD W B S XV) (ix3 n f e))]
  simp only [mulf_apply, emb_dense, emb_sparse]

end Cert.ReferenceIdeal.RefValue

end
-- ==== Proof.RefRowHidden.lean ====
/-
  The reference's hidden layer at row n, column j is the row formula: the contraction over the 624 positions of
  the flattened embedding splits into the first 208 positions (the 13 dense fields) and the last 416 (the 26 sparse
  fields); position k of a part holds field k / 16, coordinate k % 16 of that part, because 208 = 13 * 16.
-/
import proofs.«121767_j16406775070798_2_alg».proof.Proof.RefRowDefs
import proofs.«121767_j16406775070798_2_alg».proof.Proof.RefRowRead
import proofs.«121767_j16406775070798_2_alg».proof.Proof.RefRowEmb
import proofs.«121767_j16406775070798_2_alg».proof.Proof.Spec

noncomputable section

namespace Cert.ReferenceIdeal.RefValue

open Cert.ReferenceIdeal Cert.ReferenceIdeal.Gen Idealize.ShloMosaic Idealize.ShloMosaic.ValueIdx

/-- A sum over the 624 positions is the sum over the first 208 plus the sum over the last 416. -/
theorem sum_positions_split (g : Fin 624 → EReal) :
    ∑ k : Fin 624, g k = ∑ k : Fin 208, g (Fin.castAdd 416 k) + ∑ k : Fin 416, g (Fin.natAdd 208 k) :=
  Fin.sum_univ_add (a := 208) (b := 416) g

theorem hidden_row (XD : FVec Ideal S131072x13 .f32) (W B : FVec Ideal S13x16 .f32) (S : FVec Ideal S131072x26x16 .f32)
    (XV : FVec Ideal S131072x39 .f32) (WL1 : FVec Ideal S624x32 .f32) (BL1 : FVec Ideal S32 .f32) (n : Fin 131072) (j : Fin 32) :
    hiddenT (embT XD W B S XV) WL1 BL1 (ix2 n j)
      = DeepFM.rowHidden (fun f => XD (ix2 n f)) (fun f => XV (ix2 n (Fin.castAdd 26 f)))
          (fun f => XV (ix2 n (Fin.natAdd 13 f))) (fun f e => S (ix3 n f e)) (fun f e => W (ix2 f e))
          (fun f e => B (ix2 f e)) (fun k j => WL1 (ix2 (Fin.castAdd 416 k) j))
          (fun k j => WL1 (ix2 (Fin.natAdd 208 k) j)) (fun j => BL1 (ix1 j)) j := by
  unfold hiddenT DeepFM.rowHidden
  rw [addf_apply, hidden_dot_apply, bias_rows_apply]
  rw [sum_positions_split (fun k => shapeCast S131072x624 (embT XD W B S XV) shapeCasts_S131072x39x16_S131072x624 (ix2 n k) * WL1 (ix2 k j))]
  congr 1
  congr 1
  · refine Finset.sum_congr rfl fun k _ => ?_
    rw [flat_apply _ n (Fin.castAdd 416 k) (Fin.castAdd 26 (DeepFM.fieldOf (n := 13) k)) (DeepFM.coordOf (n := 13) k)
      (by show k.val = 16 * (k.val / 16) + k.val % 16; omega), emb_dense]
  · refine Finset.sum_congr rfl fun k _ => ?_
    rw [flat_apply _ n (Fin.natAdd 208 k) (Fin.natAdd 13 (DeepFM.fieldOf (n := 26) k)) (DeepFM.coordOf (n := 26) k)
      (by show 208 + k.val = 16 * (13 + k.val / 16) + k.val % 16; omega), emb_sparse]

end Cert.ReferenceIdeal.RefValue

end
-- ==== Proof.RefBridge.lean ====
/-
  The law that joins the two programs' results, array by array. One program adds the bias to the sum of the
  first-order and second-order terms before it adds the deep part, the other adds it last:
  (first + second + bias) + deep = (first + second + deep) + bias, which on the extended reals needs only that
  addition is commutative and associative. The deep part is any function D of the hidden layer, and the two hidden
  layers agree entry by entry because both are the row formula.
-/
import proofs.«121767_j16406775070798_2_alg».proof.Proof.RefRowDefs
import proofs.«121767_j16406775070798_2_alg».proof.Proof.RefRowFirst
import proofs.«121767_j16406775070798_2_alg».proof.Proof.RefRowSecond
import proofs.«121767_j16406775070798_2_alg».proof.Proof.RefRowHidden
import proofs.«121767_j16406775070798_2_alg».proof.Proof.Spec

noncomputable section

namespace Cert.ReferenceIdeal.RefValue

open Cert.ReferenceIdeal Cert.ReferenceIdeal.Gen Idealize.ShloMosaic Idealize.ShloMosaic.ValueIdx

theorem bridge (XD : FVec Ideal S131072x13 .f32) (W1 B1 W2 B2 : FVec Ideal S13x16 .f32)
    (S1 S2 : FVec Ideal S131072x26x16 .f32) (XV : FVec Ideal S131072x39 .f32) (BIAS : FVec Ideal S131072 .f32)
    (WL1 : FVec Ideal S624x32 .f32) (BL1 : FVec Ideal S32 .f32)
    (P : FVec Ideal S131072 .f32) (H : FVec Ideal S131072x32 .f32)
    (D : FVec Ideal S131072x32 .f32 → FVec Ideal S131072 .f32)
    (hP : ∀ n : Fin 131072, P (ix1 n) = (DeepFM.rowFirst (fun f => XD (ix2 n f)) (fun f => XV (ix2 n (Fin.castAdd 26 f))) (fun f => XV (ix2 n (Fin.natAdd 13 f))) (fun f e => S1 (ix3 n f e)) (fun f e => W1 (ix2 f e)) (fun f e => B1 (ix2 f e))
        + DeepFM.rowSecond (fun f => XD (ix2 n f)) (fun f => XV (ix2 n (Fin.castAdd 26 f))) (fun f => XV (ix2 n (Fin.natAdd 13 f))) (fun f e => S2 (ix3 n f e)) (fun f e => W2 (ix2 f e)) (fun f e => B2 (ix2 f e))) + BIAS (ix1 n))
    (hH : ∀ (n : Fin 131072) (j : Fin 32), H (ix2 n j) = DeepFM.rowHidden (fun f => XD (ix2 n f)) (fun f => XV (ix2 n (Fin.castAdd 26 f))) (fun f => XV (ix2 n (Fin.natAdd 13 f))) (fun f e => S2 (ix3 n f e)) (fun f e => W2 (ix2 f e)) (fun f e => B2 (ix2 f e)) (fun k j => WL1 (ix2 (Fin.castAdd 416 k) j)) (fun k j => WL1 (ix2 (Fin.natAdd 208 k) j)) (fun j => BL1 (ix1 j)) j) :
    addf P (D H) = addf (addf (addf (firstT (embT XD W1 B1 S1 XV)) (fm2T (embT XD W2 B2 S2 XV))) (D (hiddenT (embT XD W2 B2 S2 XV) WL1 BL1))) BIAS := by
  -- the two hidden layers are one array
  have hHid : H = hiddenT (embT XD W2 B2 S2 XV) WL1 BL1 := by
    funext i
    obtain ⟨n, j, rfl⟩ : ∃ (n : Fin 131072) (j : Fin 32), i = ix2 n j := ⟨i 0, i 1, eq_ix2 i⟩
    rw [hH, hidden_row]
  rw [← hHid]
  funext i
  obtain ⟨n, rfl⟩ : ∃ n : Fin 131072, i = ix1 n := ⟨i 0, eq_ix1 i⟩
  rw [addf_apply, addf_apply, addf_apply, addf_apply, hP, first_row, second_row]
  exact add_right_comm _ _ _

end Cert.ReferenceIdeal.RefValue

end
-- ==== Proof.ValueEq.lean ====
/-
  The two programs' results are one array. The region's result is (first-order + second-order + bias) + deep part
  of its hidden layer, with the row data taken from the pieces the host lines cut out (the dense and sparse columns
  of the field values, the dense and sparse rows of the first weight matrix) and from its own gathered table rows;
  each piece read at an index is the corresponding entry of the whole argument, and the gathered rows are the
  reference's, so the row data are the reference's row data and the array-level law applies.
-/
import proofs.«121767_j16406775070798_2_alg».proof.Proof.KISlices
import proofs.«121767_j16406775070798_2_alg».proof.Proof.RefBridge
import proofs.«121767_j16406775070798_2_alg».proof.Proof.RefRowDefs
import proofs.«121767_j16406775070798_2_alg».proof.Proof.DeepTail
import proofs.«121767_j16406775070798_2_alg».proof.Proof.Spec

set_option maxRecDepth 16384

noncomputable section

namespace Cert.KernelIdeal.Glue

open Cert.KernelIdeal Cert.KernelIdeal.Gen
open Idealize.ShloMosaic Idealize.ShloMosaic.ValueIdx
open Cert.ReferenceIdeal.RefValue

theorem value_eq (XD : FVec Ideal S131072x13 .f32) (XI : (⟨S131072x26, .i32⟩ : BufTy).Contents (Elt Ideal))
    (XV : FVec Ideal S131072x39 .f32) (BIAS : FVec Ideal S131072 .f32) (W1 B1 W2 B2 : FVec Ideal S13x16 .f32)
    (T1 T2 : (⟨S26x100000x16, .f32⟩ : BufTy).Contents (Elt Ideal)) (WL1 : FVec Ideal S624x32 .f32)
    (BL1 G1 BE1 : FVec Ideal S32 .f32) (WL2 : FVec Ideal S32x32 .f32) (BL2 G2 BE2 : FVec Ideal S32 .f32)
    (P : FVec Ideal S131072 .f32) (H : FVec Ideal S131072x32 .f32)
    (hP : ∀ n : Fin 131072, P (ix1 n) = (DeepFM.rowFirst (fun f => XD (ix2 n f)) (fun f => extractStridedSlice S131072x13 ![0, 0] XV slices_S131072x39_S131072x13_0_0 (ix2 n f)) (fun f => extractStridedSlice S131072x26 ![0, 13] XV slices_S131072x39_S131072x26_0_13 (ix2 n f)) (fun f e => (Cert.KernelIdeal.Prefix.gatherK (F := Ideal) T1 XI) (ix3 n f e)) (fun f e => W1 (ix2 f e)) (fun f e => B1 (ix2 f e))
        + DeepFM.rowSecond (fun f => XD (ix2 n f)) (fun f => extractStridedSlice S131072x13 ![0, 0] XV slices_S131072x39_S131072x13_0_0 (ix2 n f)) (fun f => extractStridedSlice S131072x26 ![0, 13] XV slices_S131072x39_S131072x26_0_13 (ix2 n f)) (fun f e => (Cert.KernelIdeal.Prefix.gatherK (F := Ideal) T2 XI) (ix3 n f e)) (fun f e => W2 (ix2 f e)) (fun f e => B2 (ix2 f e))) + BIAS (ix1 n))
    (hH : ∀ (n : Fin 131072) (j : Fin 32), H (ix2 n j) = DeepFM.rowHidden (fun f => XD (ix2 n f)) (fun f => extractStridedSlice S131072x13 ![0, 0] XV slices_S131072x39_S131072x13_0_0 (ix2 n f)) (fun f => extractStridedSlice S131072x26 ![0, 13] XV slices_S131072x39_S131072x26_0_13 (ix2 n f)) (fun f e => (Cert.KernelIdeal.Prefix.gatherK (F := Ideal) T2 XI) (ix3 n f e)) (fun f e => W2 (ix2 f e)) (fun f e => B2 (ix2 f e)) (fun k j => extractStridedSlice S208x32 ![0, 0] WL1 slices_S624x32_S208x32_0_0 (ix2 k j)) (fun k j => extractStridedSlice S416x32 ![208, 0] WL1 slices_S624x32_S416x32_208_0 (ix2 k j)) (fun j => BL1 (ix1 j)) j) :
    addf P (DeepFM.deep (F := Ideal) Cert.KernelIdeal.dot_S131072x32_S32x32_S131072x32_1_0_0_1_n_n H G1 BE1 WL2 BL2 G2 BE2)
      = addf (addf (addf (firstT (embT XD W1 B1 (gatherT T1 XI) XV)) (fm2T (embT XD W2 B2 (gatherT T2 XI) XV))) (DeepFM.deep (F := Ideal) Cert.ReferenceIdeal.dot_S131072x32_S32x32_S131072x32_1_0_0_1_n_n (hiddenT (embT XD W2 B2 (gatherT T2 XI) XV) WL1 BL1) G1 BE1 WL2 BL2 G2 BE2)) BIAS := by
  rw [dot_eq]
  refine bridge XD W1 B1 W2 B2 (gatherT T1 XI) (gatherT T2 XI) XV BIAS WL1 BL1 P H
    (fun H => DeepFM.deep (F := Ideal) Cert.ReferenceIdeal.dot_S131072x32_S32x32_S131072x32_1_0_0_1_n_n H G1 BE1 WL2 BL2 G2 BE2) ?_ ?_
  · intro n
    have h := hP n
    simp only [slice_dense, slice_sparse, gather_eq] at h
    exact h
  · intro n j
    have h := hH n j
    simp only [slice_dense, slice_sparse, slice_wd, slice_ws, gather_eq] at h
    exact h

end Cert.KernelIdeal.Glue

end
-- ==== Proof.lean ====
/-
  The certificate of the fused factorization-machine kernel against its plain reference, over the extended reals.

  Both programs compute, for each of 131072 batch rows, a first-order sum over 39 field embeddings, a second-order
  interaction term, the row sum of a two-layer batch-normalised network applied to the flattened second embedding,
  and a bias. The kernel program gathers the sparse table rows on the host, computes per block of 128 rows the
  first- and second-order terms plus the bias and the first hidden layer inside one region, and finishes the network
  on the host; the reference does everything on the host over whole arrays.

  The frames: each kernel program is host lines, one region, host lines; the region's body loads thirteen blocks and
  overwrites two output blocks whole, and no host line writes an argument array. The reference is host lines only.
  The idealisation rewrote nothing, so it is the program's own text read over the extended reals.
  The values: row by row the kernel's block formulas are the reference's whole-array formulas with each sum over the
  39 fields split as 13 + 26 and the contraction over 624 as 208 + 416 — regroupings of finite sums, valid on the
  extended reals without any finiteness assumption — and both programs apply the same batch-norm chain to equal hidden
  layers; the kernel adds the bias before the deep part and the reference after it.
-/
import proofs.«121767_j16406775070798_2_alg».proof.Defs
import proofs.«121767_j16406775070798_2_alg».proof.Proof.Gen.Kernel
import proofs.«121767_j16406775070798_2_alg».proof.Proof.Gen.KernelIdeal
import proofs.«121767_j16406775070798_2_alg».proof.Proof.Gen.ReferenceIdeal
import proofs.«121767_j16406775070798_2_alg».proof.Proof.Gen.Pre_finite_inputs
import proofs.«121767_j16406775070798_2_alg».proof.Proof.Gen.ReferenceIdeal.Run
import proofs.«121767_j16406775070798_2_alg».proof.Proof.KFrameRun
import proofs.«121767_j16406775070798_2_alg».proof.Proof.KIFrameRun
import proofs.«121767_j16406775070798_2_alg».proof.Proof.RefFrame
import proofs.«121767_j16406775070798_2_alg».proof.Proof.RefRowRun
import proofs.«121767_j16406775070798_2_alg».proof.Proof.KIResult
import proofs.«121767_j16406775070798_2_alg».proof.Proof.KIArray13
import proofs.«121767_j16406775070798_2_alg».proof.Proof.KIArray14
import proofs.«121767_j16406775070798_2_alg».proof.Proof.ValueEq
import Idealize.ShloMosaic.Adequacy
import Idealize.ShloMosaic.Init

set_option maxRecDepth 16384

noncomputable section

namespace Cert.Proof

open Idealize.ShloMosaic Idealize.ShloMosaic.TcCoe Idealize.SL.Sem Idealize.ShloMosaic.ValueIdx

theorem frame_p : Cert.frame_Kernel := fun m ρ _ => Cert.Kernel.Frame.frame m ρ
theorem frame_pi : Cert.frame_KernelIdeal := fun m ρ _ => Cert.KernelIdeal.Frame.frame m ρ
theorem frame_ri : Cert.frame_ReferenceIdeal := Cert.ReferenceIdeal.RefValue.frame_ri

/-- The idealisation rewrote no operation. -/
theorem preserves : Cert.preserves_Kernel_KernelIdeal := trivial

/-- The kernel program's result over the launched arguments: the row partial sums plus the deep part of the hidden layer. -/
def result (m : (ℓ : Loc Cert.KernelIdeal.nD Cert.KernelIdeal.τ Cert.KernelIdeal.sig) → Buf (Elt Ideal) ℓ) (c : Dev Cert.KernelIdeal.nD) :
    Buf (Elt Ideal) ((c.tc : Thread Cert.KernelIdeal.nD Cert.KernelIdeal.τ).loc Cert.KernelIdeal.main_v92) :=
  addf (Cert.KernelIdeal.Arrays.G13 (m ((c.tc : Thread Cert.KernelIdeal.nD Cert.KernelIdeal.τ).loc Cert.KernelIdeal.main_arg0)) (extractStridedSlice Cert.KernelIdeal.S131072x13 ![0, 0] (m ((c.tc : Thread Cert.KernelIdeal.nD Cert.KernelIdeal.τ).loc Cert.KernelIdeal.main_arg2)) Cert.KernelIdeal.Gen.slices_S131072x39_S131072x13_0_0) (Cert.KernelIdeal.Prefix.gatherK (F := Ideal) (m ((c.tc : Thread Cert.KernelIdeal.nD Cert.KernelIdeal.τ).loc Cert.KernelIdeal.main_arg6)) (m ((c.tc : Thread Cert.KernelIdeal.nD Cert.KernelIdeal.τ).loc Cert.KernelIdeal.main_arg1))) (Cert.KernelIdeal.Prefix.gatherK (F := Ideal) (m ((c.tc : Thread Cert.KernelIdeal.nD Cert.KernelIdeal.τ).loc Cert.KernelIdeal.main_arg9)) (m ((c.tc : Thread Cert.KernelIdeal.nD Cert.KernelIdeal.τ).loc Cert.KernelIdeal.main_arg1))) (extractStridedSlice Cert.KernelIdeal.S131072x26 ![0, 13] (m ((c.tc : Thread Cert.KernelIdeal.nD Cert.KernelIdeal.τ).loc Cert.KernelIdeal.main_arg2)) Cert.KernelIdeal.Gen.slices_S131072x39_S131072x26_0_13) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)))
      (DeepFM.deep (F := Ideal) Cert.KernelIdeal.dot_S131072x32_S32x32_S131072x32_1_0_0_1_n_n (Cert.KernelIdeal.Arrays.G14 (m ((c.tc : Thread Cert.KernelIdeal.nD Cert.KernelIdeal.τ).loc Cert.KernelIdeal.main_arg0)) (extractStridedSlice Cert.KernelIdeal.S131072x13 ![0, 0] (m ((c.tc : Thread Cert.KernelIdeal.nD Cert.KernelIdeal.τ).loc Cert.KernelIdeal.main_arg2)) Cert.KernelIdeal.Gen.slices_S131072x39_S131072x13_0_0) (Cert.KernelIdeal.Prefix.gatherK (F := Ideal) (m ((c.tc : Thread Cert.KernelIdeal.nD Cert.KernelIdeal.τ).loc Cert.KernelIdeal.main_arg9)) (m ((c.tc : Thread Cert.KernelIdeal.nD Cert.KernelIdeal.τ).loc Cert.KernelIdeal.main_arg1))) (extractStridedSlice Cert.KernelIdeal.S131072x26 ![0, 13] (m ((c.tc : Thread Cert.KernelIdeal.nD Cert.KernelIdeal.τ).loc Cert.KernelIdeal.main_arg2)) Cert.KernelIdeal.Gen.slices_S131072x39_S131072x26_0_13) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (extractStridedSlice Cert.KernelIdeal.S208x32 ![0, 0] (m ((c.tc : Thread Cert.KernelIdeal.nD Cert.KernelIdeal.τ).loc Cert.KernelIdeal.main_arg10)) Cert.KernelIdeal.Gen.slices_S624x32_S208x32_0_0) (extractStridedSlice Cert.KernelIdeal.S416x32 ![208, 0] (m ((c.tc : Thread Cert.KernelIdeal.nD Cert.KernelIdeal.τ).loc Cert.KernelIdeal.main_arg10)) Cert.KernelIdeal.Gen.slices_S624x32_S416x32_208_0) (m ((c.tc : Thread Cert.KernelIdeal.nD Cert.KernelIdeal.τ).loc Cert.KernelIdeal.main_arg11)))
        (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)))

/-- The kernel program runs to that result with its arguments unchanged. -/
theorem kernel_run (m : (ℓ : Loc Cert.KernelIdeal.nD Cert.KernelIdeal.τ Cert.KernelIdeal.sig) → Buf (Elt Ideal) ℓ) (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩ (fun r => ∀ c : Dev Cert.KernelIdeal.nD,
      r.2.mem ((c.tc : Thread Cert.KernelIdeal.nD Cert.KernelIdeal.τ).loc Cert.KernelIdeal.main_v92) = result m c
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)) := by
  refine (θ_run Cert.KernelIdeal.defs _ _).mono (fun r h c => ⟨?_, Cert.KernelIdeal.Arrays.args_of_post m r h c⟩) (Cert.KernelIdeal.Frame.run_main m ρ)
  rw [Cert.KernelIdeal.Arrays.result_of_post m r h c, Cert.KernelIdeal.Arrays.tail_read, Cert.KernelIdeal.Arrays.final13, Cert.KernelIdeal.Arrays.final14,
    Cert.KernelIdeal.Arrays.Varg0, Cert.KernelIdeal.Arrays.Varg3, Cert.KernelIdeal.Arrays.Varg4, Cert.KernelIdeal.Arrays.Varg5, Cert.KernelIdeal.Arrays.Varg7, Cert.KernelIdeal.Arrays.Varg8, Cert.KernelIdeal.Arrays.Varg11,
    Cert.KernelIdeal.Arrays.V16, Cert.KernelIdeal.Arrays.V31, Cert.KernelIdeal.Arrays.V32, Cert.KernelIdeal.Arrays.V33, Cert.KernelIdeal.Arrays.V34, Cert.KernelIdeal.Arrays.V35]
  rfl

theorem algebraic : Cert.algebraic_KernelIdeal_ReferenceIdeal := by
  intro m ρ m' ρ' _ hagree
  refine ⟨result m, kernel_run m ρ, ?_⟩
  refine (θ_run Cert.ReferenceIdeal.defs _ _).mono (fun r h c => ⟨(h c).1.trans ?_, (h c).2⟩) (Cert.ReferenceIdeal.RefValue.run' m' ρ')
  obtain ⟨h0, h1, h2, h3, h4, h5, h6, h7, h8, h9, h10, h11, h12, h13, h14, h15, h16, h17⟩ := hagree c
  have e0 : StableHlo.launchContents m' c (Proc.devRef .tc Cert.ReferenceIdeal.main_arg0) = (m ((c.tc : Thread Cert.KernelIdeal.nD Cert.KernelIdeal.τ).loc Cert.KernelIdeal.main_arg0)) := h0
  have e1 : StableHlo.launchContents m' c (Proc.devRef .tc Cert.ReferenceIdeal.main_arg1) = (m ((c.tc : Thread Cert.KernelIdeal.nD Cert.KernelIdeal.τ).loc Cert.KernelIdeal.main_arg1)) := h1
  have e2 : StableHlo.launchContents m' c (Proc.devRef .tc Cert.ReferenceIdeal.main_arg2) = (m ((c.tc : Thread Cert.KernelIdeal.nD Cert.KernelIdeal.τ).loc Cert.KernelIdeal.main_arg2)) := h2
  have e3 : StableHlo.launchContents m' c (Proc.devRef .tc Cert.ReferenceIdeal.main_arg3) = (m ((c.tc : Thread Cert.KernelIdeal.nD Cert.KernelIdeal.τ).loc Cert.KernelIdeal.main_arg3)) := h3
  have e4 : StableHlo.launchContents m' c (Proc.devRef .tc Cert.ReferenceIdeal.main_arg4) = (m ((c.tc : Thread Cert.KernelIdeal.nD Cert.KernelIdeal.τ).loc Cert.KernelIdeal.main_arg4)) := h4
  have e5 : StableHlo.launchContents m' c (Proc.devRef .tc Cert.ReferenceIdeal.main_arg5) = (m ((c.tc : Thread Cert.KernelIdeal.nD Cert.KernelIdeal.τ).loc Cert.KernelIdeal.main_arg5)) := h5
  have e6 : StableHlo.launchContents m' c (Proc.devRef .tc Cert.ReferenceIdeal.main_arg6) = (m ((c.tc : Thread Cert.KernelIdeal.nD Cert.KernelIdeal.τ).loc Cert.KernelIdeal.main_arg6)) := h6
  have e7 : StableHlo.launchContents m' c (Proc.devRef .tc Cert.ReferenceIdeal.main_arg7) = (m ((c.tc : Thread Cert.KernelIdeal.nD Cert.KernelIdeal.τ).loc Cert.KernelIdeal.main_arg7)) := h7
  have e8 : StableHlo.launchContents m' c (Proc.devRef .tc Cert.ReferenceIdeal.main_arg8) = (m ((c.tc : Thread Cert.KernelIdeal.nD Cert.KernelIdeal.τ).loc Cert.KernelIdeal.main_arg8)) := h8
  have e9 : StableHlo.launchContents m' c (Proc.devRef .tc Cert.ReferenceIdeal.main_arg9) = (m ((c.tc : Thread Cert.KernelIdeal.nD Cert.KernelIdeal.τ).loc Cert.KernelIdeal.main_arg9)) := h9
  have e10 : StableHlo.launchContents m' c (Proc.devRef .tc Cert.ReferenceIdeal.main_arg10) = (m ((c.tc : Thread Cert.KernelIdeal.nD Cert.KernelIdeal.τ).loc Cert.KernelIdeal.main_arg10)) := h10
  have e11 : StableHlo.launchContents m' c (Proc.devRef .tc Cert.ReferenceIdeal.main_arg11) = (m ((c.tc : Thread Cert.KernelIdeal.nD Cert.KernelIdeal.τ).loc Cert.KernelIdeal.main_arg11)) := h11
  have e12 : StableHlo.launchContents m' c (Proc.devRef .tc Cert.ReferenceIdeal.main_arg12) = (m ((c.tc : Thread Cert.KernelIdeal.nD Cert.KernelIdeal.τ).loc Cert.KernelIdeal.main_arg12)) := h12
  have e13 : StableHlo.launchContents m' c (Proc.devRef .tc Cert.ReferenceIdeal.main_arg13) = (m ((c.tc : Thread Cert.KernelIdeal.nD Cert.KernelIdeal.τ).loc Cert.KernelIdeal.main_arg13)) := h13
  have e14 : StableHlo.launchContents m' c (Proc.devRef .tc Cert.ReferenceIdeal.main_arg14) = (m ((c.tc : Thread Cert.KernelIdeal.nD Cert.KernelIdeal.τ).loc Cert.KernelIdeal.main_arg14)) := h14
  have e15 : StableHlo.launchContents m' c (Proc.devRef .tc Cert.ReferenceIdeal.main_arg15) = (m ((c.tc : Thread Cert.KernelIdeal.nD Cert.KernelIdeal.τ).loc Cert.KernelIdeal.main_arg15)) := h15
  have e16 : StableHlo.launchContents m' c (Proc.devRef .tc Cert.ReferenceIdeal.main_arg16) = (m ((c.tc : Thread Cert.KernelIdeal.nD Cert.KernelIdeal.τ).loc Cert.KernelIdeal.main_arg16)) := h16
  have e17 : StableHlo.launchContents m' c (Proc.devRef .tc Cert.ReferenceIdeal.main_arg17) = (m ((c.tc : Thread Cert.KernelIdeal.nD Cert.KernelIdeal.τ).loc Cert.KernelIdeal.main_arg17)) := h17
  rw [e0, e1, e2, e3, e4, e5, e6, e7, e8, e9, e10, e11, e12, e13, e14, e15, e16, e17]
  exact (Cert.KernelIdeal.Glue.value_eq (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))
    (m ((c.tc : Thread Cert.KernelIdeal.nD Cert.KernelIdeal.τ).loc Cert.KernelIdeal.main_arg6)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))
    _ _ (fun n => rfl) (fun n j => rfl)).symm

theorem claim : Cert.Claim := ⟨Cert.Kernel.Gen.facts, Cert.KernelIdeal.Gen.facts, Cert.ReferenceIdeal.Gen.facts, Cert.Pre_finite_inputs.Gen.facts,
  frame_p, frame_pi, frame_ri, preserves, algebraic⟩

end Cert.Proof

end
